-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S1x1x4096 : Shape := ⟨3, ![1, 1, 4096]⟩
abbrev S4096x1024 : Shape := ⟨2, ![4096, 1024]⟩
abbrev S4096 : Shape := ⟨1, ![4096]⟩
abbrev S16384x4096 : Shape := ⟨2, ![16384, 4096]⟩
abbrev S16384 : Shape := ⟨1, ![16384]⟩
abbrev S1024x4096 : Shape := ⟨2, ![1024, 4096]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1x4096 : S_.BroadcastsInDim S1x1x4096 (![] : Fin 0 → Fin S1x1x4096.rank)
  reducesTo_S1x1x4096_S_d0_1_2 : S1x1x4096.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S16384 .f32) (main_arg8 : FVec F S16384 .f32) (main_arg9 : FVec F S1024x4096 .f32) (main_arg10 : FVec F S1024 .f32) (main_v33 : IVec S_ 1) : IVec S_ 1 :=
  let main_v34 : FVec F S16384 .f32 := Host.absf main_arg7
  let main_cst_12 : FVec F S_ .f32 := constant S_ .f32 0x7F800000#32
  let main_v35 : FVec F S16384 .f32 := broadcastInDim S16384 ![] bcast_S_S16384 main_cst_12
  let main_v36 : IVec S16384 1 := cmpf .olt main_v34 main_v35
  let main_c_13 : IVec S_ 1 := constantI S_ 1 1#1
  let main_v37 : IVec S_ 1 := (fun x v => Host.reduce IntOp.andi x v reducesTo_S16384_S_d0 h_S_) main_v36 main_c_13
  let main_v38 : IVec S_ 1 := andi main_v33 main_v37
  let main_v39 : FVec F S16384 .f32 := Host.absf main_arg8
  let main_cst_14 : FVec F S_ .f32 := constant S_ .f32 0x7F800000#32
  let main_v40 : FVec F S16384 .f32 := broadcastInDim S16384 ![] bcast_S_S16384 main_cst_14
  let main_v41 : IVec S16384 1 := cmpf .olt main_v39 main_v40
  let main_c_15 : IVec S_ 1 := constantI S_ 1 1#1
  let main_v42 : IVec S_ 1 := (fun x v => Host.reduce IntOp.andi x v reducesTo_S16384_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S4096 .f32) (main_arg5 : FVec F S16384x4096 .f32) (main_arg6 : FVec F S16384x4096 .f32) (main_arg7 : FVec F S16384 .f32) (main_arg8 : FVec F S16384 .f32) (main_arg9 : FVec F S1024x4096 .f32) (main_arg10 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S16384x4096 .f32 := Host.absf main_arg5
  let main_cst_8 : FVec F S_ .f32 := constant S_ .f32 0x7F800000#32
  let main_v25 : FVec F S16384x4096 .f32 := broadcastInDim S16384x4096 ![] bcast_S_S16384x4096 main_cst_8
  let main_v26 : IVec S16384x4096 1 := cmpf .olt main_v24 main_v25
  let main_c_9 : IVec S_ 1 := constantI S_ 1 1#1
  let main_v27 : IVec S_ 1 := (fun x v => Host.reduce IntOp.andi x v reducesTo_S16384x4096_S_d0_1 h_S_) main_v26 main_c_9
  let main_v28 : IVec S_ 1 := andi main_v23 main_v27
  let main_v29 : FVec F S16384x4096 .f32 := Host.absf main_arg6
  let main_cst_10 : FVec F S_ .f32 := constant S_ .f32 0x7F800000#32
  let main_v30 : FVec F S16384x4096 .f32 := broadcastInDim S16384x4096 ![] bcast_S_S16384x4096 main_cst_10
  let main_v31 : IVec S16384x4096 1 := cmpf .olt main_v29 main_v30
  let main_c_11 : IVec S_ 1 := constantI S_ 1 1#1
  let main_v32 : IVec S_ 1 := (fun x v => Host.reduce IntOp.andi x v reducesTo_S16384x4096_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x1024 .f32) (main_arg1 : FVec F S1x1x4096 .f32) (main_arg2 : FVec F S1x1x4096 .f32) (main_arg3 : FVec F S4096x1024 .f32) (main_arg4 : FVec F S4096 .f32) (main_arg5 : FVec F S16384x4096 .f32) (main_arg6 : FVec F S16384x4096 .f32) (main_arg7 : FVec F S16384 .f32) (main_arg8 : FVec F S16384 .f32) (main_arg9 : FVec F S1024x4096 .f32) (main_arg10 : FVec F S1024 .f32) : IVec S_ 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1x4096 .f32 := Host.absf main_arg1
  let main_cst_0 : FVec F S_ .f32 := constant S_ .f32 0x7F800000#32
  let main_v5 : FVec F S1x1x4096 .f32 := broadcastInDim S1x1x4096 ![] bcast_S_S1x1x4096 main_cst_0
  let main_v6 : IVec S1x1x4096 1 := cmpf .olt main_v4 main_v5
  let main_c_1 : IVec S_ 1 := constantI S_ 1 1#1
  let main_v7 : IVec S_ 1 := (fun x v => Host.reduce IntOp.andi x v reducesTo_S1x1x4096_S_d0_1_2 h_S_) main_v6 main_c_1
  let main_v8 : IVec S_ 1 := andi main_v3 main_v7
  let main_v9 : FVec F S1x1x4096 .f32 := Host.absf main_arg2
  let main_cst_2 : FVec F S_ .f32 := constant S_ .f32 0x7F800000#32
  let main_v10 : FVec F S1x1x4096 .f32 := broadcastInDim S1x1x4096 ![] bcast_S_S1x1x4096 main_cst_2
  let main_v11 : IVec S1x1x4096 1 := cmpf .olt main_v9 main_v10
  let main_c_3 : IVec S_ 1 := constantI S_ 1 1#1
  let main_v12 : IVec S_ 1 := (fun x v => Host.reduce IntOp.andi x v reducesTo_S1x1x4096_S_d0_1_2 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_v13 main_v16
-- ==== Kernel.lean ====
abbrev S1x1024 : Shape := ⟨2, ![1, 1024]⟩
abbrev S1x1x4096 : Shape := ⟨3, ![1, 1, 4096]⟩
abbrev S4096x1024 : Shape := ⟨2, ![4096, 1024]⟩
abbrev S4096 : Shape := ⟨1, ![4096]⟩
abbrev S16384x4096 : Shape := ⟨2, ![16384, 4096]⟩
abbrev S16384 : Shape := ⟨1, ![16384]⟩
abbrev S1024x4096 : Shape := ⟨2, ![1024, 4096]⟩
abbrev S1024 : Shape := ⟨1, ![1024]⟩
abbrev S1x4096 : Shape := ⟨2, ![1, 4096]⟩
abbrev S1024x1024 : Shape := ⟨2, ![1024, 1024]⟩
abbrev S4x4096x4096 : Shape := ⟨3, ![4, 4096, 4096]⟩
abbrev S4x4096 : Shape := ⟨2, ![4, 4096]⟩
abbrev S1x128 : Shape := ⟨2, ![1, 128]⟩
abbrev S4x128x4096 : Shape := ⟨3, ![4, 128, 4096]⟩
abbrev S4x128 : Shape := ⟨2, ![4, 128]⟩
abbrev S1x128x4096 : Shape := ⟨3, ![1, 128, 4096]⟩
abbrev S128x4096 : Shape := ⟨2, ![128, 4096]⟩
abbrev S128 : Shape := ⟨1, ![128]⟩
abbrev S4096x128 : Shape := ⟨2, ![4096, 128]⟩
abbrev S256x4096 : Shape := ⟨2, ![256, 4096]⟩
abbrev S1x256 : Shape := ⟨2, ![1, 256]⟩
abbrev S4096x256 : Shape := ⟨2, ![4096, 256]⟩

abbrev nBuf : Space → Nat
  | .hbm => 25
  | .vmem => 31
  | .smem => 0
  | _ => 0

abbrev bufTy : (tb : Table) → Fin (tcTables nBuf tb) → BufTy
  | .hbm, ⟨0, _⟩ => ⟨S1x1024, .f32⟩
  | .hbm, ⟨1, _⟩ => ⟨S1x1x4096, .f32⟩
  | .hbm, ⟨2, _⟩ => ⟨S1x1x4096, .f32⟩
  | .hbm, ⟨3, _⟩ => ⟨S4096x1024, .f32⟩
  | .hbm, ⟨4, _⟩ => ⟨S4096, .f32⟩
  | .hbm, ⟨5, _⟩ => ⟨S16384x4096, .f32⟩
  | .hbm, ⟨6, _⟩ => ⟨S16384x4096, .f32⟩
  | .hbm, ⟨7, _⟩ => ⟨S16384, .f32⟩
  | .hbm, ⟨8, _⟩ => ⟨S16384, .f32⟩
  | .hbm, ⟨9, _⟩ => ⟨S1024x4096, .f32⟩
  | .hbm, ⟨10, _⟩ => ⟨S1024, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S4x4096x4096, .f32⟩
  | .hbm, ⟨16, _⟩ => ⟨S4x4096x4096, .f32⟩
  | .hbm, ⟨17, _⟩ => ⟨S4x4096, .f32⟩
  | .hbm, ⟨18, _⟩ => ⟨S4x4096, .f32⟩
  | .hbm, ⟨19, _⟩ => ⟨S1x4096, .f32⟩
  | .hbm, ⟨20, _⟩ => ⟨S1x4096, .f32⟩
  | .hbm, ⟨21, _⟩ => ⟨S1x1024, .f32⟩
  | .hbm, ⟨22, _⟩ => ⟨S1x1024, .f32⟩
  | .hbm, ⟨23, _⟩ => ⟨S1x1x4096, .f32⟩
  | .hbm, ⟨24, _⟩ => ⟨S1x1x4096, .f32⟩
  | .local _ .vmem, ⟨0, _⟩ => ⟨S1x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x4096, .f32⟩
  | .local _ .vmem, ⟨8, _⟩ => ⟨S1x4096, .f32⟩
  | .local _ .vmem, ⟨9, _⟩ => ⟨S1x128, .f32⟩
  | .local _ .vmem, ⟨10, _⟩ => ⟨S1x128, .f32⟩
  | .local _ .vmem, ⟨11, _⟩ => ⟨S4x128x4096, .f32⟩
  | .local _ .vmem, ⟨12, _⟩ => ⟨S4x128x4096, .f32⟩
  | .local _ .vmem, ⟨13, _⟩ => ⟨S4x128x4096, .f32⟩
  | .local _ .vmem, ⟨14, _⟩ => ⟨S4x128x4096, .f32⟩
  | .local _ .vmem, ⟨15, _⟩ => ⟨S4x128, .f32⟩
  | .local _ .vmem, ⟨16, _⟩ => ⟨S4x128, .f32⟩
  | .local _ .vmem, ⟨17, _⟩ => ⟨S4x128, .f32⟩
  | .local _ .vmem, ⟨18, _⟩ => ⟨S4x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S4x128, .f32⟩
  | .local _ .vmem, ⟨24, _⟩ => ⟨S1x4096, .f32⟩
  | .local _ .vmem, ⟨25, _⟩ => ⟨S256x4096, .f32⟩
  | .local _ .vmem, ⟨26, _⟩ => ⟨S256x4096, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

@[reducible] def k1_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k1_off1 (k1_t1 : Fin k1_t1_loop.trips) : Fin 3 → Nat :=
  let c0_i32_16 : BitVec 32 := 0#32
  let c0_i32 : BitVec 32 := 0#32
  let c1_i32 : BitVec 32 := 1#32
  let arg11 : BitVec 32 := Scf.iv c0_i32 c1_i32 k1_t1
  let c1_i32_15 : BitVec 32 := 1#32
  let v32 : BitVec 32 := Scalar.muli arg11 c1_i32_15
  let v33 : BitVec 32 := Scalar.addi c0_i32_16 v32
  let v34 : Index := Scalar.indexCast v33
  let c0_17 : Index := 0#32
  let c0_18 : Index := 0#32
  ![v34.toNat, 0, 0]
def k1_off2 (k1_t1 : Fin k1_t1_loop.trips) : Fin 2 → Nat :=
  let c0_i32_16 : BitVec 32 := 0#32
  let c0_i32 : BitVec 32 := 0#32
  let c1_i32 : BitVec 32 := 1#32
  let arg11 : BitVec 32 := Scf.iv c0_i32 c1_i32 k1_t1
  let c1_i32_15 : BitVec 32 := 1#32
  let v32 : BitVec 32 := Scalar.muli arg11 c1_i32_15
  let v33 : BitVec 32 := Scalar.addi c0_i32_16 v32
  let v42 : Index := Scalar.indexCast v33
  let c0_21 : Index := 0#32
  ![v42.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  shapeCasts_S1x1024_S1x1024 : S1x1024.ShapeCasts S1x1024
  shapeCasts_S1x1x4096_S1x4096 : S1x1x4096.ShapeCasts S1x4096
  shapeCasts_S16384x4096_S4x4096x4096 : S16384x4096.ShapeCasts S4x4096x4096
  shapeCasts_S16384_S4x4096 : S16384.ShapeCasts S4x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  h_S1x128x4096 : 0 < S1x128x4096.numel
  shapeCasts_S1x128x4096_S128x4096 : S1x128x4096.ShapeCasts S128x4096
  h_S1x128 : 0 < S1x128.numel
  shapeCasts_S1x128_S128 : S1x128.ShapeCasts S128
  transposes_S128x4096_p1_0_S4096x128 : S128x4096.Transposes [1, 0] S4096x128
  shapeCasts_S128_S1x128 : S128.ShapeCasts S1x128
  inb_S1x128_S1x128_0_0 : ∀ a, (![0, 0] : Fin 2 → Nat) a + S1x128.size a ≤ S1x128.size a
  shapeCasts_S1x128_S1x128 : S1x128.ShapeCasts S1x128
  inb_S4x128_S1x128_0_0 : ∀ a, (![0, 0] : Fin 2 → Nat) a + S1x128.size a ≤ S4x128.size a
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  shapeCasts_S1024_S1x1024 : S1024.ShapeCasts S1x1024
  inb_S256x4096_S256x4096_0_0 : ∀ a, (![0, 0] : Fin 2 → Nat) a + S256x4096.size a ≤ S256x4096.size a
  h_S256x4096 : 0 < S256x4096.numel
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x4096_S1x1x4096 : S1x4096.ShapeCasts S1x1x4096
  dot_S1x1024_S1024x1024_S1x1024_1_0_0_1_n_n_wf : DotDims.WF S1x1024 S1024x1024 S1x1024 [1] [0] [0] [1] [] []
  dot_S1x4096_S4096x128_S1x128_1_0_0_1_n_n_wf : DotDims.WF S1x4096 S4096x128 S1x128 [1] [0] [0] [1] [] []
  dot_S1x4096_S4096x256_S1x256_1_0_0_1_n_n_wf : DotDims.WF S1x4096 S4096x256 S1x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hrank1 : 0 < grid1.rank
  k1_t1_ok : k1_t1_loop.OK
  k1_off1_inb : ∀ k1_t1 : Fin k1_t1_loop.trips, ∀ a, (k1_off1 k1_t1) a + S1x128x4096.size a ≤ S4x128x4096.size a
  k1_off2_inb : ∀ k1_t1 : Fin k1_t1_loop.trips, ∀ a, (k1_off2 k1_t1) a + S1x128.size a ≤ S4x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x4096.size a
  hwx1_2 : ∀ i : grid1.Coords, EltTy.bits .f32 = 32 ∨ (Rect.block (s := S1x4096) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x4096.size a ≤ S4x4096x4096.size a
  hwx1_3 : ∀ i : grid1.Coords, EltTy.bits .f32 = 32 ∨ (Rect.block (s := S4x4096x4096) S4x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x128x4096.size a ≤ S4x4096x4096.size a
  hwx1_4 : ∀ i : grid1.Coords, EltTy.bits .f32 = 32 ∨ (Rect.block (s := S4x4096x4096) S4x128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x128.size a ≤ S4x4096.size a
  hwx1_5 : ∀ i : grid1.Coords, EltTy.bits .f32 = 32 ∨ (Rect.block (s := S4x4096) S4x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x128.size a ≤ S4x4096.size a
  hwx1_6 : ∀ i : grid1.Coords, EltTy.bits .f32 = 32 ∨ (Rect.block (s := S4x4096) S4x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x4096.size a
  hwx1_7 : ∀ i : grid1.Coords, EltTy.bits .f32 = 32 ∨ (Rect.block (s := S1x4096) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x4096.size a
  hwx1_8 : ∀ i : grid1.Coords, EltTy.bits .f32 = 32 ∨ (Rect.block (s := S1x4096) S1x128.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S1024x4096.size a
  hwx2_1 : ∀ i : grid2.Coords, EltTy.bits .f32 = 32 ∨ (Rect.block (s := S1024x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x1024.size a
  hwx2_2 : ∀ i : grid2.Coords, EltTy.bits .f32 = 32 ∨ (Rect.block (s := S1x1024) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x1024.size a
  hwx2_3 : ∀ i : grid2.Coords, EltTy.bits .f32 = 32 ∨ (Rect.block (s := S1x1024) S1x256.size (cc2_transform_3 i) (hinb2_3 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x4096_S4096x128_S1x128_1_0_0_1_n_n : DotDims S1x4096 S4096x128 S1x128 where
  lhsContracting := [1]
  rhsContracting := [0]
  lhsNonContracting := [0]
  rhsNonContracting := [1]
  lhsBatch := []
  rhsBatch := []
  wf := dot_S1x4096_S4096x128_S1x128_1_0_0_1_n_n_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf

abbrev win0_0 : Pipeline.Window sig grid0 :=
  Pipeline.Window.ofSpec (Memref.whole main_arg0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S4x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S4x128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S4x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7) S4x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_0) S1x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_1) S1x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v8_0) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x1024 : Shape := ⟨2, ![1, 1024]⟩
abbrev S1x1x4096 : Shape := ⟨3, ![1, 1, 4096]⟩
abbrev S4096x1024 : Shape := ⟨2, ![4096, 1024]⟩
abbrev S4096 : Shape := ⟨1, ![4096]⟩
abbrev S16384x4096 : Shape := ⟨2, ![16384, 4096]⟩
abbrev S16384 : Shape := ⟨1, ![16384]⟩
abbrev S1024x4096 : Shape := ⟨2, ![1024, 4096]⟩
abbrev S1024 : Shape := ⟨1, ![1024]⟩
abbrev S1x4096 : Shape := ⟨2, ![1, 4096]⟩
abbrev S4096x16384 : Shape := ⟨2, ![4096, 16384]⟩
abbrev S1x16384 : Shape := ⟨2, ![1, 16384]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1x4096, .f32⟩
  | .hbm, ⟨2, _⟩ => ⟨S1x1x4096, .f32⟩
  | .hbm, ⟨3, _⟩ => ⟨S4096x1024, .f32⟩
  | .hbm, ⟨4, _⟩ => ⟨S4096, .f32⟩
  | .hbm, ⟨5, _⟩ => ⟨S16384x4096, .f32⟩
  | .hbm, ⟨6, _⟩ => ⟨S16384x4096, .f32⟩
  | .hbm, ⟨7, _⟩ => ⟨S16384, .f32⟩
  | .hbm, ⟨8, _⟩ => ⟨S16384, .f32⟩
  | .hbm, ⟨9, _⟩ => ⟨S1024x4096, .f32⟩
  | .hbm, ⟨10, _⟩ => ⟨S1024, .f32⟩
  | .hbm, ⟨11, _⟩ => ⟨S1024x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S4096x16384, .f32⟩
  | .hbm, ⟨18, _⟩ => ⟨S1x16384, .f32⟩
  | .hbm, ⟨19, _⟩ => ⟨S1x16384, .f32⟩
  | .hbm, ⟨20, _⟩ => ⟨S1x16384, .f32⟩
  | .hbm, ⟨21, _⟩ => ⟨S4096x16384, .f32⟩
  | .hbm, ⟨22, _⟩ => ⟨S1x16384, .f32⟩
  | .hbm, ⟨23, _⟩ => ⟨S1x16384, .f32⟩
  | .hbm, ⟨24, _⟩ => ⟨S1x16384, .f32⟩
  | .hbm, ⟨25, _⟩ => ⟨S1x16384, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S_, .f32⟩
  | .hbm, ⟨53, _⟩ => ⟨S1x4096, .f32⟩
  | .hbm, ⟨54, _⟩ => ⟨S1x4096, .f32⟩
  | .hbm, ⟨55, _⟩ => ⟨S_, .f32⟩
  | .hbm, ⟨56, _⟩ => ⟨S1x4096, .f32⟩
  | .hbm, ⟨57, _⟩ => ⟨S1x4096, .f32⟩
  | .hbm, ⟨58, _⟩ => ⟨S1x4096, .f32⟩
  | .hbm, ⟨59, _⟩ => ⟨S1x4096, .f32⟩
  | .hbm, ⟨60, _⟩ => ⟨S4096x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1x4096, .f32⟩
  | .hbm, ⟨65, _⟩ => ⟨S1x1x4096, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  shapeCasts_S1x1x4096_S1x4096 : S1x1x4096.ShapeCasts S1x4096
  transposes_S16384x4096_S4096x16384_1_0 : S16384x4096.Transposes [1, 0] S4096x16384
  bcast_S16384_S1x16384_1 : S16384.BroadcastsInDim S1x16384 (![1] : Fin 1 → Fin S1x16384.rank)
  slices_S1x16384_S1x4096_0_0 : S1x16384.Slices ![0, 0] S1x4096
  slices_S1x16384_S1x4096_0_4096 : S1x16384.Slices ![0, 4096] S1x4096
  slices_S1x16384_S1x4096_0_8192 : S1x16384.Slices ![0, 8192] S1x4096
  slices_S1x16384_S1x4096_0_12288 : S1x16384.Slices ![0, 12288] S1x4096
  bcast_S_S1x4096 : S_.BroadcastsInDim S1x4096 (![] : Fin 0 → Fin S1x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x4096_S1x1x4096_1_2 : S1x4096.BroadcastsInDim S1x1x4096 (![1, 2] : Fin 2 → Fin S1x1x4096.rank)
  dot_S1x1024_S1024x4096_S1x4096_1_0_0_1_n_n_wf : DotDims.WF S1x1024 S1024x4096 S1x4096 [1] [0] [0] [1] [] []
  dot_S1x4096_S4096x16384_S1x16384_1_0_0_1_n_n_wf : DotDims.WF S1x4096 S4096x16384 S1x16384 [1] [0] [0] [1] [] []
  dot_S1x4096_S4096x1024_S1x1024_1_0_0_1_n_n_wf : DotDims.WF S1x4096 S4096x1024 S1x1024 [1] [0] [0] [1] [] []

variable [Facts₀]

def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x4096_S4096x16384_S1x16384_1_0_0_1_n_n : DotDims S1x4096 S4096x16384 S1x16384 where
  lhsContracting := [1]
  rhsContracting := [0]
  lhsNonContracting := [0]
  rhsNonContracting := [1]
  lhsBatch := []
  rhsBatch := []
  wf := dot_S1x4096_S4096x16384_S1x16384_1_0_0_1_n_n_wf
def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf

class Facts : Prop extends Facts₀ where

variable [Facts]
-- ==== Proof.GateLoopBits.lean ====
/-
  The gate loop of the recurrent step, after its last trip.

  One grid point of the middle kernel computes, for each of the four gates k = 0, 1, 2, 3 (input, forget, cell,
  output), the 128 pre-activations of its block of hidden units,

      z_k = (xi · W_ih[k]ᵀ + h · W_hh[k]ᵀ) + b_ih[k] + b_hh[k],

  in a counted loop of four trips, trip k storing z_k into row k of a 4 × 128 scratch; the state update then reads
  the four rows back. This module states what the scratch has listed once the loop is over: four pieces, newest
  first, the piece of trip k being the unit rectangle of row k carrying z_k as a function of the two activation
  rows and of gate k's slabs of the two weight blocks and rows of the two bias blocks. The rows are disjoint and
  together cover the scratch, so a later read of row k sees z_k whatever the scratch held before the loop.
-/
import proofs.«181757_j22763326668968_2_alg».proof.Proof.Gen.Kernel.Loops

set_option maxRecDepth 16384

noncomputable section

namespace Cert.Kernel.GateLoop

open Cert.Kernel Cert.Kernel.Gen
open Idealize.ShloMosaic Idealize.ShloMosaic.TcCoe Idealize.ShloMosaic.Tactic
open Idealize.SL Idealize.SL.Sem

variable {F : FTy → Type} [FloatOps F]

/-- The gate loop runs exactly four trips. -/
theorem gate_trips : Scf.trips k1_t1_loop.lb k1_t1_loop.ub k1_t1_loop.st = 4 := by decide +kernel
theorem gate_lt0 : 0 < k1_t1_loop.trips := by decide +kernel
theorem gate_lt1 : 1 < k1_t1_loop.trips := by decide +kernel
theorem gate_lt2 : 2 < k1_t1_loop.trips := by decide +kernel
theorem gate_lt3 : 3 < k1_t1_loop.trips := by decide +kernel
/-- Trip `k` of the gate loop, as an index below the trip count. -/
abbrev g0 : Fin k1_t1_loop.trips := ⟨0, gate_lt0⟩
abbrev g1 : Fin k1_t1_loop.trips := ⟨1, gate_lt1⟩
abbrev g2 : Fin k1_t1_loop.trips := ⟨2, gate_lt2⟩
abbrev g3 : Fin k1_t1_loop.trips := ⟨3, gate_lt3⟩

/-- What the four trips of the gate loop leave listed for the scratch, newest first: trip `k` writes row `k`
    (the unit rectangle at `k1_off2 k`) with that gate's pre-activation, the function `k1_pay1` of the two
    activation rows and of the gate's slabs of the two weight blocks and rows of the two bias blocks. -/
theorem gate_pieces (𝒱 : Variants) (c : Dev nD) (bd : Option 𝒱.V) (i : grid1.Coords) (arg1 : Memref sig .tc .vmem S1x4096 .f32) (harg1 : arg1.IsWhole) (arg2 : Memref sig .tc .vmem S1x4096 .f32) (harg2 : arg2.IsWhole) (arg3 : Memref sig .tc .vmem S1x128 .f32) (harg3 : arg3.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x128 .f32) (harg10 : arg10.IsWhole) (v0 : Vec F S1x4096 .f32) (v3 : Vec F S1x4096 .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    pb_k1_t1 (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 (Scf.trips k1_t1_loop.lb k1_t1_loop.ub k1_t1_loop.st)
      = [(⟨Rect.unit (s := S4x128) (k1_off2 g3) S1x128.size (k1_off2_inb g3),
        k1_pay1 v0 v3 (arg4.view.readAt (Elt F) (Rect.unit (s := S4x128x4096) (k1_off1 g3) S1x128x4096.size (k1_off1_inb g3)).toLoadRect X_arg4)
          (arg5.view.readAt (Elt F) (Rect.unit (s := S4x128x4096) (k1_off1 g3) S1x128x4096.size (k1_off1_inb g3)).toLoadRect X_arg5)
          (arg6.view.readAt (Elt F) (Rect.unit (s := S4x128) (k1_off2 g3) S1x128.size (k1_off2_inb g3)).toLoadRect X_arg6)
          (arg7.view.readAt (Elt F) (Rect.unit (s := S4x128) (k1_off2 g3) S1x128.size (k1_off2_inb g3)).toLoadRect X_arg7)⟩ : View.Piece (Elt F) S4x128 .f32),
         ⟨Rect.unit (s := S4x128) (k1_off2 g2) S1x128.size (k1_off2_inb g2),
        k1_pay1 v0 v3 (arg4.view.readAt (Elt F) (Rect.unit (s := S4x128x4096) (k1_off1 g2) S1x128x4096.size (k1_off1_inb g2)).toLoadRect X_arg4)
          (arg5.view.readAt (Elt F) (Rect.unit (s := S4x128x4096) (k1_off1 g2) S1x128x4096.size (k1_off1_inb g2)).toLoadRect X_arg5)
          (arg6.view.readAt (Elt F) (Rect.unit (s := S4x128) (k1_off2 g2) S1x128.size (k1_off2_inb g2)).toLoadRect X_arg6)
          (arg7.view.readAt (Elt F) (Rect.unit (s := S4x128) (k1_off2 g2) S1x128.size (k1_off2_inb g2)).toLoadRect X_arg7)⟩,
         ⟨Rect.unit (s := S4x128) (k1_off2 g1) S1x128.size (k1_off2_inb g1),
        k1_pay1 v0 v3 (arg4.view.readAt (Elt F) (Rect.unit (s := S4x128x4096) (k1_off1 g1) S1x128x4096.size (k1_off1_inb g1)).toLoadRect X_arg4)
          (arg5.view.readAt (Elt F) (Rect.unit (s := S4x128x4096) (k1_off1 g1) S1x128x4096.size (k1_off1_inb g1)).toLoadRect X_arg5)
          (arg6.view.readAt (Elt F) (Rect.unit (s := S4x128) (k1_off2 g1) S1x128.size (k1_off2_inb g1)).toLoadRect X_arg6)
          (arg7.view.readAt (Elt F) (Rect.unit (s := S4x128) (k1_off2 g1) S1x128.size (k1_off2_inb g1)).toLoadRect X_arg7)⟩,
         ⟨Rect.unit (s := S4x128) (k1_off2 g0) S1x128.size (k1_off2_inb g0),
        k1_pay1 v0 v3 (arg4.view.readAt (Elt F) (Rect.unit (s := S4x128x4096) (k1_off1 g0) S1x128x4096.size (k1_off1_inb g0)).toLoadRect X_arg4)
          (arg5.view.readAt (Elt F) (Rect.unit (s := S4x128x4096) (k1_off1 g0) S1x128x4096.size (k1_off1_inb g0)).toLoadRect X_arg5)
          (arg6.view.readAt (Elt F) (Rect.unit (s := S4x128) (k1_off2 g0) S1x128.size (k1_off2_inb g0)).toLoadRect X_arg6)
          (arg7.view.readAt (Elt F) (Rect.unit (s := S4x128) (k1_off2 g0) S1x128.size (k1_off2_inb g0)).toLoadRect X_arg7)⟩] := by
  rw [gate_trips]
  have e3 := pb_k1_t1_succ (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 g3
  have e2 := pb_k1_t1_succ (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 g2
  have e1 := pb_k1_t1_succ (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 g1
  have e0 := pb_k1_t1_succ (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 g0
  have z : pb_k1_t1 (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 0 = [] := rfl
  refine (e3.trans ?_)
  rw [show (g3 : Fin k1_t1_loop.trips).val = (g2 : Fin k1_t1_loop.trips).val + 1 from rfl, e2,
    show (g2 : Fin k1_t1_loop.trips).val = (g1 : Fin k1_t1_loop.trips).val + 1 from rfl, e1,
    show (g1 : Fin k1_t1_loop.trips).val = (g0 : Fin k1_t1_loop.trips).val + 1 from rfl, e0,
    show (g0 : Fin k1_t1_loop.trips).val = 0 from rfl, z]
  unfold tripL_k1_t1 trip_k1_t1
  rfl

end Cert.Kernel.GateLoop

end
-- ==== Proof.GateLoopIdeal.lean ====
/-
  The gate loop of the recurrent step, after its last trip.

  One grid point of the middle kernel computes, for each of the four gates k = 0, 1, 2, 3 (input, forget, cell,
  output), the 128 pre-activations of its block of hidden units,

      z_k = (xi · W_ih[k]ᵀ + h · W_hh[k]ᵀ) + b_ih[k] + b_hh[k],

  in a counted loop of four trips, trip k storing z_k into row k of a 4 × 128 scratch; the state update then reads
  the four rows back. This module states what the scratch has listed once the loop is over: four pieces, newest
  first, the piece of trip k being the unit rectangle of row k carrying z_k as a function of the two activation
  rows and of gate k's slabs of the two weight blocks and rows of the two bias blocks. The rows are disjoint and
  together cover the scratch, so a later read of row k sees z_k whatever the scratch held before the loop.
-/
import proofs.«181757_j22763326668968_2_alg».proof.Proof.Gen.KernelIdeal.Loops

set_option maxRecDepth 16384

noncomputable section

namespace Cert.KernelIdeal.GateLoop

open Cert.KernelIdeal Cert.KernelIdeal.Gen
open Idealize.ShloMosaic Idealize.ShloMosaic.TcCoe Idealize.ShloMosaic.Tactic
open Idealize.SL Idealize.SL.Sem

variable {F : FTy → Type} [FloatOps F]

/-- The gate loop runs exactly four trips. -/
theorem gate_trips : Scf.trips k1_t1_loop.lb k1_t1_loop.ub k1_t1_loop.st = 4 := by decide +kernel
theorem gate_lt0 : 0 < k1_t1_loop.trips := by decide +kernel
theorem gate_lt1 : 1 < k1_t1_loop.trips := by decide +kernel
theorem gate_lt2 : 2 < k1_t1_loop.trips := by decide +kernel
theorem gate_lt3 : 3 < k1_t1_loop.trips := by decide +kernel
/-- Trip `k` of the gate loop, as an index below the trip count. -/
abbrev g0 : Fin k1_t1_loop.trips := ⟨0, gate_lt0⟩
abbrev g1 : Fin k1_t1_loop.trips := ⟨1, gate_lt1⟩
abbrev g2 : Fin k1_t1_loop.trips := ⟨2, gate_lt2⟩
abbrev g3 : Fin k1_t1_loop.trips := ⟨3, gate_lt3⟩

/-- What the four trips of the gate loop leave listed for the scratch, newest first: trip `k` writes row `k`
    (the unit rectangle at `k1_off2 k`) with that gate's pre-activation, the function `k1_pay1` of the two
    activation rows and of the gate's slabs of the two weight blocks and rows of the two bias blocks. -/
theorem gate_pieces (𝒱 : Variants) (c : Dev nD) (bd : Option 𝒱.V) (i : grid1.Coords) (arg1 : Memref sig .tc .vmem S1x4096 .f32) (harg1 : arg1.IsWhole) (arg2 : Memref sig .tc .vmem S1x4096 .f32) (harg2 : arg2.IsWhole) (arg3 : Memref sig .tc .vmem S1x128 .f32) (harg3 : arg3.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x128 .f32) (harg10 : arg10.IsWhole) (v0 : Vec F S1x4096 .f32) (v3 : Vec F S1x4096 .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    pb_k1_t1 (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 (Scf.trips k1_t1_loop.lb k1_t1_loop.ub k1_t1_loop.st)
      = [(⟨Rect.unit (s := S4x128) (k1_off2 g3) S1x128.size (k1_off2_inb g3),
        k1_pay1 v0 v3 (arg4.view.readAt (Elt F) (Rect.unit (s := S4x128x4096) (k1_off1 g3) S1x128x4096.size (k1_off1_inb g3)).toLoadRect X_arg4)
          (arg5.view.readAt (Elt F) (Rect.unit (s := S4x128x4096) (k1_off1 g3) S1x128x4096.size (k1_off1_inb g3)).toLoadRect X_arg5)
          (arg6.view.readAt (Elt F) (Rect.unit (s := S4x128) (k1_off2 g3) S1x128.size (k1_off2_inb g3)).toLoadRect X_arg6)
          (arg7.view.readAt (Elt F) (Rect.unit (s := S4x128) (k1_off2 g3) S1x128.size (k1_off2_inb g3)).toLoadRect X_arg7)⟩ : View.Piece (Elt F) S4x128 .f32),
         ⟨Rect.unit (s := S4x128) (k1_off2 g2) S1x128.size (k1_off2_inb g2),
        k1_pay1 v0 v3 (arg4.view.readAt (Elt F) (Rect.unit (s := S4x128x4096) (k1_off1 g2) S1x128x4096.size (k1_off1_inb g2)).toLoadRect X_arg4)
          (arg5.view.readAt (Elt F) (Rect.unit (s := S4x128x4096) (k1_off1 g2) S1x128x4096.size (k1_off1_inb g2)).toLoadRect X_arg5)
          (arg6.view.readAt (Elt F) (Rect.unit (s := S4x128) (k1_off2 g2) S1x128.size (k1_off2_inb g2)).toLoadRect X_arg6)
          (arg7.view.readAt (Elt F) (Rect.unit (s := S4x128) (k1_off2 g2) S1x128.size (k1_off2_inb g2)).toLoadRect X_arg7)⟩,
         ⟨Rect.unit (s := S4x128) (k1_off2 g1) S1x128.size (k1_off2_inb g1),
        k1_pay1 v0 v3 (arg4.view.readAt (Elt F) (Rect.unit (s := S4x128x4096) (k1_off1 g1) S1x128x4096.size (k1_off1_inb g1)).toLoadRect X_arg4)
          (arg5.view.readAt (Elt F) (Rect.unit (s := S4x128x4096) (k1_off1 g1) S1x128x4096.size (k1_off1_inb g1)).toLoadRect X_arg5)
          (arg6.view.readAt (Elt F) (Rect.unit (s := S4x128) (k1_off2 g1) S1x128.size (k1_off2_inb g1)).toLoadRect X_arg6)
          (arg7.view.readAt (Elt F) (Rect.unit (s := S4x128) (k1_off2 g1) S1x128.size (k1_off2_inb g1)).toLoadRect X_arg7)⟩,
         ⟨Rect.unit (s := S4x128) (k1_off2 g0) S1x128.size (k1_off2_inb g0),
        k1_pay1 v0 v3 (arg4.view.readAt (Elt F) (Rect.unit (s := S4x128x4096) (k1_off1 g0) S1x128x4096.size (k1_off1_inb g0)).toLoadRect X_arg4)
          (arg5.view.readAt (Elt F) (Rect.unit (s := S4x128x4096) (k1_off1 g0) S1x128x4096.size (k1_off1_inb g0)).toLoadRect X_arg5)
          (arg6.view.readAt (Elt F) (Rect.unit (s := S4x128) (k1_off2 g0) S1x128.size (k1_off2_inb g0)).toLoadRect X_arg6)
          (arg7.view.readAt (Elt F) (Rect.unit (s := S4x128) (k1_off2 g0) S1x128.size (k1_off2_inb g0)).toLoadRect X_arg7)⟩] := by
  rw [gate_trips]
  have e3 := pb_k1_t1_succ (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 g3
  have e2 := pb_k1_t1_succ (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 g2
  have e1 := pb_k1_t1_succ (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 g1
  have e0 := pb_k1_t1_succ (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 g0
  have z : pb_k1_t1 (F := F) 𝒱 c bd i arg1 harg1 arg2 harg2 arg3 harg3 arg4 harg4 arg5 harg5 arg6 harg6 arg7 harg7 arg8 harg8 arg9 harg9 arg10 harg10 v0 v3 X_arg4 X_arg5 X_arg6 X_arg7 0 = [] := rfl
  refine (e3.trans ?_)
  rw [show (g3 : Fin k1_t1_loop.trips).val = (g2 : Fin k1_t1_loop.trips).val + 1 from rfl, e2,
    show (g2 : Fin k1_t1_loop.trips).val = (g1 : Fin k1_t1_loop.trips).val + 1 from rfl, e1,
    show (g1 : Fin k1_t1_loop.trips).val = (g0 : Fin k1_t1_loop.trips).val + 1 from rfl, e0,
    show (g0 : Fin k1_t1_loop.trips).val = 0 from rfl, z]
  unfold tripL_k1_t1 trip_k1_t1
  rfl

end Cert.KernelIdeal.GateLoop

end
-- ==== Proof.KernelRun.lean ====
/-
  The kernel program's run with its three results named.

  From any memory with zero counters, every weakly fair execution of the program on the TensorCores terminates without
  a fault; in every final state each of the three result buffers holds the contents the last segment boundary gives it
  (the fold of the host operations and the regions' write-backs over the launch memory), and every argument array is as
  launched. The run is the launch of the program's seven segments; the final thread state holds every unscoped buffer
  at the last boundary's contents, and the three results and the eleven arguments are read off it.
-/
import proofs.«181757_j22763326668968_2_alg».proof.Proof.FramePIdeal

set_option maxRecDepth 16384

noncomputable section

namespace Cert.KernelIdeal.ValueRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with the results: the three result buffers end at the last boundary's contents and the eleven argument
    arrays end as launched. -/
theorem run_results : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_v12) = W7 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v10 (by decide)),
       h c _ (mem_uc main_v11 (by decide)),
       h c _ (mem_uc main_v12 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.ValueRun

end
-- ==== Proof.LstmSpec.lean ====
/-
  One step of a long short-term memory cell between two affine maps, as functions on the extended reals.

  With x of length 1024, an input map (W_in, b_in) to length 4096, a hidden state h and a cell state c of length 4096,
  stacked gate weights W_ih, W_hh with 4 · 4096 rows and biases b_ih, b_hh, and an output map (W_out, b_out) back to
  length 1024, the step is

      xi  = W_in x + b_in
      z_r = the pre-activation of row r, a sum of the two products' entries and the two biases' entries
      c'  = σ(z_f) · c + σ(z_i) · tanh(z_g),   h' = σ(z_o) · tanh(c'),   out = W_out h' + b_out

  where the rows of z are the four gates i, f, g, o in this order, 4096 each, and σ(t) = 1 / (1 + e^(-t)).
  Two programs computing it may add the four terms of z_r in different orders; on the extended reals addition is
  commutative and associative at the infinities too, so the two orders agree for every input (`pre_ref_eq_pre`).
  The quotient 1 / (1 + e^(-t)), written out with the word of 1.0, is the one function `Ideal.logistic`
  (`quotient_eq_logistic`).
-/
import Idealize.ShloMosaic.PureOps.Ideal
import Idealize.ShloMosaic.Lib.IdealHost
import Idealize.ShloMosaic.Lib.ValueIdx

noncomputable section

namespace Cert.Lstm

open Idealize.ShloMosaic
open scoped BigOperators

/-- An affine map at a row: the row's product with the vector, plus the row's bias. -/
def affine {K N : ℕ} (v : Fin K → EReal) (W : Fin N → Fin K → EReal) (b : Fin N → EReal) (j : Fin N) : EReal :=
  (∑ k : Fin K, v k * W j k) + b j

/-- Row `j` of gate `g` among the 4 · 4096 stacked rows. -/
def row (g : Fin 4) (j : Fin 4096) : Fin 16384 := ⟨g.val * 4096 + j.val, by have := g.isLt; have := j.isLt; omega⟩

theorem row_val (g : Fin 4) (j : Fin 4096) : (row g j).val = g.val * 4096 + j.val := rfl

/-- The pre-activation of row `r`: the two products' entries added first, then the two biases. -/
def pre (xi h : Fin 4096 → EReal) (Wih Whh : Fin 16384 → Fin 4096 → EReal) (bih bhh : Fin 16384 → EReal) (r : Fin 16384) : EReal :=
  ((∑ k : Fin 4096, xi k * Wih r k) + (∑ k : Fin 4096, h k * Whh r k)) + bih r + bhh r

/-- The same four terms added product, bias, product, bias. -/
def preRef (xi h : Fin 4096 → EReal) (Wih Whh : Fin 16384 → Fin 4096 → EReal) (bih bhh : Fin 16384 → EReal) (r : Fin 16384) : EReal :=
  (((∑ k : Fin 4096, xi k * Wih r k) + bih r) + (∑ k : Fin 4096, h k * Whh r k)) + bhh r

/-- The two orders of addition agree on the extended reals. -/
theorem pre_ref_eq_pre (xi h : Fin 4096 → EReal) (Wih Whh : Fin 16384 → Fin 4096 → EReal) (bih bhh : Fin 16384 → EReal) (r : Fin 16384) :
    preRef xi h Wih Whh bih bhh r = pre xi h Wih Whh bih bhh r := by
  unfold preRef pre
  rw [add_right_comm (∑ k : Fin 4096, xi k * Wih r k) (bih r) (∑ k : Fin 4096, h k * Whh r k)]

/-- The new cell state at unit `j` from the pre-activations `z` and the old cell state. -/
def cell (z : Fin 16384 → EReal) (c : Fin 4096 → EReal) (j : Fin 4096) : EReal :=
  Ideal.logistic (z (row 1 j)) * c j + Ideal.logistic (z (row 0 j)) * Ideal.tanh (z (row 2 j))

/-- The new hidden state at unit `j`. -/
def hidden (z : Fin 16384 → EReal) (c : Fin 4096 → EReal) (j : Fin 4096) : EReal :=
  Ideal.logistic (z (row 3 j)) * Ideal.tanh (cell z c j)

/-- The quotient 1 / (1 + e^(-t)) with the constant written as the word of 1.0 is the logistic function. -/
theorem quotient_eq_logistic (t : EReal) :
    Ideal.div (Ideal.ofBits .f32 0x3F800000#32) (Ideal.ofBits .f32 0x3F800000#32 + Ideal.exp (-t)) = Ideal.logistic t := by
  rw [Ideal.ofBits_one_f32]; rfl

/-! ## The step as a function of the eleven argument arrays -/

section Whole

open ValueIdx

variable (x : (⟨2, ![1, 1024]⟩ : Shape).Idx → EReal) (h0 c0 : (⟨3, ![1, 1, 4096]⟩ : Shape).Idx → EReal)
  (Win : (⟨2, ![4096, 1024]⟩ : Shape).Idx → EReal) (bin : (⟨1, ![4096]⟩ : Shape).Idx → EReal)
  (Wih Whh : (⟨2, ![16384, 4096]⟩ : Shape).Idx → EReal) (bih bhh : (⟨1, ![16384]⟩ : Shape).Idx → EReal)
  (Wout : (⟨2, ![1024, 4096]⟩ : Shape).Idx → EReal) (bout : (⟨1, ![1024]⟩ : Shape).Idx → EReal)

/-- The projected input, a vector of length 4096. -/
def xiOf : Fin 4096 → EReal :=
  affine (fun e : Fin 1024 => x (ix2 (0 : Fin 1) e)) (fun (j : Fin 4096) (e : Fin 1024) => Win (ix2 j e)) (fun j : Fin 4096 => bin (ix1 j))

/-- The 4 · 4096 gate pre-activations. -/
def zOf : Fin 16384 → EReal :=
  pre (xiOf x Win bin) (fun k : Fin 4096 => h0 (ix3 (0 : Fin 1) (0 : Fin 1) k))
    (fun (r : Fin 16384) (k : Fin 4096) => Wih (ix2 r k)) (fun (r : Fin 16384) (k : Fin 4096) => Whh (ix2 r k))
    (fun r : Fin 16384 => bih (ix1 r)) (fun r : Fin 16384 => bhh (ix1 r))

/-- The new cell state. -/
def cellOf (j : Fin 4096) : EReal :=
  cell (zOf x h0 Win bin Wih Whh bih bhh) (fun k : Fin 4096 => c0 (ix3 (0 : Fin 1) (0 : Fin 1) k)) j

/-- The new hidden state. -/
def hiddenOf (j : Fin 4096) : EReal :=
  hidden (zOf x h0 Win bin Wih Whh bih bhh) (fun k : Fin 4096 => c0 (ix3 (0 : Fin 1) (0 : Fin 1) k)) j

/-- The projected output, a vector of length 1024. -/
def outOf (e : Fin 1024) : EReal :=
  affine (hiddenOf x h0 c0 Win bin Wih Whh bih bhh) (fun (e : Fin 1024) (j : Fin 4096) => Wout (ix2 e j)) (fun e : Fin 1024 => bout (ix1 e)) e

/-- The three results as arrays: the output `[1, 1024]`, the new hidden and cell states `[1, 1, 4096]`. -/
def outArr : (⟨2, ![1, 1024]⟩ : Shape).Idx → EReal := fun i => outOf x h0 c0 Win bin Wih Whh bih bhh Wout bout (i 1)
def hiddenArr : (⟨3, ![1, 1, 4096]⟩ : Shape).Idx → EReal := fun i => hiddenOf x h0 c0 Win bin Wih Whh bih bhh (i 2)
def cellArr : (⟨3, ![1, 1, 4096]⟩ : Shape).Idx → EReal := fun i => cellOf x h0 c0 Win bin Wih Whh bih bhh (i 2)

end Whole

end Cert.Lstm

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.EdgeRegions.lean ====
/-
  The two affine maps around the cell step, as whole arrays. The input projection (region 0) and the output projection
  (region 2) each run over four grid points; a point loads the whole vector, one block of weight rows and the matching
  block of bias columns, and stores the vector's product with those rows plus the bias entries. Read index by index,
  the block a point writes back is that point's block of ONE function of the arrays the region finds — the affine map
  `Cert.Lstm.affine` of the vector, the weights and the bias — and the four blocks tile the output array, so the array
  ends holding that function.
-/
import proofs.«181757_j22763326668968_2_alg».proof.Proof.FramePIdeal
import proofs.«181757_j22763326668968_2_alg».proof.Proof.LstmSpec
import proofs.«181757_j22763326668968_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeValue

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx
open scoped BigOperators

/-! ## Region 0: the input projection -/

/-- The literal zero offsets are the zero function. -/
theorem hz : (![0, 0] : Fin 2 → Nat) = fun _ => 0 := funext fun a => by fin_cases a <;> rfl

/-- The input projection's block at column `q`: the vector block's product with row `q` of the weight block, plus the
    bias block's entry. The two narrowings are the identity on extended reals, the transposed weight block at `(k, q)`
    is the weight block at `(q, k)`, the product into a zero accumulator is the plain sum, the cast keeps the shape. -/
theorem pay0_apply (x0 : Vec Ideal S1x1024 .f32) (x1 : Vec Ideal S1024x1024 .f32) (x2 : Vec Ideal S1x1024 .f32) (q : Fin 1024) :
    k0_pay1 (F := Ideal) x0 x1 x2 (ix2 (0 : Fin 1) q)
      = (∑ k : Fin 1024, x0 (ix2 (0 : Fin 1) k) * x1 (ix2 q k)) + x2 (ix2 (0 : Fin 1) q) := by
  unfold k0_pay1
  refine (addf_apply _ _ _).trans ?_
  refine congrArg₂ (· + ·) ?_ ?_
  · refine (Cert.LibPlainDot.matmul_plain_apply _ rfl rfl rfl rfl rfl rfl none _ _ (0 : Fin 1) q).trans ?_
    refine Finset.sum_congr rfl fun k _ => ?_
    refine congrArg₂ (· * ·) rfl ?_
    refine (transpose_apply _ _ _ (ix2 k q) (ix2 q k) ?_).trans rfl
    intro b
    match b with
    | ⟨0, _⟩ => rfl
    | ⟨1, _⟩ => rfl
  · rw [shapeCast_self]

/-- One grid point of the input projection: when the three loaded blocks are the vector, rows `n · 1024 …` of the
    weights and columns `n · 1024 …` of the bias, the stored block at column `q` is the affine map at row `n · 1024 + q`. -/
theorem point0 (X : S1x1024.Idx → EReal) (W : S4096x1024.Idx → EReal) (B : S1x4096.Idx → EReal)
    (x0 : Vec Ideal S1x1024 .f32) (x1 : Vec Ideal S1024x1024 .f32) (x2 : Vec Ideal S1x1024 .f32)
    (n : Nat) (hn : n < 4)
    (h0 : ∀ e : Fin 1024, x0 (ix2 (0 : Fin 1) e) = X (ix2 (0 : Fin 1) e))
    (h1 : ∀ r e : Fin 1024, x1 (ix2 r e) = W (ix2 (⟨n * 1024 + r.val, by have := r.isLt; omega⟩ : Fin 4096) e))
    (h2 : ∀ q : Fin 1024, x2 (ix2 (0 : Fin 1) q) = B (ix2 (0 : Fin 1) (⟨n * 1024 + q.val, by have := q.isLt; omega⟩ : Fin 4096)))
    (q : Fin 1024) :
    k0_pay1 (F := Ideal) x0 x1 x2 (ix2 (0 : Fin 1) q)
      = Cert.Lstm.affine (fun e : Fin 1024 => X (ix2 (0 : Fin 1) e)) (fun (j : Fin 4096) (e : Fin 1024) => W (ix2 j e))
          (fun j : Fin 4096 => B (ix2 (0 : Fin 1) j)) (⟨n * 1024 + q.val, by have := q.isLt; omega⟩ : Fin 4096) := by
  rw [pay0_apply]
  unfold Cert.Lstm.affine
  refine congrArg₂ (· + ·) (Finset.sum_congr rfl fun k _ => ?_) (h2 q)
  rw [h0 k, h1 q k]

section Region0

variable (V : (c : Dev nD) → (b : Ref sig .tc) → Buf (Elt Ideal) ((c : Thread nD τ).loc b))

/-- The printed index maps over the four grid points: the vector's window stays, the weights' moves down the rows,
    the bias's and the output's move along the columns. -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The input projection as one function of the three arrays the region finds. -/
abbrev G0 (c : Dev nD) : S1x4096.Idx → EReal := fun i =>
  Cert.Lstm.affine (fun e : Fin 1024 => (V c main_arg0 : S1x1024.Idx → EReal) (ix2 (0 : Fin 1) e))
    (fun (j : Fin 4096) (e : Fin 1024) => (V c main_arg3 : S4096x1024.Idx → EReal) (ix2 j e))
    (fun j : Fin 4096 => (V c main_v0 : S1x4096.Idx → EReal) (ix2 (0 : Fin 1) j)) (i 1)

/-- The vector's block at any point is the vector. -/
theorem blk0_0 (c : Dev nD) (t : Fin cfg0.N) (e : Fin 1024) :
    (iblk0 V c 0 t : Vec Ideal S1x1024 .f32) (ix2 (0 : Fin 1) e) = (V c main_arg0 : S1x1024.Idx → EReal) (ix2 (0 : Fin 1) e) := by
  obtain ⟨e0, e1, -⟩ := idx_facts0 t
  unfold iblk0
  rw [View.read_apply]
  show (V c main_arg0 : S1x1024.Idx → EReal) _ = V c main_arg0 _
  refine congrArg _ (funext fun a => Fin.ext ?_)
  match a with
  | ⟨0, _⟩ => show win0_0.index t (0 : Fin 2) * 1 + 1 * (0 : Fin 1).val = (0 : Fin 1).val; rw [e0]; rfl
  | ⟨1, _⟩ => show win0_0.index t (1 : Fin 2) * 1024 + 1 * e.val = e.val; rw [e1]; omega

/-- The weights' block at point `t` is rows `t · 1024 …` of the weights. -/
theorem blk0_1 (c : Dev nD) (t : Fin cfg0.N) (r e : Fin 1024) :
    (iblk0 V c 1 t : Vec Ideal S1024x1024 .f32) (ix2 r e)
      = (V c main_arg3 : S4096x1024.Idx → EReal) (ix2 (⟨t.val * 1024 + r.val, by have := r.isLt; have := t.isLt; have hN : cfg0.N = 4 := N_0; omega⟩ : Fin 4096) e) := by
  obtain ⟨-, -, e0, e1, -⟩ := idx_facts0 t
  unfold iblk0
  rw [View.read_apply]
  show (V c main_arg3 : S4096x1024.Idx → EReal) _ = V c main_arg3 _
  refine congrArg _ (funext fun a => Fin.ext ?_)
  match a with
  | ⟨0, _⟩ => show win0_1.index t (0 : Fin 2) * 1024 + 1 * r.val = t.val * 1024 + r.val; rw [e0]; omega
  | ⟨1, _⟩ => show win0_1.index t (1 : Fin 2) * 1024 + 1 * e.val = e.val; rw [e1]; omega

/-- The bias's block at point `t` is columns `t · 1024 …` of the bias. -/
theorem blk0_2 (c : Dev nD) (t : Fin cfg0.N) (q : Fin 1024) :
    (iblk0 V c 2 t : Vec Ideal S1x1024 .f32) (ix2 (0 : Fin 1) q)
      = (V c main_v0 : S1x4096.Idx → EReal) (ix2 (0 : Fin 1) (⟨t.val * 1024 + q.val, by have := q.isLt; have := t.isLt; have hN : cfg0.N = 4 := N_0; omega⟩ : Fin 4096)) := by
  obtain ⟨-, -, -, -, e0, e1, -⟩ := idx_facts0 t
  unfold iblk0
  rw [View.read_apply]
  show (V c main_v0 : S1x4096.Idx → EReal) _ = V c main_v0 _
  refine congrArg _ (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 1024 + 1 * q.val = t.val * 1024 + q.val; rw [e1]; omega

/-- What point `t` writes back is block `t` of the input projection of the arrays the region finds. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S1x1024) hz, View.ld_unit_zero (S := S1024x1024) hz]
  obtain ⟨-, -, -, -, -, -, e0, e1⟩ := idx_facts0 t
  have hN : cfg0.N = 4 := N_0
  have ht := t.isLt
  funext j
  obtain ⟨p, q, rfl⟩ : ∃ (p : Fin 1) (q : Fin 1024), j = ix2 p q := ⟨j 0, j 1, eq_ix2 j⟩
  obtain rfl : p = 0 := Subsingleton.elim _ _
  show k0_pay1 (F := Ideal) (iblk0 V c 0 t) (iblk0 V c 1 t) (iblk0 V c 2 t) (ix2 (0 : Fin 1) q)
    = G0 V c (((cfg0.win 3).blk t).view.emb (ix2 (0 : Fin 1) q))
  refine (point0 (V c main_arg0) (V c main_arg3) (V c main_v0) (iblk0 V c 0 t) (iblk0 V c 1 t) (iblk0 V c 2 t) t.val (by omega)
    (blk0_0 V c t) (blk0_1 V c t) (blk0_2 V c t) q).trans ?_
  show Cert.Lstm.affine _ _ _ _ = Cert.Lstm.affine _ _ _ _
  refine congrArg _ (Fin.ext ?_)
  show t.val * 1024 + q.val = win0_3.index t (1 : Fin 2) * 1024 + 1 * q.val
  rw [e1]; omega

/-- An index of the output array is in point `t`'s block iff each coordinate is in the block's range on its axis. -/
theorem mem_blk0 (t : Fin cfg0.N) (i : S1x4096.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v1).slice (win0_3.rect t)).set ↔ _
  rw [View.set_slice_whole, Rect.mem_set_unit]
  exact Iff.rfl

/-- Column `q` of the output array is in the block of point `q / 1024`. -/
theorem cover0 (i : S1x4096.Idx) : ∃ t : Fin cfg0.N, (cfg0.win 3).flush t = true ∧ i ∈ ((cfg0.win 3).blk t).view.set := by
  have hN : cfg0.N = 4 := N_0
  have hi0 : (i 0).val < 1 := (i 0).isLt
  have hi1 : (i 1).val < 4096 := (i 1).isLt
  obtain ⟨t, ht⟩ : ∃ t : Fin cfg0.N, t.val = (i 1).val / 1024 := ⟨⟨(i 1).val / 1024, by omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 1 ≤ (i 0).val ∧ (i 0).val < win0_3.index t (0 : Fin 2) * 1 + 1; rw [e0]; omega
  | ⟨1, _⟩ => show win0_3.index t (1 : Fin 2) * 1024 ≤ (i 1).val ∧ (i 1).val < win0_3.index t (1 : Fin 2) * 1024 + 1024; rw [e1, ht]; omega

/-- THE INPUT PROJECTION'S ARRAY after the region: the affine map of the vector, the weights and the bias the region finds. -/
theorem region0_array (c : Dev nD) : (dat0 (F := Ideal) V c).arrAt 3 cfg0.N
    = fun i : S1x4096.Idx => Cert.Lstm.affine (fun e : Fin 1024 => (V c main_arg0 : S1x1024.Idx → EReal) (ix2 (0 : Fin 1) e))
        (fun (j : Fin 4096) (e : Fin 1024) => (V c main_arg3 : S4096x1024.Idx → EReal) (ix2 j e))
        (fun j : Fin 4096 => (V c main_v0 : S1x4096.Idx → EReal) (ix2 (0 : Fin 1) j)) (i 1) :=
  (dat0 (F := Ideal) V c).arrAt_eq_of_cover 3 (G0 V c) (fun t _ => flushed0_eq V c t) cover0

end Region0

/-! ## Region 2: the output projection -/

/-- The output projection's block at column `q`: the hidden vector's product with row `q` of the weight block, plus
    the bias block's entry. The first cast keeps the shape; the rest is as in the input projection. -/
theorem pay2_apply (x0 : Vec Ideal S1x4096 .f32) (x1 : Vec Ideal S256x4096 .f32) (x2 : Vec Ideal S1x256 .f32) (q : Fin 256) :
    k2_pay1 (F := Ideal) x0 x1 x2 (ix2 (0 : Fin 1) q)
      = (∑ k : Fin 4096, x0 (ix2 (0 : Fin 1) k) * x1 (ix2 q k)) + x2 (ix2 (0 : Fin 1) q) := by
  unfold k2_pay1
  refine (addf_apply _ _ _).trans ?_
  refine congrArg₂ (· + ·) ?_ ?_
  · refine (Cert.LibPlainDot.matmul_plain_apply _ rfl rfl rfl rfl rfl rfl none _ _ (0 : Fin 1) q).trans ?_
    refine Finset.sum_congr rfl fun k _ => ?_
    refine congrArg₂ (· * ·) (congrFun (shapeCast_self x0 _) (ix2 (0 : Fin 1) k)) ?_
    refine (transpose_apply _ _ _ (ix2 k q) (ix2 q k) ?_).trans rfl
    intro b
    match b with
    | ⟨0, _⟩ => rfl
    | ⟨1, _⟩ => rfl
  · rw [shapeCast_self]

/-- One grid point of the output projection: when the three loaded blocks are the hidden vector, rows `n · 256 …` of
    the weights and columns `n · 256 …` of the bias, the stored block at column `q` is the affine map at row `n · 256 + q`. -/
theorem point2 (X : S1x4096.Idx → EReal) (W : S1024x4096.Idx → EReal) (B : S1x1024.Idx → EReal)
    (x0 : Vec Ideal S1x4096 .f32) (x1 : Vec Ideal S256x4096 .f32) (x2 : Vec Ideal S1x256 .f32)
    (n : Nat) (hn : n < 4)
    (h0 : ∀ j : Fin 4096, x0 (ix2 (0 : Fin 1) j) = X (ix2 (0 : Fin 1) j))
    (h1 : ∀ (r : Fin 256) (j : Fin 4096), x1 (ix2 r j) = W (ix2 (⟨n * 256 + r.val, by have := r.isLt; omega⟩ : Fin 1024) j))
    (h2 : ∀ q : Fin 256, x2 (ix2 (0 : Fin 1) q) = B (ix2 (0 : Fin 1) (⟨n * 256 + q.val, by have := q.isLt; omega⟩ : Fin 1024)))
    (q : Fin 256) :
    k2_pay1 (F := Ideal) x0 x1 x2 (ix2 (0 : Fin 1) q)
      = Cert.Lstm.affine (fun j : Fin 4096 => X (ix2 (0 : Fin 1) j)) (fun (e : Fin 1024) (j : Fin 4096) => W (ix2 e j))
          (fun e : Fin 1024 => B (ix2 (0 : Fin 1) e)) (⟨n * 256 + q.val, by have := q.isLt; omega⟩ : Fin 1024) := by
  rw [pay2_apply]
  unfold Cert.Lstm.affine
  refine congrArg₂ (· + ·) (Finset.sum_congr rfl fun k _ => ?_) (h2 q)
  rw [h0 k, h1 q k]

section Region2

variable (V : (c : Dev nD) → (b : Ref sig .tc) → Buf (Elt Ideal) ((c : Thread nD τ).loc b))

/-- The printed index maps over the four grid points: the hidden vector's window stays, the weights' moves down the
    rows, the bias's and the output's move along the columns. -/
theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- The output projection as one function of the three arrays the region finds. -/
abbrev G2 (c : Dev nD) : S1x1024.Idx → EReal := fun i =>
  Cert.Lstm.affine (fun j : Fin 4096 => (V c main_v8_0 : S1x4096.Idx → EReal) (ix2 (0 : Fin 1) j))
    (fun (e : Fin 1024) (j : Fin 4096) => (V c main_arg9 : S1024x4096.Idx → EReal) (ix2 e j))
    (fun e : Fin 1024 => (V c main_v9 : S1x1024.Idx → EReal) (ix2 (0 : Fin 1) e)) (i 1)

/-- The hidden vector's block at any point is the hidden vector. -/
theorem blk2_0 (c : Dev nD) (t : Fin cfg2.N) (j : Fin 4096) :
    (iblk2 V c 0 t : Vec Ideal S1x4096 .f32) (ix2 (0 : Fin 1) j) = (V c main_v8_0 : S1x4096.Idx → EReal) (ix2 (0 : Fin 1) j) := by
  obtain ⟨e0, e1, -⟩ := idx_facts2 t
  unfold iblk2
  rw [View.read_apply]
  show (V c main_v8_0 : S1x4096.Idx → EReal) _ = V c main_v8_0 _
  refine congrArg _ (funext fun a => Fin.ext ?_)
  match a with
  | ⟨0, _⟩ => show win2_0.index t (0 : Fin 2) * 1 + 1 * (0 : Fin 1).val = (0 : Fin 1).val; rw [e0]; rfl
  | ⟨1, _⟩ => show win2_0.index t (1 : Fin 2) * 4096 + 1 * j.val = j.val; rw [e1]; omega

/-- The weights' block at point `t` is rows `t · 256 …` of the weights. -/
theorem blk2_1 (c : Dev nD) (t : Fin cfg2.N) (r : Fin 256) (j : Fin 4096) :
    (iblk2 V c 1 t : Vec Ideal S256x4096 .f32) (ix2 r j)
      = (V c main_arg9 : S1024x4096.Idx → EReal) (ix2 (⟨t.val * 256 + r.val, by have := r.isLt; have := t.isLt; have hN : cfg2.N = 4 := N_2; omega⟩ : Fin 1024) j) := by
  obtain ⟨-, -, e0, e1, -⟩ := idx_facts2 t
  unfold iblk2
  rw [View.read_apply]
  show (V c main_arg9 : S1024x4096.Idx → EReal) _ = V c main_arg9 _
  refine congrArg _ (funext fun a => Fin.ext ?_)
  match a with
  | ⟨0, _⟩ => show win2_1.index t (0 : Fin 2) * 256 + 1 * r.val = t.val * 256 + r.val; rw [e0]; omega
  | ⟨1, _⟩ => show win2_1.index t (1 : Fin 2) * 4096 + 1 * j.val = j.val; rw [e1]; omega

/-- The bias's block at point `t` is columns `t · 256 …` of the bias. -/
theorem blk2_2 (c : Dev nD) (t : Fin cfg2.N) (q : Fin 256) :
    (iblk2 V c 2 t : Vec Ideal S1x256 .f32) (ix2 (0 : Fin 1) q)
      = (V c main_v9 : S1x1024.Idx → EReal) (ix2 (0 : Fin 1) (⟨t.val * 256 + q.val, by have := q.isLt; have := t.isLt; have hN : cfg2.N = 4 := N_2; omega⟩ : Fin 1024)) := by
  obtain ⟨-, -, -, -, e0, e1, -⟩ := idx_facts2 t
  unfold iblk2
  rw [View.read_apply]
  show (V c main_v9 : S1x1024.Idx → EReal) _ = V c main_v9 _
  refine congrArg _ (funext fun a => Fin.ext ?_)
  match a with
  | ⟨0, _⟩ => show win2_2.index t (0 : Fin 2) * 1 + 1 * (0 : Fin 1).val = (0 : Fin 1).val; rw [e0]; rfl
  | ⟨1, _⟩ => show win2_2.index t (1 : Fin 2) * 256 + 1 * q.val = t.val * 256 + q.val; rw [e1]; omega

/-- What point `t` writes back is block `t` of the output projection of the arrays the region finds. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S1x4096) hz, View.ld_unit_zero (S := S256x4096) hz, View.ld_unit_zero (S := S1x256) hz]
  obtain ⟨-, -, -, -, -, -, e0, e1⟩ := idx_facts2 t
  have hN : cfg2.N = 4 := N_2
  have ht := t.isLt
  funext j
  obtain ⟨p, q, rfl⟩ : ∃ (p : Fin 1) (q : Fin 256), j = ix2 p q := ⟨j 0, j 1, eq_ix2 j⟩
  obtain rfl : p = 0 := Subsingleton.elim _ _
  show k2_pay1 (F := Ideal) (iblk2 V c 0 t) (iblk2 V c 1 t) (iblk2 V c 2 t) (ix2 (0 : Fin 1) q)
    = G2 V c (((cfg2.win 3).blk t).view.emb (ix2 (0 : Fin 1) q))
  refine (point2 (V c main_v8_0) (V c main_arg9) (V c main_v9) (iblk2 V c 0 t) (iblk2 V c 1 t) (iblk2 V c 2 t) t.val (by omega)
    (blk2_0 V c t) (blk2_1 V c t) (blk2_2 V c t) q).trans ?_
  show Cert.Lstm.affine _ _ _ _ = Cert.Lstm.affine _ _ _ _
  refine congrArg _ (Fin.ext ?_)
  show t.val * 256 + q.val = win2_3.index t (1 : Fin 2) * 256 + 1 * q.val
  rw [e1]; omega

/-- An index of the output array is in point `t`'s block iff each coordinate is in the block's range on its axis. -/
theorem mem_blk2 (t : Fin cfg2.N) (i : S1x1024.Idx) :
    i ∈ ((cfg2.win 3).blk t).view.set ↔ ∀ a : Fin 2, win2_3.index t a * S1x256.size a ≤ (i a).val ∧ (i a).val < win2_3.index t a * S1x256.size a + S1x256.size a := by
  show i ∈ ((View.whole main_v10).slice (win2_3.rect t)).set ↔ _
  rw [View.set_slice_whole, Rect.mem_set_unit]
  exact Iff.rfl

/-- Column `q` of the output array is in the block of point `q / 256`. -/
theorem cover2 (i : S1x1024.Idx) : ∃ t : Fin cfg2.N, (cfg2.win 3).flush t = true ∧ i ∈ ((cfg2.win 3).blk t).view.set := by
  have hN : cfg2.N = 4 := N_2
  have hi0 : (i 0).val < 1 := (i 0).isLt
  have hi1 : (i 1).val < 1024 := (i 1).isLt
  obtain ⟨t, ht⟩ : ∃ t : Fin cfg2.N, t.val = (i 1).val / 256 := ⟨⟨(i 1).val / 256, by omega⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 1 ≤ (i 0).val ∧ (i 0).val < win2_3.index t (0 : Fin 2) * 1 + 1; rw [e0]; omega
  | ⟨1, _⟩ => show win2_3.index t (1 : Fin 2) * 256 ≤ (i 1).val ∧ (i 1).val < win2_3.index t (1 : Fin 2) * 256 + 256; rw [e1, ht]; omega

/-- THE OUTPUT PROJECTION'S ARRAY after the region: the affine map of the hidden vector, the weights and the bias the region finds. -/
theorem region2_array (c : Dev nD) : (dat2 (F := Ideal) V c).arrAt 3 cfg2.N
    = fun i : S1x1024.Idx => Cert.Lstm.affine (fun j : Fin 4096 => (V c main_v8_0 : S1x4096.Idx → EReal) (ix2 (0 : Fin 1) j))
        (fun (e : Fin 1024) (j : Fin 4096) => (V c main_arg9 : S1024x4096.Idx → EReal) (ix2 e j))
        (fun e : Fin 1024 => (V c main_v9 : S1x1024.Idx → EReal) (ix2 (0 : Fin 1) e)) (i 1) :=
  (dat2 (F := Ideal) V c).arrAt_eq_of_cover 3 (G2 V c) (fun t _ => flushed2_eq V c t) cover2

end Region2

end Cert.KernelIdeal.EdgeValue

end
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.HostSide.lean ====
/-
  The host operations of the kernel's program, read back. Between the three regions the program only casts arrays to
  other shapes, so each region finds, in the arrays its windows stage, either an argument as launched, an argument
  with its axes regrouped (a unit axis put in front, or the 4 · 4096 stacked rows split into gate and unit), or an
  earlier region's output where that region left it; and the three results are region 2's output array and region 1's
  two state arrays with a unit axis put in front. A cast keeps the row-major order of the entries, so each of these is
  an equation between entries at explicit coordinates.
-/
import proofs.«181757_j22763326668968_2_alg».proof.Proof.FramePIdeal
import proofs.«181757_j22763326668968_2_alg».proof.Proof.LstmSpec
import proofs.«181757_j22763326668968_2_alg».proof.Proof.LibMerge
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## Through the regions: what a later segment finds of an earlier region's output -/

/-- Region 1 finds the projected input where region 0 left it: the six casts before region 1 write other buffers. -/
theorem e1_xi (c : Dev nD) : V3 m ρ c main_v1 = (dat0 (F := Ideal) (V1 m ρ) c).arrAt 3 cfg0.N := by
  show StableHlo.after hostOps1 (W2 m ρ c) (Proc.devRef .tc main_v1) = _
  after_results
  exact W2_arr m ρ c 3

/-- Region 2 finds the new hidden state where region 1 left it: the cast before region 2 writes another buffer. -/
theorem e2_h (c : Dev nD) : V5 m ρ c main_v8_0 = (dat1 (F := Ideal) (V3 m ρ) c).arrAt 7 cfg1.N := by
  show StableHlo.after hostOps2 (W4 m ρ c) (Proc.devRef .tc main_v8_0) = _
  after_results
  exact W4_arr m ρ c 7

/-- The cell state region 1 left is still there when region 2 is entered. -/
theorem v5_cell (c : Dev nD) : V5 m ρ c main_v8_1 = (dat1 (F := Ideal) (V3 m ρ) c).arrAt 8 cfg1.N := by
  show StableHlo.after hostOps2 (W4 m ρ c) (Proc.devRef .tc main_v8_1) = _
  after_results
  exact W4_arr m ρ c 8

/-- Region 2 reads the hidden state through an input window, so it leaves it as it found it. -/
theorem w6_hidden (c : Dev nD) : W6 m ρ c (Proc.devRef .tc main_v8_0) = (dat1 (F := Ideal) (V3 m ρ) c).arrAt 7 cfg1.N :=
  ((W6_arr m ρ c 0).trans (((dat2 (V5 m ρ) c).arrAt_in 0 rfl _).trans (A_eq2 (V5 m ρ) c 0))).trans (e2_h m ρ c)

/-- Region 2 has no window on the cell state. -/
theorem w6_cell (c : Dev nD) : W6 m ρ c (Proc.devRef .tc main_v8_1) = (dat1 (F := Ideal) (V3 m ρ) c).arrAt 8 cfg1.N :=
  (W6_of_ne m ρ c main_v8_1 (by decide)).trans (v5_cell m ρ c)

/-! ## The three results after the last casts -/

/-- The output array is what region 2 left: the two closing casts write other buffers. -/
theorem r_out (c : Dev nD) : W7 m ρ c (Proc.devRef .tc main_v10) = (dat2 (F := Ideal) (V5 m ρ) c).arrAt 3 cfg2.N := by
  show StableHlo.after hostOps3 (W6 m ρ c) (Proc.devRef .tc main_v10) = _
  after_results
  exact W6_arr m ρ c 3

/-- The returned hidden state `[1, 1, 4096]` is region 1's `[1, 4096]` array with a unit axis put in front. -/
theorem r_h (c : Dev nD) (j : Fin 4096) :
    (W7 m ρ c (Proc.devRef .tc main_v11) : S1x1x4096.Idx → EReal) (ix3 (0 : Fin 1) (0 : Fin 1) j)
      = ((dat1 (F := Ideal) (V3 m ρ) c).arrAt 7 cfg1.N : S1x4096.Idx → EReal) (ix2 (0 : Fin 1) j) := by
  have e : (W7 m ρ c (Proc.devRef .tc main_v11) : S1x1x4096.Idx → EReal)
      = shapeCast S1x1x4096 ((dat1 (F := Ideal) (V3 m ρ) c).arrAt 7 cfg1.N : S1x4096.Idx → EReal) Facts₀.shapeCasts_S1x4096_S1x1x4096 := by
    show StableHlo.after hostOps3 (W6 m ρ c) (Proc.devRef .tc main_v11) = _
    after_results
    rw [w6_hidden]
    rfl
  rw [e]
  exact shapeCast_mb_nab_apply _ _ (0 : Fin 1) (0 : Fin 1) j (0 : Fin 1) rfl

/-- The returned cell state, the same way. -/
theorem r_c (c : Dev nD) (j : Fin 4096) :
    (W7 m ρ c (Proc.devRef .tc main_v12) : S1x1x4096.Idx → EReal) (ix3 (0 : Fin 1) (0 : Fin 1) j)
      = ((dat1 (F := Ideal) (V3 m ρ) c).arrAt 8 cfg1.N : S1x4096.Idx → EReal) (ix2 (0 : Fin 1) j) := by
  have e : (W7 m ρ c (Proc.devRef .tc main_v12) : S1x1x4096.Idx → EReal)
      = shapeCast S1x1x4096 ((dat1 (F := Ideal) (V3 m ρ) c).arrAt 8 cfg1.N : S1x4096.Idx → EReal) Facts₀.shapeCasts_S1x4096_S1x1x4096 := by
    show StableHlo.after hostOps3 (W6 m ρ c) (Proc.devRef .tc main_v12) = _
    after_results
    rw [w6_cell]
    rfl
  rw [e]
  exact shapeCast_mb_nab_apply _ _ (0 : Fin 1) (0 : Fin 1) j (0 : Fin 1) rfl

/-! ## Arguments no earlier segment writes: back to the launch memory -/

/-- Region 0 finds the input vector as launched. -/
theorem e0_x (c : Dev nD) : V1 m ρ c main_arg0 = m ((c : Thread nD τ).loc main_arg0) := by
  show StableHlo.after hostOps0 (W0 m ρ c) (Proc.devRef .tc main_arg0) = _
  after_results

/-- Region 0 finds the input map's weights as launched. -/
theorem e0_W (c : Dev nD) : V1 m ρ c main_arg3 = m ((c : Thread nD τ).loc main_arg3) := by
  show StableHlo.after hostOps0 (W0 m ρ c) (Proc.devRef .tc main_arg3) = _
  after_results

/-- The input map's bias `[4096]` with a unit axis put in front. -/
theorem e0_b (c : Dev nD) (j : Fin 4096) :
    (V1 m ρ c main_v0 : S1x4096.Idx → EReal) (ix2 (0 : Fin 1) j) = (m ((c : Thread nD τ).loc main_arg4) : S4096.Idx → EReal) (ix1 j) := by
  have e : (V1 m ρ c main_v0 : S1x4096.Idx → EReal)
      = shapeCast S1x4096 (m ((c : Thread nD τ).loc main_arg4) : S4096.Idx → EReal) Facts₀.shapeCasts_S4096_S1x4096 := by
    show StableHlo.after hostOps0 (W0 m ρ c) (Proc.devRef .tc main_v0) = _
    after_results
    rfl
  rw [e]
  refine shapeCast_apply _ _ (ix2 (0 : Fin 1) j) (ix1 j) ?_
  rw [Shape.rowMajor_val_one, Shape.rowMajor_val_two]
  show j.val = (0 : Fin 1).val * 4096 + j.val
  simp

/-! ## Region 1's entry: the states and the stacked gate parameters, regrouped -/

/-- The old hidden state is as launched when region 0 ends: region 0 has no window on it and the cast before it writes another buffer. -/
theorem w2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results

/-- The old cell state is as launched when region 0 ends: region 0 has no window on it and the cast before it writes another buffer. -/
theorem w2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

/-- The input-to-gate weights is as launched when region 0 ends: region 0 has no window on it and the cast before it writes another buffer. -/
theorem w2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

/-- The hidden-to-gate weights is as launched when region 0 ends: region 0 has no window on it and the cast before it writes another buffer. -/
theorem w2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

/-- The input-to-gate bias is as launched when region 0 ends: region 0 has no window on it and the cast before it writes another buffer. -/
theorem w2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

/-- The hidden-to-gate bias is as launched when region 0 ends: region 0 has no window on it and the cast before it writes another buffer. -/
theorem w2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

/-- The old hidden state `[1, 1, 4096]` with its two unit axes merged. -/
theorem e1_h (c : Dev nD) (k : Fin 4096) :
    (V3 m ρ c main_v2 : S1x4096.Idx → EReal) (ix2 (0 : Fin 1) k)
      = (m ((c : Thread nD τ).loc main_arg1) : S1x1x4096.Idx → EReal) (ix3 (0 : Fin 1) (0 : Fin 1) k) := by
  have e : (V3 m ρ c main_v2 : S1x4096.Idx → EReal)
      = shapeCast S1x4096 (m ((c : Thread nD τ).loc main_arg1) : S1x1x4096.Idx → EReal) Facts₀.shapeCasts_S1x1x4096_S1x4096 := by
    show StableHlo.after hostOps1 (W2 m ρ c) (Proc.devRef .tc main_v2) = _
    after_results
    rw [w2_arg1]
    rfl
  rw [e]
  exact shapeCast_nab_mb_apply _ _ (0 : Fin 1) (0 : Fin 1) k (0 : Fin 1) rfl

/-- The old cell state `[1, 1, 4096]` with its two unit axes merged. -/
theorem e1_c (c : Dev nD) (k : Fin 4096) :
    (V3 m ρ c main_v3 : S1x4096.Idx → EReal) (ix2 (0 : Fin 1) k)
      = (m ((c : Thread nD τ).loc main_arg2) : S1x1x4096.Idx → EReal) (ix3 (0 : Fin 1) (0 : Fin 1) k) := by
  have e : (V3 m ρ c main_v3 : S1x4096.Idx → EReal)
      = shapeCast S1x4096 (m ((c : Thread nD τ).loc main_arg2) : S1x1x4096.Idx → EReal) Facts₀.shapeCasts_S1x1x4096_S1x4096 := by
    show StableHlo.after hostOps1 (W2 m ρ c) (Proc.devRef .tc main_v3) = _
    after_results
    rw [w2_arg2]
    rfl
  rw [e]
  exact shapeCast_nab_mb_apply _ _ (0 : Fin 1) (0 : Fin 1) k (0 : Fin 1) rfl

/-- The input-to-gate weights `[16384, 4096]` with its rows split into gate and unit: row `g · 4096 + p` is entry `(g, p)`. -/
theorem e1_Wih (c : Dev nD) (g : Fin 4) (p k : Fin 4096) :
    (V3 m ρ c main_v4 : S4x4096x4096.Idx → EReal) (ix3 g p k)
      = (m ((c : Thread nD τ).loc main_arg5) : S16384x4096.Idx → EReal) (ix2 (Cert.Lstm.row g p) k) := by
  have e : (V3 m ρ c main_v4 : S4x4096x4096.Idx → EReal)
      = shapeCast S4x4096x4096 (m ((c : Thread nD τ).loc main_arg5) : S16384x4096.Idx → EReal) Facts₀.shapeCasts_S16384x4096_S4x4096x4096 := by
    show StableHlo.after hostOps1 (W2 m ρ c) (Proc.devRef .tc main_v4) = _
    after_results
    rw [w2_arg5]
    rfl
  rw [e]
  exact shapeCast_mb_nab_apply _ _ g p k (Cert.Lstm.row g p) (Cert.Lstm.row_val g p)

/-- The hidden-to-gate weights `[16384, 4096]` with its rows split into gate and unit: row `g · 4096 + p` is entry `(g, p)`. -/
theorem e1_Whh (c : Dev nD) (g : Fin 4) (p k : Fin 4096) :
    (V3 m ρ c main_v5 : S4x4096x4096.Idx → EReal) (ix3 g p k)
      = (m ((c : Thread nD τ).loc main_arg6) : S16384x4096.Idx → EReal) (ix2 (Cert.Lstm.row g p) k) := by
  have e : (V3 m ρ c main_v5 : S4x4096x4096.Idx → EReal)
      = shapeCast S4x4096x4096 (m ((c : Thread nD τ).loc main_arg6) : S16384x4096.Idx → EReal) Facts₀.shapeCasts_S16384x4096_S4x4096x4096 := by
    show StableHlo.after hostOps1 (W2 m ρ c) (Proc.devRef .tc main_v5) = _
    after_results
    rw [w2_arg6]
    rfl
  rw [e]
  exact shapeCast_mb_nab_apply _ _ g p k (Cert.Lstm.row g p) (Cert.Lstm.row_val g p)

/-- The input-to-gate bias `[16384]` split into gate and unit: entry `g · 4096 + p` is entry `(g, p)`. -/
theorem e1_bih (c : Dev nD) (g : Fin 4) (p : Fin 4096) :
    (V3 m ρ c main_v6 : S4x4096.Idx → EReal) (ix2 g p)
      = (m ((c : Thread nD τ).loc main_arg7) : S16384.Idx → EReal) (ix1 (Cert.Lstm.row g p)) := by
  have e : (V3 m ρ c main_v6 : S4x4096.Idx → EReal)
      = shapeCast S4x4096 (m ((c : Thread nD τ).loc main_arg7) : S16384.Idx → EReal) Facts₀.shapeCasts_S16384_S4x4096 := by
    show StableHlo.after hostOps1 (W2 m ρ c) (Proc.devRef .tc main_v6) = _
    after_results
    rw [w2_arg7]
    rfl
  rw [e]
  refine shapeCast_apply _ _ (ix2 g p) (ix1 (Cert.Lstm.row g p)) ?_
  rw [Shape.rowMajor_val_one, Shape.rowMajor_val_two]
  show (Cert.Lstm.row g p).val = g.val * 4096 + p.val
  rfl

/-- The hidden-to-gate bias `[16384]` split into gate and unit: entry `g · 4096 + p` is entry `(g, p)`. -/
theorem e1_bhh (c : Dev nD) (g : Fin 4) (p : Fin 4096) :
    (V3 m ρ c main_v7 : S4x4096.Idx → EReal) (ix2 g p)
      = (m ((c : Thread nD τ).loc main_arg8) : S16384.Idx → EReal) (ix1 (Cert.Lstm.row g p)) := by
  have e : (V3 m ρ c main_v7 : S4x4096.Idx → EReal)
      = shapeCast S4x4096 (m ((c : Thread nD τ).loc main_arg8) : S16384.Idx → EReal) Facts₀.shapeCasts_S16384_S4x4096 := by
    show StableHlo.after hostOps1 (W2 m ρ c) (Proc.devRef .tc main_v7) = _
    after_results
    rw [w2_arg8]
    rfl
  rw [e]
  refine shapeCast_apply _ _ (ix2 g p) (ix1 (Cert.Lstm.row g p)) ?_
  rw [Shape.rowMajor_val_one, Shape.rowMajor_val_two]
  show (Cert.Lstm.row g p).val = g.val * 4096 + p.val
  rfl

/-! ## Region 2's entry: the output map's weights and bias -/

/-- The output map's weights is as launched when region 1 ends: no region so far has a window on it and no cast so far writes it. -/
theorem w4_arg9 (c : Dev nD) : W4 m ρ c (Proc.devRef .tc main_arg9) = m ((c : Thread nD τ).loc main_arg9) := by
  rw [W4_of_ne m ρ c main_arg9 (by decide)]
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

/-- The output map's bias is as launched when region 1 ends: no region so far has a window on it and no cast so far writes it. -/
theorem w4_arg10 (c : Dev nD) : W4 m ρ c (Proc.devRef .tc main_arg10) = m ((c : Thread nD τ).loc main_arg10) := by
  rw [W4_of_ne m ρ c main_arg10 (by decide)]
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results

/-- Region 2 finds the output map's weights as launched. -/
theorem e2_W (c : Dev nD) : V5 m ρ c main_arg9 = m ((c : Thread nD τ).loc main_arg9) := by
  show StableHlo.after hostOps2 (W4 m ρ c) (Proc.devRef .tc main_arg9) = _
  after_results
  exact w4_arg9 m ρ c

/-- The output map's bias `[1024]` with a unit axis put in front. -/
theorem e2_b (c : Dev nD) (e : Fin 1024) :
    (V5 m ρ c main_v9 : S1x1024.Idx → EReal) (ix2 (0 : Fin 1) e) = (m ((c : Thread nD τ).loc main_arg10) : S1024.Idx → EReal) (ix1 e) := by
  have h : (V5 m ρ c main_v9 : S1x1024.Idx → EReal)
      = shapeCast S1x1024 (m ((c : Thread nD τ).loc main_arg10) : S1024.Idx → EReal) Facts₀.shapeCasts_S1024_S1x1024 := by
    show StableHlo.after hostOps2 (W4 m ρ c) (Proc.devRef .tc main_v9) = _
    after_results
    rw [w4_arg10]
    rfl
  rw [h]
  refine shapeCast_apply _ _ (ix2 (0 : Fin 1) e) (ix1 e) ?_
  rw [Shape.rowMajor_val_one, Shape.rowMajor_val_two]
  show e.val = (0 : Fin 1).val * 1024 + e.val
  simp

end Cert.KernelIdeal.HostSide

end
-- ==== Proof.KernelValue.lean ====
/-
  The kernel program's three results are the specification's three arrays of the launch memory.

  The program is three regions among shape casts. Region 0 leaves the input projection xi = W_in x + b_in; region 1
  finds xi, the two old states and the stacked gate parameters regrouped by gate and unit, and leaves the new hidden
  and cell states; region 2 finds the new hidden state and leaves the output projection; the closing casts put a unit
  axis in front of the two states. Composing what each segment finds with what the previous one left, entry by entry,
  the three results are the specification's output array, new hidden state and new cell state of the eleven arguments.
-/
import proofs.«181757_j22763326668968_2_alg».proof.Proof.FramePIdeal
import proofs.«181757_j22763326668968_2_alg».proof.Proof.LstmSpec
import proofs.«181757_j22763326668968_2_alg».proof.Proof.EdgeRegions
import proofs.«181757_j22763326668968_2_alg».proof.Proof.HostSide

noncomputable section

namespace Cert.KernelIdeal.KernelValue

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

/-- Region 1 finds the input projection of the launched input, weights and bias: region 0 leaves the affine map of what it
    finds, and it finds the input and the weights as launched and the bias with a unit axis in front. -/
theorem xi_entry (k : Fin 4096) :
    (V3 m ρ c main_v1 : S1x4096.Idx → EReal) (ix2 (0 : Fin 1) k)
      = Cert.Lstm.xiOf (m ((c : Thread nD τ).loc main_arg0) : S1x1024.Idx → EReal)
          (m ((c : Thread nD τ).loc main_arg3) : S4096x1024.Idx → EReal) (m ((c : Thread nD τ).loc main_arg4) : S4096.Idx → EReal) k := by
  rw [HostSide.e1_xi m ρ c, EdgeValue.region0_array (V1 m ρ) c]
  unfold Cert.Lstm.xiOf
  simp only [HostSide.e0_x m ρ c, HostSide.e0_W m ρ c, HostSide.e0_b m ρ c]

/-- What region 1 leaves as the new hidden state, entry by entry, is the specification's: the region's law at the
    launched arrays regrouped as the region finds them. -/
theorem hidden_entry
    (hH : (∀ (xi h cp : Fin 4096 → EReal) (Wih Whh : Fin 16384 → Fin 4096 → EReal) (bih bhh : Fin 16384 → EReal),
      (∀ k : Fin 4096, (V3 m ρ c main_v1 : S1x4096.Idx → EReal) (ix2 (0 : Fin 1) k) = xi k) →
      (∀ k : Fin 4096, (V3 m ρ c main_v2 : S1x4096.Idx → EReal) (ix2 (0 : Fin 1) k) = h k) →
      (∀ k : Fin 4096, (V3 m ρ c main_v3 : S1x4096.Idx → EReal) (ix2 (0 : Fin 1) k) = cp k) →
      (∀ (g : Fin 4) (p k : Fin 4096), (V3 m ρ c main_v4 : S4x4096x4096.Idx → EReal) (ix3 g p k) = Wih (Cert.Lstm.row g p) k) →
      (∀ (g : Fin 4) (p k : Fin 4096), (V3 m ρ c main_v5 : S4x4096x4096.Idx → EReal) (ix3 g p k) = Whh (Cert.Lstm.row g p) k) →
      (∀ (g : Fin 4) (p : Fin 4096), (V3 m ρ c main_v6 : S4x4096.Idx → EReal) (ix2 g p) = bih (Cert.Lstm.row g p)) →
      (∀ (g : Fin 4) (p : Fin 4096), (V3 m ρ c main_v7 : S4x4096.Idx → EReal) (ix2 g p) = bhh (Cert.Lstm.row g p)) →
      (dat1 (F := Ideal) (V3 m ρ) c).arrAt 7 cfg1.N = fun i : S1x4096.Idx => Cert.Lstm.hidden (Cert.Lstm.pre xi h Wih Whh bih bhh) cp (i 1)))
    (j : Fin 4096) :
    ((dat1 (F := Ideal) (V3 m ρ) c).arrAt 7 cfg1.N : S1x4096.Idx → EReal) (ix2 (0 : Fin 1) j)
      = Cert.Lstm.hiddenOf (m ((c : Thread nD τ).loc main_arg0) : S1x1024.Idx → EReal)
          (m ((c : Thread nD τ).loc main_arg1) : S1x1x4096.Idx → EReal)
          (m ((c : Thread nD τ).loc main_arg2) : S1x1x4096.Idx → EReal)
          (m ((c : Thread nD τ).loc main_arg3) : S4096x1024.Idx → EReal)
          (m ((c : Thread nD τ).loc main_arg4) : S4096.Idx → EReal)
          (m ((c : Thread nD τ).loc main_arg5) : S16384x4096.Idx → EReal)
          (m ((c : Thread nD τ).loc main_arg6) : S16384x4096.Idx → EReal)
          (m ((c : Thread nD τ).loc main_arg7) : S16384.Idx → EReal)
          (m ((c : Thread nD τ).loc main_arg8) : S16384.Idx → EReal) j := by
  rw [hH (Cert.Lstm.xiOf (m ((c : Thread nD τ).loc main_arg0) : S1x1024.Idx → EReal) (m ((c : Thread nD τ).loc main_arg3) : S4096x1024.Idx → EReal) (m ((c : Thread nD τ).loc main_arg4) : S4096.Idx → EReal))
    (fun k : Fin 4096 => (m ((c : Thread nD τ).loc main_arg1) : S1x1x4096.Idx → EReal) (ix3 (0 : Fin 1) (0 : Fin 1) k))
    (fun k : Fin 4096 => (m ((c : Thread nD τ).loc main_arg2) : S1x1x4096.Idx → EReal) (ix3 (0 : Fin 1) (0 : Fin 1) k))
    (fun (r : Fin 16384) (k : Fin 4096) => (m ((c : Thread nD τ).loc main_arg5) : S16384x4096.Idx → EReal) (ix2 r k))
    (fun (r : Fin 16384) (k : Fin 4096) => (m ((c : Thread nD τ).loc main_arg6) : S16384x4096.Idx → EReal) (ix2 r k))
    (fun r : Fin 16384 => (m ((c : Thread nD τ).loc main_arg7) : S16384.Idx → EReal) (ix1 r))
    (fun r : Fin 16384 => (m ((c : Thread nD τ).loc main_arg8) : S16384.Idx → EReal) (ix1 r))
    (xi_entry m ρ c) (HostSide.e1_h m ρ c) (HostSide.e1_c m ρ c) (HostSide.e1_Wih m ρ c) (HostSide.e1_Whh m ρ c)
    (HostSide.e1_bih m ρ c) (HostSide.e1_bhh m ρ c)]
  rfl

/-- The same for the new cell state. -/
theorem cell_entry
    (hC : (∀ (xi h cp : Fin 4096 → EReal) (Wih Whh : Fin 16384 → Fin 4096 → EReal) (bih bhh : Fin 16384 → EReal),
      (∀ k : Fin 4096, (V3 m ρ c main_v1 : S1x4096.Idx → EReal) (ix2 (0 : Fin 1) k) = xi k) →
      (∀ k : Fin 4096, (V3 m ρ c main_v2 : S1x4096.Idx → EReal) (ix2 (0 : Fin 1) k) = h k) →
      (∀ k : Fin 4096, (V3 m ρ c main_v3 : S1x4096.Idx → EReal) (ix2 (0 : Fin 1) k) = cp k) →
      (∀ (g : Fin 4) (p k : Fin 4096), (V3 m ρ c main_v4 : S4x4096x4096.Idx → EReal) (ix3 g p k) = Wih (Cert.Lstm.row g p) k) →
      (∀ (g : Fin 4) (p k : Fin 4096), (V3 m ρ c main_v5 : S4x4096x4096.Idx → EReal) (ix3 g p k) = Whh (Cert.Lstm.row g p) k) →
      (∀ (g : Fin 4) (p : Fin 4096), (V3 m ρ c main_v6 : S4x4096.Idx → EReal) (ix2 g p) = bih (Cert.Lstm.row g p)) →
      (∀ (g : Fin 4) (p : Fin 4096), (V3 m ρ c main_v7 : S4x4096.Idx → EReal) (ix2 g p) = bhh (Cert.Lstm.row g p)) →
      (dat1 (F := Ideal) (V3 m ρ) c).arrAt 8 cfg1.N = fun i : S1x4096.Idx => Cert.Lstm.cell (Cert.Lstm.pre xi h Wih Whh bih bhh) cp (i 1)))
    (j : Fin 4096) :
    ((dat1 (F := Ideal) (V3 m ρ) c).arrAt 8 cfg1.N : S1x4096.Idx → EReal) (ix2 (0 : Fin 1) j)
      = Cert.Lstm.cellOf (m ((c : Thread nD τ).loc main_arg0) : S1x1024.Idx → EReal)
          (m ((c : Thread nD τ).loc main_arg1) : S1x1x4096.Idx → EReal)
          (m ((c : Thread nD τ).loc main_arg2) : S1x1x4096.Idx → EReal)
          (m ((c : Thread nD τ).loc main_arg3) : S4096x1024.Idx → EReal)
          (m ((c : Thread nD τ).loc main_arg4) : S4096.Idx → EReal)
          (m ((c : Thread nD τ).loc main_arg5) : S16384x4096.Idx → EReal)
          (m ((c : Thread nD τ).loc main_arg6) : S16384x4096.Idx → EReal)
          (m ((c : Thread nD τ).loc main_arg7) : S16384.Idx → EReal)
          (m ((c : Thread nD τ).loc main_arg8) : S16384.Idx → EReal) j := by
  rw [hC (Cert.Lstm.xiOf (m ((c : Thread nD τ).loc main_arg0) : S1x1024.Idx → EReal) (m ((c : Thread nD τ).loc main_arg3) : S4096x1024.Idx → EReal) (m ((c : Thread nD τ).loc main_arg4) : S4096.Idx → EReal))
    (fun k : Fin 4096 => (m ((c : Thread nD τ).loc main_arg1) : S1x1x4096.Idx → EReal) (ix3 (0 : Fin 1) (0 : Fin 1) k))
    (fun k : Fin 4096 => (m ((c : Thread nD τ).loc main_arg2) : S1x1x4096.Idx → EReal) (ix3 (0 : Fin 1) (0 : Fin 1) k))
    (fun (r : Fin 16384) (k : Fin 4096) => (m ((c : Thread nD τ).loc main_arg5) : S16384x4096.Idx → EReal) (ix2 r k))
    (fun (r : Fin 16384) (k : Fin 4096) => (m ((c : Thread nD τ).loc main_arg6) : S16384x4096.Idx → EReal) (ix2 r k))
    (fun r : Fin 16384 => (m ((c : Thread nD τ).loc main_arg7) : S16384.Idx → EReal) (ix1 r))
    (fun r : Fin 16384 => (m ((c : Thread nD τ).loc main_arg8) : S16384.Idx → EReal) (ix1 r))
    (xi_entry m ρ c) (HostSide.e1_h m ρ c) (HostSide.e1_c m ρ c) (HostSide.e1_Wih m ρ c) (HostSide.e1_Whh m ρ c)
    (HostSide.e1_bih m ρ c) (HostSide.e1_bhh m ρ c)]
  rfl

/-- THE SECOND RESULT: the returned hidden state is the specification's new hidden state of the launched arrays. -/
theorem kernel_hidden
    (hH : (∀ (xi h cp : Fin 4096 → EReal) (Wih Whh : Fin 16384 → Fin 4096 → EReal) (bih bhh : Fin 16384 → EReal),
      (∀ k : Fin 4096, (V3 m ρ c main_v1 : S1x4096.Idx → EReal) (ix2 (0 : Fin 1) k) = xi k) →
      (∀ k : Fin 4096, (V3 m ρ c main_v2 : S1x4096.Idx → EReal) (ix2 (0 : Fin 1) k) = h k) →
      (∀ k : Fin 4096, (V3 m ρ c main_v3 : S1x4096.Idx → EReal) (ix2 (0 : Fin 1) k) = cp k) →
      (∀ (g : Fin 4) (p k : Fin 4096), (V3 m ρ c main_v4 : S4x4096x4096.Idx → EReal) (ix3 g p k) = Wih (Cert.Lstm.row g p) k) →
      (∀ (g : Fin 4) (p k : Fin 4096), (V3 m ρ c main_v5 : S4x4096x4096.Idx → EReal) (ix3 g p k) = Whh (Cert.Lstm.row g p) k) →
      (∀ (g : Fin 4) (p : Fin 4096), (V3 m ρ c main_v6 : S4x4096.Idx → EReal) (ix2 g p) = bih (Cert.Lstm.row g p)) →
      (∀ (g : Fin 4) (p : Fin 4096), (V3 m ρ c main_v7 : S4x4096.Idx → EReal) (ix2 g p) = bhh (Cert.Lstm.row g p)) →
      (dat1 (F := Ideal) (V3 m ρ) c).arrAt 7 cfg1.N = fun i : S1x4096.Idx => Cert.Lstm.hidden (Cert.Lstm.pre xi h Wih Whh bih bhh) cp (i 1))) :
    (W7 m ρ c (Proc.devRef .tc main_v11) : S1x1x4096.Idx → EReal)
      = Cert.Lstm.hiddenArr (m ((c : Thread nD τ).loc main_arg0) : S1x1024.Idx → EReal)
          (m ((c : Thread nD τ).loc main_arg1) : S1x1x4096.Idx → EReal)
          (m ((c : Thread nD τ).loc main_arg2) : S1x1x4096.Idx → EReal)
          (m ((c : Thread nD τ).loc main_arg3) : S4096x1024.Idx → EReal)
          (m ((c : Thread nD τ).loc main_arg4) : S4096.Idx → EReal)
          (m ((c : Thread nD τ).loc main_arg5) : S16384x4096.Idx → EReal)
          (m ((c : Thread nD τ).loc main_arg6) : S16384x4096.Idx → EReal)
          (m ((c : Thread nD τ).loc main_arg7) : S16384.Idx → EReal)
          (m ((c : Thread nD τ).loc main_arg8) : S16384.Idx → EReal) := by
  funext i
  obtain ⟨p, q, j, rfl⟩ : ∃ (p q : Fin 1) (j : Fin 4096), i = ix3 p q j := ⟨i 0, i 1, i 2, eq_ix3 i⟩
  obtain rfl : p = 0 := Subsingleton.elim _ _
  obtain rfl : q = 0 := Subsingleton.elim _ _
  exact (HostSide.r_h m ρ c j).trans (hidden_entry m ρ c hH j)

/-- THE THIRD RESULT: the returned cell state is the specification's new cell state of the launched arrays. -/
theorem kernel_cell
    (hC : (∀ (xi h cp : Fin 4096 → EReal) (Wih Whh : Fin 16384 → Fin 4096 → EReal) (bih bhh : Fin 16384 → EReal),
      (∀ k : Fin 4096, (V3 m ρ c main_v1 : S1x4096.Idx → EReal) (ix2 (0 : Fin 1) k) = xi k) →
      (∀ k : Fin 4096, (V3 m ρ c main_v2 : S1x4096.Idx → EReal) (ix2 (0 : Fin 1) k) = h k) →
      (∀ k : Fin 4096, (V3 m ρ c main_v3 : S1x4096.Idx → EReal) (ix2 (0 : Fin 1) k) = cp k) →
      (∀ (g : Fin 4) (p k : Fin 4096), (V3 m ρ c main_v4 : S4x4096x4096.Idx → EReal) (ix3 g p k) = Wih (Cert.Lstm.row g p) k) →
      (∀ (g : Fin 4) (p k : Fin 4096), (V3 m ρ c main_v5 : S4x4096x4096.Idx → EReal) (ix3 g p k) = Whh (Cert.Lstm.row g p) k) →
      (∀ (g : Fin 4) (p : Fin 4096), (V3 m ρ c main_v6 : S4x4096.Idx → EReal) (ix2 g p) = bih (Cert.Lstm.row g p)) →
      (∀ (g : Fin 4) (p : Fin 4096), (V3 m ρ c main_v7 : S4x4096.Idx → EReal) (ix2 g p) = bhh (Cert.Lstm.row g p)) →
      (dat1 (F := Ideal) (V3 m ρ) c).arrAt 8 cfg1.N = fun i : S1x4096.Idx => Cert.Lstm.cell (Cert.Lstm.pre xi h Wih Whh bih bhh) cp (i 1))) :
    (W7 m ρ c (Proc.devRef .tc main_v12) : S1x1x4096.Idx → EReal)
      = Cert.Lstm.cellArr (m ((c : Thread nD τ).loc main_arg0) : S1x1024.Idx → EReal)
          (m ((c : Thread nD τ).loc main_arg1) : S1x1x4096.Idx → EReal)
          (m ((c : Thread nD τ).loc main_arg2) : S1x1x4096.Idx → EReal)
          (m ((c : Thread nD τ).loc main_arg3) : S4096x1024.Idx → EReal)
          (m ((c : Thread nD τ).loc main_arg4) : S4096.Idx → EReal)
          (m ((c : Thread nD τ).loc main_arg5) : S16384x4096.Idx → EReal)
          (m ((c : Thread nD τ).loc main_arg6) : S16384x4096.Idx → EReal)
          (m ((c : Thread nD τ).loc main_arg7) : S16384.Idx → EReal)
          (m ((c : Thread nD τ).loc main_arg8) : S16384.Idx → EReal) := by
  funext i
  obtain ⟨p, q, j, rfl⟩ : ∃ (p q : Fin 1) (j : Fin 4096), i = ix3 p q j := ⟨i 0, i 1, i 2, eq_ix3 i⟩
  obtain rfl : p = 0 := Subsingleton.elim _ _
  obtain rfl : q = 0 := Subsingleton.elim _ _
  exact (HostSide.r_c m ρ c j).trans (cell_entry m ρ c hC j)

/-- THE FIRST RESULT: the output array is the specification's output projection of the launched arrays: region 2 leaves
    the affine map of what it finds, and it finds the new hidden state, the weights as launched and the bias with a
    unit axis in front. -/
theorem kernel_out
    (hH : (∀ (xi h cp : Fin 4096 → EReal) (Wih Whh : Fin 16384 → Fin 4096 → EReal) (bih bhh : Fin 16384 → EReal),
      (∀ k : Fin 4096, (V3 m ρ c main_v1 : S1x4096.Idx → EReal) (ix2 (0 : Fin 1) k) = xi k) →
      (∀ k : Fin 4096, (V3 m ρ c main_v2 : S1x4096.Idx → EReal) (ix2 (0 : Fin 1) k) = h k) →
      (∀ k : Fin 4096, (V3 m ρ c main_v3 : S1x4096.Idx → EReal) (ix2 (0 : Fin 1) k) = cp k) →
      (∀ (g : Fin 4) (p k : Fin 4096), (V3 m ρ c main_v4 : S4x4096x4096.Idx → EReal) (ix3 g p k) = Wih (Cert.Lstm.row g p) k) →
      (∀ (g : Fin 4) (p k : Fin 4096), (V3 m ρ c main_v5 : S4x4096x4096.Idx → EReal) (ix3 g p k) = Whh (Cert.Lstm.row g p) k) →
      (∀ (g : Fin 4) (p : Fin 4096), (V3 m ρ c main_v6 : S4x4096.Idx → EReal) (ix2 g p) = bih (Cert.Lstm.row g p)) →
      (∀ (g : Fin 4) (p : Fin 4096), (V3 m ρ c main_v7 : S4x4096.Idx → EReal) (ix2 g p) = bhh (Cert.Lstm.row g p)) →
      (dat1 (F := Ideal) (V3 m ρ) c).arrAt 7 cfg1.N = fun i : S1x4096.Idx => Cert.Lstm.hidden (Cert.Lstm.pre xi h Wih Whh bih bhh) cp (i 1))) :
    (W7 m ρ c (Proc.devRef .tc main_v10) : S1x1024.Idx → EReal)
      = Cert.Lstm.outArr (m ((c : Thread nD τ).loc main_arg0) : S1x1024.Idx → EReal)
          (m ((c : Thread nD τ).loc main_arg1) : S1x1x4096.Idx → EReal)
          (m ((c : Thread nD τ).loc main_arg2) : S1x1x4096.Idx → EReal)
          (m ((c : Thread nD τ).loc main_arg3) : S4096x1024.Idx → EReal)
          (m ((c : Thread nD τ).loc main_arg4) : S4096.Idx → EReal)
          (m ((c : Thread nD τ).loc main_arg5) : S16384x4096.Idx → EReal)
          (m ((c : Thread nD τ).loc main_arg6) : S16384x4096.Idx → EReal)
          (m ((c : Thread nD τ).loc main_arg7) : S16384.Idx → EReal)
          (m ((c : Thread nD τ).loc main_arg8) : S16384.Idx → EReal)
          (m ((c : Thread nD τ).loc main_arg9) : S1024x4096.Idx → EReal)
          (m ((c : Thread nD τ).loc main_arg10) : S1024.Idx → EReal) := by
  have hh : ∀ j : Fin 4096, (V5 m ρ c main_v8_0 : S1x4096.Idx → EReal) (ix2 (0 : Fin 1) j)
      = Cert.Lstm.hiddenOf (m ((c : Thread nD τ).loc main_arg0) : S1x1024.Idx → EReal)
          (m ((c : Thread nD τ).loc main_arg1) : S1x1x4096.Idx → EReal)
          (m ((c : Thread nD τ).loc main_arg2) : S1x1x4096.Idx → EReal)
          (m ((c : Thread nD τ).loc main_arg3) : S4096x1024.Idx → EReal)
          (m ((c : Thread nD τ).loc main_arg4) : S4096.Idx → EReal)
          (m ((c : Thread nD τ).loc main_arg5) : S16384x4096.Idx → EReal)
          (m ((c : Thread nD τ).loc main_arg6) : S16384x4096.Idx → EReal)
          (m ((c : Thread nD τ).loc main_arg7) : S16384.Idx → EReal)
          (m ((c : Thread nD τ).loc main_arg8) : S16384.Idx → EReal) j := fun j => by
    rw [HostSide.e2_h m ρ c]
    exact hidden_entry m ρ c hH j
  rw [HostSide.r_out m ρ c, EdgeValue.region2_array (V5 m ρ) c]
  funext i
  obtain ⟨p, e, rfl⟩ : ∃ (p : Fin 1) (e : Fin 1024), i = ix2 p e := ⟨i 0, i 1, eq_ix2 i⟩
  obtain rfl : p = 0 := Subsingleton.elim _ _
  unfold Cert.Lstm.outArr Cert.Lstm.outOf
  simp only [hh, HostSide.e2_W m ρ c, HostSide.e2_b m ρ c]

end Cert.KernelIdeal.KernelValue

end
-- ==== Proof.MidPieces.lean ====
/-
  The cell step at one grid point, read off the run of its body.

  A grid point of the middle kernel owns 128 hidden units. Its body first fills a 4 × 128 scratch, row k with gate k's
  128 pre-activations (a loop of four trips), then loads the four rows back and stores the new cell block and the new
  hidden block. The run lists what it stored: each output block is one whole-block piece whose value is the update
  formula applied to the cell block and the four rows read back; and each row read back goes through the four row
  pieces the loop listed, newest first — the newer rows sit at other row positions, so the read falls through them to
  the piece of its own row and returns that gate's pre-activations. The loads of the input blocks read the blocks
  themselves: a whole-block load is the block, and the load at gate k's offsets of a stacked block is its k-th slab or row.
-/
import proofs.«181757_j22763326668968_2_alg».proof.Proof.FramePIdeal
import Idealize.ShloMosaic.Lib.WritesUnit
import Idealize.ShloMosaic.Lib.Pipeline.Value
import Idealize.ShloMosaic.Lib.ValueIdx

set_option maxRecDepth 16384

noncomputable section

namespace Cert.KernelIdeal.MidPieces

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx
open scoped BigOperators

/-- The literal zero offsets are the zero function. -/
theorem hz2 : (![0, 0] : Fin 2 → Nat) = fun _ => 0 := funext fun a => by fin_cases a <;> rfl

set_option maxHeartbeats 400000 in
/-- What the body leaves in the hidden block's buffer: the hidden update of the cell block and the four rows read back. -/
theorem out7_eq (c : Dev nD) (i : grid1.Coords) (arg1 : Memref sig .tc .vmem S1x4096 .f32) (harg1 : arg1.IsWhole) (arg2 : Memref sig .tc .vmem S1x4096 .f32) (harg2 : arg2.IsWhole) (arg3 : Memref sig .tc .vmem S1x128 .f32) (harg3 : arg3.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x128 .f32) (harg10 : arg10.IsWhole) (x0 : Vec Ideal S1x4096 .f32) (x1 : Vec Ideal S1x4096 .f32) (x2 : Vec Ideal S1x128 .f32) (x3 : Vec Ideal S4x128x4096 .f32) (x4 : Vec Ideal S4x128x4096 .f32) (x5 : Vec Ideal S4x128 .f32) (x6 : Vec Ideal S4x128 .f32) :
    GenP.out1_A_7 (F := Ideal) c i arg1 harg1 arg2 harg2 arg3 harg3 arg4 harg4 arg5 harg5 arg6 harg6 arg7 harg7 arg8 harg8 arg9 harg9 arg10 harg10 x0 x1 x2 x3 x4 x5 x6
      = k1_pay3 (F := Ideal) (View.readAt (Elt Ideal) arg3.view (Rect.unit (s := S1x128) ![0, 0] S1x128.size inb_S1x128_S1x128_0_0).toLoadRect (harg3.unread x2))
          (GenP.kernelRun1_A.sl.v9 (F := Ideal) c arg1 harg1 arg2 harg2 arg4 harg4 arg5 harg5 arg6 harg6 arg7 harg7 arg10 x0 x1 x3 x4 x5 x6) (GenP.kernelRun1_A.sl.v12 (F := Ideal) c arg1 harg1 arg2 harg2 arg4 harg4 arg5 harg5 arg6 harg6 arg7 harg7 arg10 x0 x1 x3 x4 x5 x6)
          (GenP.kernelRun1_A.sl.v15 (F := Ideal) c arg1 harg1 arg2 harg2 arg4 harg4 arg5 harg5 arg6 harg6 arg7 harg7 arg10 x0 x1 x3 x4 x5 x6) (GenP.kernelRun1_A.sl.v18 (F := Ideal) c arg1 harg1 arg2 harg2 arg4 harg4 arg5 harg5 arg6 harg6 arg7 harg7 arg10 x0 x1 x3 x4 x5 x6) := by
  unfold GenP.out1_A_7
  rw [View.read_writes_eq_canon _ _ _ (GenP.cover1_A_7 (F := Ideal) c i arg1 harg1 arg2 harg2 arg3 harg3 arg4 harg4 arg5 harg5 arg6 harg6 arg7 harg7 arg8 harg8 arg9 harg9 arg10 harg10 x0 x1 x2 x3 x4 x5 x6)]
  unfold GenP.kernelRun1_A
  dsimp only
  exact View.canon_unit_zero hz2 _ _

set_option maxHeartbeats 400000 in
/-- What the body leaves in the cell block's buffer: the cell update of the cell block and rows 0, 1, 2 read back. -/
theorem out8_eq (c : Dev nD) (i : grid1.Coords) (arg1 : Memref sig .tc .vmem S1x4096 .f32) (harg1 : arg1.IsWhole) (arg2 : Memref sig .tc .vmem S1x4096 .f32) (harg2 : arg2.IsWhole) (arg3 : Memref sig .tc .vmem S1x128 .f32) (harg3 : arg3.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x128 .f32) (harg10 : arg10.IsWhole) (x0 : Vec Ideal S1x4096 .f32) (x1 : Vec Ideal S1x4096 .f32) (x2 : Vec Ideal S1x128 .f32) (x3 : Vec Ideal S4x128x4096 .f32) (x4 : Vec Ideal S4x128x4096 .f32) (x5 : Vec Ideal S4x128 .f32) (x6 : Vec Ideal S4x128 .f32) :
    GenP.out1_A_8 (F := Ideal) c i arg1 harg1 arg2 harg2 arg3 harg3 arg4 harg4 arg5 harg5 arg6 harg6 arg7 harg7 arg8 harg8 arg9 harg9 arg10 harg10 x0 x1 x2 x3 x4 x5 x6
      = k1_pay2 (F := Ideal) (View.readAt (Elt Ideal) arg3.view (Rect.unit (s := S1x128) ![0, 0] S1x128.size inb_S1x128_S1x128_0_0).toLoadRect (harg3.unread x2))
          (GenP.kernelRun1_A.sl.v9 (F := Ideal) c arg1 harg1 arg2 harg2 arg4 harg4 arg5 harg5 arg6 harg6 arg7 harg7 arg10 x0 x1 x3 x4 x5 x6) (GenP.kernelRun1_A.sl.v12 (F := Ideal) c arg1 harg1 arg2 harg2 arg4 harg4 arg5 harg5 arg6 harg6 arg7 harg7 arg10 x0 x1 x3 x4 x5 x6)
          (GenP.kernelRun1_A.sl.v15 (F := Ideal) c arg1 harg1 arg2 harg2 arg4 harg4 arg5 harg5 arg6 harg6 arg7 harg7 arg10 x0 x1 x3 x4 x5 x6) := by
  unfold GenP.out1_A_8
  rw [View.read_writes_eq_canon _ _ _ (GenP.cover1_A_8 (F := Ideal) c i arg1 harg1 arg2 harg2 arg3 harg3 arg4 harg4 arg5 harg5 arg6 harg6 arg7 harg7 arg8 harg8 arg9 harg9 arg10 harg10 x0 x1 x2 x3 x4 x5 x6)]
  unfold GenP.kernelRun1_A
  dsimp only
  exact View.canon_unit_zero hz2 _ _

set_option maxHeartbeats 400000 in
/-- Row 0 of the scratch read back after the loop: gate 0's pre-activations (the newer rows lie elsewhere on the row axis). -/
theorem row0_read (c : Dev nD) (arg1 : Memref sig .tc .vmem S1x4096 .f32) (harg1 : arg1.IsWhole) (arg2 : Memref sig .tc .vmem S1x4096 .f32) (harg2 : arg2.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg10 : Memref sig .tc .vmem S4x128 .f32) (x0 : Vec Ideal S1x4096 .f32) (x1 : Vec Ideal S1x4096 .f32) (x3 : Vec Ideal S4x128x4096 .f32) (x4 : Vec Ideal S4x128x4096 .f32) (x5 : Vec Ideal S4x128 .f32) (x6 : Vec Ideal S4x128 .f32) (q : Fin 128) :
    GenP.kernelRun1_A.sl.v9 (F := Ideal) c arg1 harg1 arg2 harg2 arg4 harg4 arg5 harg5 arg6 harg6 arg7 harg7 arg10 x0 x1 x3 x4 x5 x6 (ix2 (0 : Fin 1) q)
      = k1_pay1 (F := Ideal) (View.readAt (Elt Ideal) arg1.view (Rect.unit (s := S1x4096) ![0, 0] S1x4096.size inb_S1x4096_S1x4096_0_0).toLoadRect (harg1.unread x0)) (View.readAt (Elt Ideal) arg2.view (Rect.unit (s := S1x4096) ![0, 0] S1x4096.size inb_S1x4096_S1x4096_0_0).toLoadRect (harg2.unread x1))
          (View.readAt (Elt Ideal) arg4.view (Rect.unit (s := S4x128x4096) (k1_off1 GateLoop.g0) S1x128x4096.size (k1_off1_inb GateLoop.g0)).toLoadRect (harg4.unread x3)) (View.readAt (Elt Ideal) arg5.view (Rect.unit (s := S4x128x4096) (k1_off1 GateLoop.g0) S1x128x4096.size (k1_off1_inb GateLoop.g0)).toLoadRect (harg5.unread x4))
          (View.readAt (Elt Ideal) arg6.view (Rect.unit (s := S4x128) (k1_off2 GateLoop.g0) S1x128.size (k1_off2_inb GateLoop.g0)).toLoadRect (harg6.unread x5)) (View.readAt (Elt Ideal) arg7.view (Rect.unit (s := S4x128) (k1_off2 GateLoop.g0) S1x128.size (k1_off2_inb GateLoop.g0)).toLoadRect (harg7.unread x6)) (ix2 (0 : Fin 1) q) := by
  unfold GenP.kernelRun1_A.sl.v9
  unfold View.readCov
  rw [View.readAt_apply]
  rw [View.read_writes_cons_unit_of_not_mem (off' := ![3, 0]) _ _ _ _ _ _ (k1_off2_eq GateLoop.g3) (0 : Fin 2) (Or.inl (by show (0 : ℕ) < 3; decide))]
  rw [View.read_writes_cons_unit_of_not_mem (off' := ![2, 0]) _ _ _ _ _ _ (k1_off2_eq GateLoop.g2) (0 : Fin 2) (Or.inl (by show (0 : ℕ) < 2; decide))]
  rw [View.read_writes_cons_unit_of_not_mem (off' := ![1, 0]) _ _ _ _ _ _ (k1_off2_eq GateLoop.g1) (0 : Fin 2) (Or.inl (by show (0 : ℕ) < 1; decide))]
  exact View.read_writes_cons_unit_of_mem arg10.view arg10.view.junk (off := k1_off2 GateLoop.g0) (off' := ![0, 0]) (size := S1x128.size)
    (k1_off2_inb GateLoop.g0) _ _ _ (ix2 (0 : Fin 1) q) (k1_off2_eq GateLoop.g0)
    (fun a => by
      match a with
      | ⟨0, _⟩ => rfl
      | ⟨1, _⟩ => show 0 + 1 * q.val = 0 + q.val; rw [Nat.one_mul])

set_option maxHeartbeats 400000 in
/-- Row 1 of the scratch read back after the loop: gate 1's pre-activations (the newer rows lie elsewhere on the row axis). -/
theorem row1_read (c : Dev nD) (arg1 : Memref sig .tc .vmem S1x4096 .f32) (harg1 : arg1.IsWhole) (arg2 : Memref sig .tc .vmem S1x4096 .f32) (harg2 : arg2.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg10 : Memref sig .tc .vmem S4x128 .f32) (x0 : Vec Ideal S1x4096 .f32) (x1 : Vec Ideal S1x4096 .f32) (x3 : Vec Ideal S4x128x4096 .f32) (x4 : Vec Ideal S4x128x4096 .f32) (x5 : Vec Ideal S4x128 .f32) (x6 : Vec Ideal S4x128 .f32) (q : Fin 128) :
    GenP.kernelRun1_A.sl.v12 (F := Ideal) c arg1 harg1 arg2 harg2 arg4 harg4 arg5 harg5 arg6 harg6 arg7 harg7 arg10 x0 x1 x3 x4 x5 x6 (ix2 (0 : Fin 1) q)
      = k1_pay1 (F := Ideal) (View.readAt (Elt Ideal) arg1.view (Rect.unit (s := S1x4096) ![0, 0] S1x4096.size inb_S1x4096_S1x4096_0_0).toLoadRect (harg1.unread x0)) (View.readAt (Elt Ideal) arg2.view (Rect.unit (s := S1x4096) ![0, 0] S1x4096.size inb_S1x4096_S1x4096_0_0).toLoadRect (harg2.unread x1))
          (View.readAt (Elt Ideal) arg4.view (Rect.unit (s := S4x128x4096) (k1_off1 GateLoop.g1) S1x128x4096.size (k1_off1_inb GateLoop.g1)).toLoadRect (harg4.unread x3)) (View.readAt (Elt Ideal) arg5.view (Rect.unit (s := S4x128x4096) (k1_off1 GateLoop.g1) S1x128x4096.size (k1_off1_inb GateLoop.g1)).toLoadRect (harg5.unread x4))
          (View.readAt (Elt Ideal) arg6.view (Rect.unit (s := S4x128) (k1_off2 GateLoop.g1) S1x128.size (k1_off2_inb GateLoop.g1)).toLoadRect (harg6.unread x5)) (View.readAt (Elt Ideal) arg7.view (Rect.unit (s := S4x128) (k1_off2 GateLoop.g1) S1x128.size (k1_off2_inb GateLoop.g1)).toLoadRect (harg7.unread x6)) (ix2 (0 : Fin 1) q) := by
  unfold GenP.kernelRun1_A.sl.v12
  unfold View.readCov
  rw [View.readAt_apply]
  rw [View.read_writes_cons_unit_of_not_mem (off' := ![3, 0]) _ _ _ _ _ _ (k1_off2_eq GateLoop.g3) (0 : Fin 2) (Or.inl (by show (1 : ℕ) < 3; decide))]
  rw [View.read_writes_cons_unit_of_not_mem (off' := ![2, 0]) _ _ _ _ _ _ (k1_off2_eq GateLoop.g2) (0 : Fin 2) (Or.inl (by show (1 : ℕ) < 2; decide))]
  exact View.read_writes_cons_unit_of_mem arg10.view arg10.view.junk (off := k1_off2 GateLoop.g1) (off' := ![1, 0]) (size := S1x128.size)
    (k1_off2_inb GateLoop.g1) _ _ _ (ix2 (0 : Fin 1) q) (k1_off2_eq GateLoop.g1)
    (fun a => by
      match a with
      | ⟨0, _⟩ => rfl
      | ⟨1, _⟩ => show 0 + 1 * q.val = 0 + q.val; rw [Nat.one_mul])

set_option maxHeartbeats 400000 in
/-- Row 2 of the scratch read back after the loop: gate 2's pre-activations (the newer rows lie elsewhere on the row axis). -/
theorem row2_read (c : Dev nD) (arg1 : Memref sig .tc .vmem S1x4096 .f32) (harg1 : arg1.IsWhole) (arg2 : Memref sig .tc .vmem S1x4096 .f32) (harg2 : arg2.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg10 : Memref sig .tc .vmem S4x128 .f32) (x0 : Vec Ideal S1x4096 .f32) (x1 : Vec Ideal S1x4096 .f32) (x3 : Vec Ideal S4x128x4096 .f32) (x4 : Vec Ideal S4x128x4096 .f32) (x5 : Vec Ideal S4x128 .f32) (x6 : Vec Ideal S4x128 .f32) (q : Fin 128) :
    GenP.kernelRun1_A.sl.v15 (F := Ideal) c arg1 harg1 arg2 harg2 arg4 harg4 arg5 harg5 arg6 harg6 arg7 harg7 arg10 x0 x1 x3 x4 x5 x6 (ix2 (0 : Fin 1) q)
      = k1_pay1 (F := Ideal) (View.readAt (Elt Ideal) arg1.view (Rect.unit (s := S1x4096) ![0, 0] S1x4096.size inb_S1x4096_S1x4096_0_0).toLoadRect (harg1.unread x0)) (View.readAt (Elt Ideal) arg2.view (Rect.unit (s := S1x4096) ![0, 0] S1x4096.size inb_S1x4096_S1x4096_0_0).toLoadRect (harg2.unread x1))
          (View.readAt (Elt Ideal) arg4.view (Rect.unit (s := S4x128x4096) (k1_off1 GateLoop.g2) S1x128x4096.size (k1_off1_inb GateLoop.g2)).toLoadRect (harg4.unread x3)) (View.readAt (Elt Ideal) arg5.view (Rect.unit (s := S4x128x4096) (k1_off1 GateLoop.g2) S1x128x4096.size (k1_off1_inb GateLoop.g2)).toLoadRect (harg5.unread x4))
          (View.readAt (Elt Ideal) arg6.view (Rect.unit (s := S4x128) (k1_off2 GateLoop.g2) S1x128.size (k1_off2_inb GateLoop.g2)).toLoadRect (harg6.unread x5)) (View.readAt (Elt Ideal) arg7.view (Rect.unit (s := S4x128) (k1_off2 GateLoop.g2) S1x128.size (k1_off2_inb GateLoop.g2)).toLoadRect (harg7.unread x6)) (ix2 (0 : Fin 1) q) := by
  unfold GenP.kernelRun1_A.sl.v15
  unfold View.readCov
  rw [View.readAt_apply]
  rw [View.read_writes_cons_unit_of_not_mem (off' := ![3, 0]) _ _ _ _ _ _ (k1_off2_eq GateLoop.g3) (0 : Fin 2) (Or.inl (by show (2 : ℕ) < 3; decide))]
  exact View.read_writes_cons_unit_of_mem arg10.view arg10.view.junk (off := k1_off2 GateLoop.g2) (off' := ![2, 0]) (size := S1x128.size)
    (k1_off2_inb GateLoop.g2) _ _ _ (ix2 (0 : Fin 1) q) (k1_off2_eq GateLoop.g2)
    (fun a => by
      match a with
      | ⟨0, _⟩ => rfl
      | ⟨1, _⟩ => show 0 + 1 * q.val = 0 + q.val; rw [Nat.one_mul])

set_option maxHeartbeats 400000 in
/-- Row 3 of the scratch read back after the loop: gate 3's pre-activations (the newer rows lie elsewhere on the row axis). -/
theorem row3_read (c : Dev nD) (arg1 : Memref sig .tc .vmem S1x4096 .f32) (harg1 : arg1.IsWhole) (arg2 : Memref sig .tc .vmem S1x4096 .f32) (harg2 : arg2.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg10 : Memref sig .tc .vmem S4x128 .f32) (x0 : Vec Ideal S1x4096 .f32) (x1 : Vec Ideal S1x4096 .f32) (x3 : Vec Ideal S4x128x4096 .f32) (x4 : Vec Ideal S4x128x4096 .f32) (x5 : Vec Ideal S4x128 .f32) (x6 : Vec Ideal S4x128 .f32) (q : Fin 128) :
    GenP.kernelRun1_A.sl.v18 (F := Ideal) c arg1 harg1 arg2 harg2 arg4 harg4 arg5 harg5 arg6 harg6 arg7 harg7 arg10 x0 x1 x3 x4 x5 x6 (ix2 (0 : Fin 1) q)
      = k1_pay1 (F := Ideal) (View.readAt (Elt Ideal) arg1.view (Rect.unit (s := S1x4096) ![0, 0] S1x4096.size inb_S1x4096_S1x4096_0_0).toLoadRect (harg1.unread x0)) (View.readAt (Elt Ideal) arg2.view (Rect.unit (s := S1x4096) ![0, 0] S1x4096.size inb_S1x4096_S1x4096_0_0).toLoadRect (harg2.unread x1))
          (View.readAt (Elt Ideal) arg4.view (Rect.unit (s := S4x128x4096) (k1_off1 GateLoop.g3) S1x128x4096.size (k1_off1_inb GateLoop.g3)).toLoadRect (harg4.unread x3)) (View.readAt (Elt Ideal) arg5.view (Rect.unit (s := S4x128x4096) (k1_off1 GateLoop.g3) S1x128x4096.size (k1_off1_inb GateLoop.g3)).toLoadRect (harg5.unread x4))
          (View.readAt (Elt Ideal) arg6.view (Rect.unit (s := S4x128) (k1_off2 GateLoop.g3) S1x128.size (k1_off2_inb GateLoop.g3)).toLoadRect (harg6.unread x5)) (View.readAt (Elt Ideal) arg7.view (Rect.unit (s := S4x128) (k1_off2 GateLoop.g3) S1x128.size (k1_off2_inb GateLoop.g3)).toLoadRect (harg7.unread x6)) (ix2 (0 : Fin 1) q) := by
  unfold GenP.kernelRun1_A.sl.v18
  unfold View.readCov
  rw [View.readAt_apply]

  exact View.read_writes_cons_unit_of_mem arg10.view arg10.view.junk (off := k1_off2 GateLoop.g3) (off' := ![3, 0]) (size := S1x128.size)
    (k1_off2_inb GateLoop.g3) _ _ _ (ix2 (0 : Fin 1) q) (k1_off2_eq GateLoop.g3)
    (fun a => by
      match a with
      | ⟨0, _⟩ => rfl
      | ⟨1, _⟩ => show 0 + 1 * q.val = 0 + q.val; rw [Nat.one_mul])

end Cert.KernelIdeal.MidPieces

end
-- ==== Proof.MidPayload.lean ====
/-
  The three values the long short-term memory step's kernel stores, read at an index on the extended reals.

  One gate block of 128 pre-activations is the sum of two products of a row of length 4096 with the transpose of a
  128 × 4096 block of weights, plus two bias entries; the products contract the row with the block's rows, so entry q
  is the sum over k of v (0, k) · W (0, q, k). A change of float format is the identity on the extended reals, and the
  shape changes only rename indices. The new cell entry is σ(f) · c + σ(i) · tanh(g) and the new hidden entry is
  σ(o) · tanh(c'), entry by entry.
-/
import proofs.«181757_j22763326668968_2_alg».proof.Proof.Gen.KernelIdeal.Skeleton
import proofs.«181757_j22763326668968_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MidPayload

open Cert.KernelIdeal Cert.KernelIdeal.Gen Idealize.ShloMosaic Idealize.ShloMosaic.ValueIdx
open scoped BigOperators

/-- A row of length 4096 times the transpose of a 128 × 4096 block, at column q: the sum over k of the row's entry k
    times the block's entry (q, k). The two roundings to the narrower format are the identity here. -/
theorem row_times_block (v : Vec Ideal S1x4096 .f32) (w : Vec Ideal S1x128x4096 .f32) (q : Fin 128) :
    matmul dot_S1x4096_S4096x128_S1x128_1_0_0_1_n_n none
        (truncf .bf16 (shapeCast S1x4096 v shapeCasts_S1x4096_S1x4096) bitsLt_bf16_f32)
        (transpose S4096x128 [1, 0] (truncf .bf16 (shapeCast S128x4096 w shapeCasts_S1x128x4096_S128x4096) bitsLt_bf16_f32)
          transposes_S128x4096_p1_0_S4096x128)
        (constant (F := Ideal) S1x128 .f32 0x00000000#32) (ix2 (0 : Fin 1) q)
      = ∑ k : Fin 4096, v (ix2 (0 : Fin 1) k) * w (ix3 (0 : Fin 1) q k) := by
  refine (Cert.LibPlainDot.matmul_plain_apply dot_S1x4096_S4096x128_S1x128_1_0_0_1_n_n rfl rfl rfl rfl rfl rfl none _ _
    (0 : Fin 1) q).trans ?_
  refine Finset.sum_congr rfl fun k _ => ?_
  rw [truncf_apply, shapeCast_self, transpose_ix2_apply, truncf_apply, shapeCast_1ab_ab_apply]

/-- One gate block's pre-activations: the two products, then the two biases, in the program's order. -/
theorem gate_pay_apply (v0 v3 : Vec Ideal S1x4096 .f32) (v35 v39 : Vec Ideal S1x128x4096 .f32) (v43 v46 : Vec Ideal S1x128 .f32) (q : Fin 128) :
    k1_pay1 (F := Ideal) v0 v3 v35 v39 v43 v46 (ix2 (0 : Fin 1) q)
      = ((∑ k : Fin 4096, v0 (ix2 (0 : Fin 1) k) * v35 (ix3 (0 : Fin 1) q k)) + (∑ k : Fin 4096, v3 (ix2 (0 : Fin 1) k) * v39 (ix3 (0 : Fin 1) q k)))
          + v43 (ix2 (0 : Fin 1) q) + v46 (ix2 (0 : Fin 1) q) := by
  unfold k1_pay1
  refine (shapeCast_a_1a_apply _ _ (0 : Fin 1) q).trans ?_
  rw [addf_apply, addf_apply, shapeCast_1a_a_apply, shapeCast_1a_a_apply, shapeCast_1a_a_apply, addf_apply,
    row_times_block, row_times_block]

/-- The new cell entry: σ(f) · c + σ(i) · tanh(g). The shape changes to a vector and back are the identity. -/
theorem cell_pay_apply (v7 v9 v12 v15 : Vec Ideal S1x128 .f32) (q : Fin 128) :
    k1_pay2 (F := Ideal) v7 v9 v12 v15 (ix2 (0 : Fin 1) q)
      = Ideal.logistic (v12 (ix2 (0 : Fin 1) q)) * v7 (ix2 (0 : Fin 1) q) + Ideal.logistic (v9 (ix2 (0 : Fin 1) q)) * Ideal.tanh (v15 (ix2 (0 : Fin 1) q)) := by
  unfold k1_pay2
  rw [shapeCast_self, shapeCast_shapeCast, shapeCast_shapeCast, shapeCast_shapeCast]
  rfl

/-- The new hidden entry: σ(o) · tanh(c'). -/
theorem hidden_pay_apply (v7 v9 v12 v15 v18 : Vec Ideal S1x128 .f32) (q : Fin 128) :
    k1_pay3 (F := Ideal) v7 v9 v12 v15 v18 (ix2 (0 : Fin 1) q)
      = Ideal.logistic (v18 (ix2 (0 : Fin 1) q)) * Ideal.tanh (k1_pay2 (F := Ideal) v7 v9 v12 v15 (ix2 (0 : Fin 1) q)) := by
  unfold k1_pay3
  rw [shapeCast_shapeCast]
  rfl

end Cert.KernelIdeal.MidPayload

end
-- ==== Proof.MidPoint.lean ====
/-
  The cell step at one grid point, as the update formulas of the specification.

  The point with number n owns the hidden units n · 128 + q, q < 128. What its body stores for unit q is the update
  formula applied to the old cell entry and to four numbers read back from the scratch; the number in row k is gate
  k's pre-activation of that unit: the product of the projected input with the unit's row of gate k's input weights,
  plus the product of the old hidden state with its row of gate k's recurrent weights, plus its two bias entries.
  When the blocks the point loaded are the point's blocks of whole arrays — the two vectors whole, the old cell state's
  entries n · 128 + q, and of the stacked weights and biases the entries of rows k · 4096 + n · 128 + q — these are the
  pre-activations of rows k · 4096 + (n · 128 + q) of the specification, so the stored values are its new hidden and new
  cell state at unit n · 128 + q.
-/
import proofs.«181757_j22763326668968_2_alg».proof.Proof.FramePIdeal
import proofs.«181757_j22763326668968_2_alg».proof.Proof.LstmSpec
import proofs.«181757_j22763326668968_2_alg».proof.Proof.MidPieces
import proofs.«181757_j22763326668968_2_alg».proof.Proof.MidPayload
import Idealize.ShloMosaic.Lib.Pipeline.Value
import Idealize.ShloMosaic.Lib.ValueIdx

set_option maxRecDepth 16384

noncomputable section

namespace Cert.KernelIdeal.MidPoint

open Cert.KernelIdeal Cert.KernelIdeal.Gen Cert.KernelIdeal.GenP
open Idealize.ShloMosaic Idealize.ShloMosaic.TcCoe Idealize.SL.Sem
open Idealize.ShloMosaic.ValueIdx
open Cert.KernelIdeal.MidPieces (hz2)
open scoped BigOperators

/-- A load of a whole [1, 4096] block reads the block. -/
theorem rd_vec (arg : Memref sig .tc .vmem S1x4096 .f32) (ha : arg.IsWhole) (x : Vec Ideal S1x4096 .f32) :
    View.readAt (Elt Ideal) arg.view (Rect.unit (s := S1x4096) ![0, 0] S1x4096.size inb_S1x4096_S1x4096_0_0).toLoadRect (ha.unread x) = x := by
  rw [View.readAt_eq_ld, ha.read_unread, View.ld_unit_zero (S := S1x4096) hz2]

/-- A load of a whole [1, 128] block reads the block. -/
theorem rd_blk (arg : Memref sig .tc .vmem S1x128 .f32) (ha : arg.IsWhole) (x : Vec Ideal S1x128 .f32) :
    View.readAt (Elt Ideal) arg.view (Rect.unit (s := S1x128) ![0, 0] S1x128.size inb_S1x128_S1x128_0_0).toLoadRect (ha.unread x) = x := by
  rw [View.readAt_eq_ld, ha.read_unread, View.ld_unit_zero (S := S1x128) hz2]

/-- The load of a [4, 128, 4096] block at trip g's offsets reads, at (0, q, k), the block at (g, q, k). -/
theorem rd_slab (arg : Memref sig .tc .vmem S4x128x4096 .f32) (ha : arg.IsWhole) (x : Vec Ideal S4x128x4096 .f32)
    (g : Fin k1_t1_loop.trips) (N : Fin 4) (hg : g.val = N.val) (q : Fin 128) (k : Fin 4096) :
    View.readAt (Elt Ideal) arg.view (Rect.unit (s := S4x128x4096) (k1_off1 g) S1x128x4096.size (k1_off1_inb g)).toLoadRect (ha.unread x)
        (ix3 (0 : Fin 1) q k) = x (ix3 N q k) := by
  rw [View.readAt_eq_ld, ha.read_unread]
  show x ((Rect.unit (s := S4x128x4096) (k1_off1 g) S1x128x4096.size (k1_off1_inb g)).idx (ix3 (0 : Fin 1) q k)) = x (ix3 N q k)
  refine congrArg x (funext fun a => Fin.ext ?_)
  match a with
  | ⟨0, _⟩ => show k1_off1 g (0 : Fin 3) + 1 * (0 : Fin 1).val = N.val; rw [k1_off1_eq g]; show g.val + 1 * 0 = N.val; omega
  | ⟨1, _⟩ => show k1_off1 g (1 : Fin 3) + 1 * q.val = q.val; rw [k1_off1_eq g]; show 0 + 1 * q.val = q.val; omega
  | ⟨2, _⟩ => show k1_off1 g (2 : Fin 3) + 1 * k.val = k.val; rw [k1_off1_eq g]; show 0 + 1 * k.val = k.val; omega

/-- The load of a [4, 128] block at trip g's offsets reads, at (0, q), the block at (g, q). -/
theorem rd_row (arg : Memref sig .tc .vmem S4x128 .f32) (ha : arg.IsWhole) (x : Vec Ideal S4x128 .f32)
    (g : Fin k1_t1_loop.trips) (N : Fin 4) (hg : g.val = N.val) (q : Fin 128) :
    View.readAt (Elt Ideal) arg.view (Rect.unit (s := S4x128) (k1_off2 g) S1x128.size (k1_off2_inb g)).toLoadRect (ha.unread x)
        (ix2 (0 : Fin 1) q) = x (ix2 N q) := by
  rw [View.readAt_eq_ld, ha.read_unread]
  show x ((Rect.unit (s := S4x128) (k1_off2 g) S1x128.size (k1_off2_inb g)).idx (ix2 (0 : Fin 1) q)) = x (ix2 N q)
  refine congrArg x (funext fun a => Fin.ext ?_)
  match a with
  | ⟨0, _⟩ => show k1_off2 g (0 : Fin 2) + 1 * (0 : Fin 1).val = N.val; rw [k1_off2_eq g]; show g.val + 1 * 0 = N.val; omega
  | ⟨1, _⟩ => show k1_off2 g (1 : Fin 2) + 1 * q.val = q.val; rw [k1_off2_eq g]; show 0 + 1 * q.val = q.val; omega

/-- Row 0 of the scratch, in terms of the blocks the point loaded: gate 0's two products and two bias entries. -/
theorem scratch_row0 (c : Dev nD) (arg1 : Memref sig .tc .vmem S1x4096 .f32) (harg1 : arg1.IsWhole) (arg2 : Memref sig .tc .vmem S1x4096 .f32) (harg2 : arg2.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg10 : Memref sig .tc .vmem S4x128 .f32) (x0 : Vec Ideal S1x4096 .f32) (x1 : Vec Ideal S1x4096 .f32) (x3 : Vec Ideal S4x128x4096 .f32) (x4 : Vec Ideal S4x128x4096 .f32) (x5 : Vec Ideal S4x128 .f32) (x6 : Vec Ideal S4x128 .f32) (q : Fin 128) :
    GenP.kernelRun1_A.sl.v9 (F := Ideal) c arg1 harg1 arg2 harg2 arg4 harg4 arg5 harg5 arg6 harg6 arg7 harg7 arg10 x0 x1 x3 x4 x5 x6 (ix2 (0 : Fin 1) q)
      = ((∑ k : Fin 4096, x0 (ix2 (0 : Fin 1) k) * x3 (ix3 (0 : Fin 4) q k)) + (∑ k : Fin 4096, x1 (ix2 (0 : Fin 1) k) * x4 (ix3 (0 : Fin 4) q k)))
          + x5 (ix2 (0 : Fin 4) q) + x6 (ix2 (0 : Fin 4) q) := by
  rw [MidPieces.row0_read, MidPayload.gate_pay_apply, rd_vec arg1 harg1 x0, rd_vec arg2 harg2 x1,
    rd_row arg6 harg6 x5 GateLoop.g0 (0 : Fin 4) rfl q, rd_row arg7 harg7 x6 GateLoop.g0 (0 : Fin 4) rfl q]
  refine congrArg₂ (· + ·) (congrArg₂ (· + ·) (congrArg₂ (· + ·) (Finset.sum_congr rfl fun k _ => ?_) (Finset.sum_congr rfl fun k _ => ?_)) rfl) rfl
  · rw [rd_slab arg4 harg4 x3 GateLoop.g0 (0 : Fin 4) rfl q k]
  · rw [rd_slab arg5 harg5 x4 GateLoop.g0 (0 : Fin 4) rfl q k]

/-- Row 1 of the scratch, in terms of the blocks the point loaded: gate 1's two products and two bias entries. -/
theorem scratch_row1 (c : Dev nD) (arg1 : Memref sig .tc .vmem S1x4096 .f32) (harg1 : arg1.IsWhole) (arg2 : Memref sig .tc .vmem S1x4096 .f32) (harg2 : arg2.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg10 : Memref sig .tc .vmem S4x128 .f32) (x0 : Vec Ideal S1x4096 .f32) (x1 : Vec Ideal S1x4096 .f32) (x3 : Vec Ideal S4x128x4096 .f32) (x4 : Vec Ideal S4x128x4096 .f32) (x5 : Vec Ideal S4x128 .f32) (x6 : Vec Ideal S4x128 .f32) (q : Fin 128) :
    GenP.kernelRun1_A.sl.v12 (F := Ideal) c arg1 harg1 arg2 harg2 arg4 harg4 arg5 harg5 arg6 harg6 arg7 harg7 arg10 x0 x1 x3 x4 x5 x6 (ix2 (0 : Fin 1) q)
      = ((∑ k : Fin 4096, x0 (ix2 (0 : Fin 1) k) * x3 (ix3 (1 : Fin 4) q k)) + (∑ k : Fin 4096, x1 (ix2 (0 : Fin 1) k) * x4 (ix3 (1 : Fin 4) q k)))
          + x5 (ix2 (1 : Fin 4) q) + x6 (ix2 (1 : Fin 4) q) := by
  rw [MidPieces.row1_read, MidPayload.gate_pay_apply, rd_vec arg1 harg1 x0, rd_vec arg2 harg2 x1,
    rd_row arg6 harg6 x5 GateLoop.g1 (1 : Fin 4) rfl q, rd_row arg7 harg7 x6 GateLoop.g1 (1 : Fin 4) rfl q]
  refine congrArg₂ (· + ·) (congrArg₂ (· + ·) (congrArg₂ (· + ·) (Finset.sum_congr rfl fun k _ => ?_) (Finset.sum_congr rfl fun k _ => ?_)) rfl) rfl
  · rw [rd_slab arg4 harg4 x3 GateLoop.g1 (1 : Fin 4) rfl q k]
  · rw [rd_slab arg5 harg5 x4 GateLoop.g1 (1 : Fin 4) rfl q k]

/-- Row 2 of the scratch, in terms of the blocks the point loaded: gate 2's two products and two bias entries. -/
theorem scratch_row2 (c : Dev nD) (arg1 : Memref sig .tc .vmem S1x4096 .f32) (harg1 : arg1.IsWhole) (arg2 : Memref sig .tc .vmem S1x4096 .f32) (harg2 : arg2.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg10 : Memref sig .tc .vmem S4x128 .f32) (x0 : Vec Ideal S1x4096 .f32) (x1 : Vec Ideal S1x4096 .f32) (x3 : Vec Ideal S4x128x4096 .f32) (x4 : Vec Ideal S4x128x4096 .f32) (x5 : Vec Ideal S4x128 .f32) (x6 : Vec Ideal S4x128 .f32) (q : Fin 128) :
    GenP.kernelRun1_A.sl.v15 (F := Ideal) c arg1 harg1 arg2 harg2 arg4 harg4 arg5 harg5 arg6 harg6 arg7 harg7 arg10 x0 x1 x3 x4 x5 x6 (ix2 (0 : Fin 1) q)
      = ((∑ k : Fin 4096, x0 (ix2 (0 : Fin 1) k) * x3 (ix3 (2 : Fin 4) q k)) + (∑ k : Fin 4096, x1 (ix2 (0 : Fin 1) k) * x4 (ix3 (2 : Fin 4) q k)))
          + x5 (ix2 (2 : Fin 4) q) + x6 (ix2 (2 : Fin 4) q) := by
  rw [MidPieces.row2_read, MidPayload.gate_pay_apply, rd_vec arg1 harg1 x0, rd_vec arg2 harg2 x1,
    rd_row arg6 harg6 x5 GateLoop.g2 (2 : Fin 4) rfl q, rd_row arg7 harg7 x6 GateLoop.g2 (2 : Fin 4) rfl q]
  refine congrArg₂ (· + ·) (congrArg₂ (· + ·) (congrArg₂ (· + ·) (Finset.sum_congr rfl fun k _ => ?_) (Finset.sum_congr rfl fun k _ => ?_)) rfl) rfl
  · rw [rd_slab arg4 harg4 x3 GateLoop.g2 (2 : Fin 4) rfl q k]
  · rw [rd_slab arg5 harg5 x4 GateLoop.g2 (2 : Fin 4) rfl q k]

/-- Row 3 of the scratch, in terms of the blocks the point loaded: gate 3's two products and two bias entries. -/
theorem scratch_row3 (c : Dev nD) (arg1 : Memref sig .tc .vmem S1x4096 .f32) (harg1 : arg1.IsWhole) (arg2 : Memref sig .tc .vmem S1x4096 .f32) (harg2 : arg2.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg10 : Memref sig .tc .vmem S4x128 .f32) (x0 : Vec Ideal S1x4096 .f32) (x1 : Vec Ideal S1x4096 .f32) (x3 : Vec Ideal S4x128x4096 .f32) (x4 : Vec Ideal S4x128x4096 .f32) (x5 : Vec Ideal S4x128 .f32) (x6 : Vec Ideal S4x128 .f32) (q : Fin 128) :
    GenP.kernelRun1_A.sl.v18 (F := Ideal) c arg1 harg1 arg2 harg2 arg4 harg4 arg5 harg5 arg6 harg6 arg7 harg7 arg10 x0 x1 x3 x4 x5 x6 (ix2 (0 : Fin 1) q)
      = ((∑ k : Fin 4096, x0 (ix2 (0 : Fin 1) k) * x3 (ix3 (3 : Fin 4) q k)) + (∑ k : Fin 4096, x1 (ix2 (0 : Fin 1) k) * x4 (ix3 (3 : Fin 4) q k)))
          + x5 (ix2 (3 : Fin 4) q) + x6 (ix2 (3 : Fin 4) q) := by
  rw [MidPieces.row3_read, MidPayload.gate_pay_apply, rd_vec arg1 harg1 x0, rd_vec arg2 harg2 x1,
    rd_row arg6 harg6 x5 GateLoop.g3 (3 : Fin 4) rfl q, rd_row arg7 harg7 x6 GateLoop.g3 (3 : Fin 4) rfl q]
  refine congrArg₂ (· + ·) (congrArg₂ (· + ·) (congrArg₂ (· + ·) (Finset.sum_congr rfl fun k _ => ?_) (Finset.sum_congr rfl fun k _ => ?_)) rfl) rfl
  · rw [rd_slab arg4 harg4 x3 GateLoop.g3 (3 : Fin 4) rfl q k]
  · rw [rd_slab arg5 harg5 x4 GateLoop.g3 (3 : Fin 4) rfl q k]

/-- Gate N's pre-activation of unit n · 128 + q, from the point's blocks of the whole arrays. -/
theorem gate_value (x0 x1 : Vec Ideal S1x4096 .f32) (x3 x4 : Vec Ideal S4x128x4096 .f32) (x5 x6 : Vec Ideal S4x128 .f32)
    (xi h cp : Fin 4096 → EReal) (Wih Whh : Fin 16384 → Fin 4096 → EReal) (bih bhh : Fin 16384 → EReal) (n : ℕ) (hn : n < 32)
    (h0 : ∀ k : Fin 4096, x0 (ix2 (0 : Fin 1) k) = xi k) (h1 : ∀ k : Fin 4096, x1 (ix2 (0 : Fin 1) k) = h k)
    (h3 : ∀ (g : Fin 4) (q : Fin 128) (k : Fin 4096), x3 (ix3 g q k) = Wih (Cert.Lstm.row g (⟨n * 128 + q.val, by have := q.isLt; omega⟩ : Fin 4096)) k)
    (h4 : ∀ (g : Fin 4) (q : Fin 128) (k : Fin 4096), x4 (ix3 g q k) = Whh (Cert.Lstm.row g (⟨n * 128 + q.val, by have := q.isLt; omega⟩ : Fin 4096)) k)
    (h5 : ∀ (g : Fin 4) (q : Fin 128), x5 (ix2 g q) = bih (Cert.Lstm.row g (⟨n * 128 + q.val, by have := q.isLt; omega⟩ : Fin 4096)))
    (h6 : ∀ (g : Fin 4) (q : Fin 128), x6 (ix2 g q) = bhh (Cert.Lstm.row g (⟨n * 128 + q.val, by have := q.isLt; omega⟩ : Fin 4096))) (N : Fin 4) (q : Fin 128) :
    ((∑ k : Fin 4096, x0 (ix2 (0 : Fin 1) k) * x3 (ix3 N q k)) + (∑ k : Fin 4096, x1 (ix2 (0 : Fin 1) k) * x4 (ix3 N q k)))
        + x5 (ix2 N q) + x6 (ix2 N q)
      = Cert.Lstm.pre xi h Wih Whh bih bhh (Cert.Lstm.row N (⟨n * 128 + q.val, by have := q.isLt; omega⟩ : Fin 4096)) := by
  unfold Cert.Lstm.pre
  refine congrArg₂ (· + ·) (congrArg₂ (· + ·) (congrArg₂ (· + ·) (Finset.sum_congr rfl fun k _ => ?_) (Finset.sum_congr rfl fun k _ => ?_)) (h5 N q)) (h6 N q)
  · rw [h0 k, h3 N q k]
  · rw [h1 k, h4 N q k]

set_option maxHeartbeats 400000 in
/-- The hidden block a point stores is the specification's new hidden state at the point's units. -/
theorem point_hidden (c : Dev nD) (i : grid1.Coords) (arg1 : Memref sig .tc .vmem S1x4096 .f32) (harg1 : arg1.IsWhole) (arg2 : Memref sig .tc .vmem S1x4096 .f32) (harg2 : arg2.IsWhole) (arg3 : Memref sig .tc .vmem S1x128 .f32) (harg3 : arg3.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x128 .f32) (harg10 : arg10.IsWhole) (x0 : Vec Ideal S1x4096 .f32) (x1 : Vec Ideal S1x4096 .f32) (x2 : Vec Ideal S1x128 .f32) (x3 : Vec Ideal S4x128x4096 .f32) (x4 : Vec Ideal S4x128x4096 .f32) (x5 : Vec Ideal S4x128 .f32) (x6 : Vec Ideal S4x128 .f32)
    (xi h cp : Fin 4096 → EReal) (Wih Whh : Fin 16384 → Fin 4096 → EReal) (bih bhh : Fin 16384 → EReal) (n : ℕ) (hn : n < 32)
    (h0 : ∀ k : Fin 4096, x0 (ix2 (0 : Fin 1) k) = xi k) (h1 : ∀ k : Fin 4096, x1 (ix2 (0 : Fin 1) k) = h k)
    (h2 : ∀ q : Fin 128, x2 (ix2 (0 : Fin 1) q) = cp (⟨n * 128 + q.val, by have := q.isLt; omega⟩ : Fin 4096))
    (h3 : ∀ (g : Fin 4) (q : Fin 128) (k : Fin 4096), x3 (ix3 g q k) = Wih (Cert.Lstm.row g (⟨n * 128 + q.val, by have := q.isLt; omega⟩ : Fin 4096)) k)
    (h4 : ∀ (g : Fin 4) (q : Fin 128) (k : Fin 4096), x4 (ix3 g q k) = Whh (Cert.Lstm.row g (⟨n * 128 + q.val, by have := q.isLt; omega⟩ : Fin 4096)) k)
    (h5 : ∀ (g : Fin 4) (q : Fin 128), x5 (ix2 g q) = bih (Cert.Lstm.row g (⟨n * 128 + q.val, by have := q.isLt; omega⟩ : Fin 4096)))
    (h6 : ∀ (g : Fin 4) (q : Fin 128), x6 (ix2 g q) = bhh (Cert.Lstm.row g (⟨n * 128 + q.val, by have := q.isLt; omega⟩ : Fin 4096))) (q : Fin 128) :
    GenP.out1_A_7 (F := Ideal) c i arg1 harg1 arg2 harg2 arg3 harg3 arg4 harg4 arg5 harg5 arg6 harg6 arg7 harg7 arg8 harg8 arg9 harg9 arg10 harg10 x0 x1 x2 x3 x4 x5 x6 (ix2 (0 : Fin 1) q)
      = Cert.Lstm.hidden (Cert.Lstm.pre xi h Wih Whh bih bhh) cp (⟨n * 128 + q.val, by have := q.isLt; omega⟩ : Fin 4096) := by
  rw [MidPieces.out7_eq, MidPayload.hidden_pay_apply, MidPayload.cell_pay_apply,
    scratch_row0, scratch_row1, scratch_row2, scratch_row3, rd_blk arg3 harg3 x2, h2 q,
    gate_value x0 x1 x3 x4 x5 x6 xi h cp Wih Whh bih bhh n hn h0 h1 h3 h4 h5 h6 (0 : Fin 4) q,
    gate_value x0 x1 x3 x4 x5 x6 xi h cp Wih Whh bih bhh n hn h0 h1 h3 h4 h5 h6 (1 : Fin 4) q,
    gate_value x0 x1 x3 x4 x5 x6 xi h cp Wih Whh bih bhh n hn h0 h1 h3 h4 h5 h6 (2 : Fin 4) q,
    gate_value x0 x1 x3 x4 x5 x6 xi h cp Wih Whh bih bhh n hn h0 h1 h3 h4 h5 h6 (3 : Fin 4) q]
  rfl

set_option maxHeartbeats 400000 in
/-- The cell block a point stores is the specification's new cell state at the point's units. -/
theorem point_cell (c : Dev nD) (i : grid1.Coords) (arg1 : Memref sig .tc .vmem S1x4096 .f32) (harg1 : arg1.IsWhole) (arg2 : Memref sig .tc .vmem S1x4096 .f32) (harg2 : arg2.IsWhole) (arg3 : Memref sig .tc .vmem S1x128 .f32) (harg3 : arg3.IsWhole) (arg4 : Memref sig .tc .vmem S4x128x4096 .f32) (harg4 : arg4.IsWhole) (arg5 : Memref sig .tc .vmem S4x128x4096 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x128 .f32) (harg10 : arg10.IsWhole) (x0 : Vec Ideal S1x4096 .f32) (x1 : Vec Ideal S1x4096 .f32) (x2 : Vec Ideal S1x128 .f32) (x3 : Vec Ideal S4x128x4096 .f32) (x4 : Vec Ideal S4x128x4096 .f32) (x5 : Vec Ideal S4x128 .f32) (x6 : Vec Ideal S4x128 .f32)
    (xi h cp : Fin 4096 → EReal) (Wih Whh : Fin 16384 → Fin 4096 → EReal) (bih bhh : Fin 16384 → EReal) (n : ℕ) (hn : n < 32)
    (h0 : ∀ k : Fin 4096, x0 (ix2 (0 : Fin 1) k) = xi k) (h1 : ∀ k : Fin 4096, x1 (ix2 (0 : Fin 1) k) = h k)
    (h2 : ∀ q : Fin 128, x2 (ix2 (0 : Fin 1) q) = cp (⟨n * 128 + q.val, by have := q.isLt; omega⟩ : Fin 4096))
    (h3 : ∀ (g : Fin 4) (q : Fin 128) (k : Fin 4096), x3 (ix3 g q k) = Wih (Cert.Lstm.row g (⟨n * 128 + q.val, by have := q.isLt; omega⟩ : Fin 4096)) k)
    (h4 : ∀ (g : Fin 4) (q : Fin 128) (k : Fin 4096), x4 (ix3 g q k) = Whh (Cert.Lstm.row g (⟨n * 128 + q.val, by have := q.isLt; omega⟩ : Fin 4096)) k)
    (h5 : ∀ (g : Fin 4) (q : Fin 128), x5 (ix2 g q) = bih (Cert.Lstm.row g (⟨n * 128 + q.val, by have := q.isLt; omega⟩ : Fin 4096)))
    (h6 : ∀ (g : Fin 4) (q : Fin 128), x6 (ix2 g q) = bhh (Cert.Lstm.row g (⟨n * 128 + q.val, by have := q.isLt; omega⟩ : Fin 4096))) (q : Fin 128) :
    GenP.out1_A_8 (F := Ideal) c i arg1 harg1 arg2 harg2 arg3 harg3 arg4 harg4 arg5 harg5 arg6 harg6 arg7 harg7 arg8 harg8 arg9 harg9 arg10 harg10 x0 x1 x2 x3 x4 x5 x6 (ix2 (0 : Fin 1) q)
      = Cert.Lstm.cell (Cert.Lstm.pre xi h Wih Whh bih bhh) cp (⟨n * 128 + q.val, by have := q.isLt; omega⟩ : Fin 4096) := by
  rw [MidPieces.out8_eq, MidPayload.cell_pay_apply,
    scratch_row0, scratch_row1, scratch_row2, rd_blk arg3 harg3 x2, h2 q,
    gate_value x0 x1 x3 x4 x5 x6 xi h cp Wih Whh bih bhh n hn h0 h1 h3 h4 h5 h6 (0 : Fin 4) q,
    gate_value x0 x1 x3 x4 x5 x6 xi h cp Wih Whh bih bhh n hn h0 h1 h3 h4 h5 h6 (1 : Fin 4) q,
    gate_value x0 x1 x3 x4 x5 x6 xi h cp Wih Whh bih bhh n hn h0 h1 h3 h4 h5 h6 (2 : Fin 4) q]
  rfl

end Cert.KernelIdeal.MidPoint

end
-- ==== Proof.MidArray.lean ====
/-
  The cell step (region 1) from blocks to arrays. The step runs over 32 grid points; point `t` loads the two whole
  vectors, columns `t · 128 …` of the old cell state and, for each of the four gates, units `t · 128 …` of the two
  stacked weight matrices and of the two stacked biases, and stores columns `t · 128 …` of the new hidden state and of
  the new cell state. Each input block is read as entries of the array the region finds; with the reading of the body at
  one grid point, the block a point writes back is that point's block of ONE function of those arrays —
  `Cert.Lstm.hidden` or `Cert.Lstm.cell` of the pre-activations `Cert.Lstm.pre` —, and the 32 blocks tile each output
  array, so each array ends holding that function.
-/
import proofs.«181757_j22763326668968_2_alg».proof.Proof.FramePIdeal
import proofs.«181757_j22763326668968_2_alg».proof.Proof.LstmSpec
import proofs.«181757_j22763326668968_2_alg».proof.Proof.MidPoint
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MidArray

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx
open scoped BigOperators

section Region1

variable (V : (c : Dev nD) → (b : Ref sig .tc) → Buf (Elt Ideal) ((c : Thread nD τ).loc b))

/-! ## The printed index maps over the 32 grid points: the two vectors' windows stay, every other window moves
    along the axis of the 4096 units -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)
theorem idx1_3 : ∀ t : Fin cfg1.N, win1_3.index t (0 : Fin 3) = 0 ∧ win1_3.index t (1 : Fin 3) = t.val ∧ win1_3.index t (2 : Fin 3) = 0 :=
  (by decide +kernel : ∀ t : Fin grid1.N, _)
theorem idx1_4 : ∀ t : Fin cfg1.N, win1_4.index t (0 : Fin 3) = 0 ∧ win1_4.index t (1 : Fin 3) = t.val ∧ win1_4.index t (2 : Fin 3) = 0 :=
  (by decide +kernel : ∀ t : Fin grid1.N, _)
theorem idx1_5 : ∀ t : Fin cfg1.N, win1_5.index t (0 : Fin 2) = 0 ∧ win1_5.index t (1 : Fin 2) = t.val :=
  (by decide +kernel : ∀ t : Fin grid1.N, _)
theorem idx1_6 : ∀ t : Fin cfg1.N, win1_6.index t (0 : Fin 2) = 0 ∧ win1_6.index t (1 : Fin 2) = t.val :=
  (by decide +kernel : ∀ t : Fin grid1.N, _)
theorem idx1_7 : ∀ t : Fin cfg1.N, win1_7.index t (0 : Fin 2) = 0 ∧ win1_7.index t (1 : Fin 2) = t.val :=
  (by decide +kernel : ∀ t : Fin grid1.N, _)
theorem idx1_8 : ∀ t : Fin cfg1.N, win1_8.index t (0 : Fin 2) = 0 ∧ win1_8.index t (1 : Fin 2) = t.val :=
  (by decide +kernel : ∀ t : Fin grid1.N, _)

/-! ## Each input block as entries of the array the region finds -/

/-- The projected input's block at any point is the projected input. -/
theorem blk1_0 (c : Dev nD) (t : Fin cfg1.N) (k : Fin 4096) :
    (iblk1 V c 0 t : Vec Ideal S1x4096 .f32) (ix2 (0 : Fin 1) k) = (V c main_v1 : S1x4096.Idx → EReal) (ix2 (0 : Fin 1) k) := by
  obtain ⟨e0, e1⟩ := idx1_0 t
  unfold iblk1
  rw [View.read_apply]
  show (V c main_v1 : S1x4096.Idx → EReal) _ = V c main_v1 _
  refine congrArg _ (funext fun a => Fin.ext ?_)
  match a with
  | ⟨0, _⟩ => show win1_0.index t (0 : Fin 2) * 1 + 1 * (0 : Fin 1).val = (0 : Fin 1).val; rw [e0]; rfl
  | ⟨1, _⟩ => show win1_0.index t (1 : Fin 2) * 4096 + 1 * k.val = k.val; rw [e1]; omega

/-- The old hidden state's block at any point is the old hidden state. -/
theorem blk1_1 (c : Dev nD) (t : Fin cfg1.N) (k : Fin 4096) :
    (iblk1 V c 1 t : Vec Ideal S1x4096 .f32) (ix2 (0 : Fin 1) k) = (V c main_v2 : S1x4096.Idx → EReal) (ix2 (0 : Fin 1) k) := by
  obtain ⟨e0, e1⟩ := idx1_1 t
  unfold iblk1
  rw [View.read_apply]
  show (V c main_v2 : S1x4096.Idx → EReal) _ = V c main_v2 _
  refine congrArg _ (funext fun a => Fin.ext ?_)
  match a with
  | ⟨0, _⟩ => show win1_1.index t (0 : Fin 2) * 1 + 1 * (0 : Fin 1).val = (0 : Fin 1).val; rw [e0]; rfl
  | ⟨1, _⟩ => show win1_1.index t (1 : Fin 2) * 4096 + 1 * k.val = k.val; rw [e1]; omega

/-- The old cell state's block at point `t` is columns `t · 128 …` of the old cell state. -/
theorem blk1_2 (c : Dev nD) (t : Fin cfg1.N) (q : Fin 128) :
    (iblk1 V c 2 t : Vec Ideal S1x128 .f32) (ix2 (0 : Fin 1) q) = (V c main_v3 : S1x4096.Idx → EReal) (ix2 (0 : Fin 1) (⟨t.val * 128 + q.val, by have := q.isLt; have := t.isLt; have hN : cfg1.N = 32 := N_1; omega⟩ : Fin 4096)) := by
  obtain ⟨e0, e1⟩ := idx1_2 t
  unfold iblk1
  rw [View.read_apply]
  show (V c main_v3 : S1x4096.Idx → EReal) _ = V c main_v3 _
  refine congrArg _ (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 128 + 1 * q.val = t.val * 128 + q.val; rw [e1]; omega

/-- The input-to-gate weights' block at point `t`: for each gate, units `t · 128 …`. -/
theorem blk1_3 (c : Dev nD) (t : Fin cfg1.N) (g : Fin 4) (q : Fin 128) (k : Fin 4096) :
    (iblk1 V c 3 t : Vec Ideal S4x128x4096 .f32) (ix3 g q k) = (V c main_v4 : S4x4096x4096.Idx → EReal) (ix3 g (⟨t.val * 128 + q.val, by have := q.isLt; have := t.isLt; have hN : cfg1.N = 32 := N_1; omega⟩ : Fin 4096) k) := by
  obtain ⟨e0, e1, e2⟩ := idx1_3 t
  unfold iblk1
  rw [View.read_apply]
  show (V c main_v4 : S4x4096x4096.Idx → EReal) _ = V c main_v4 _
  refine congrArg _ (funext fun a => Fin.ext ?_)
  match a with
  | ⟨0, _⟩ => show win1_3.index t (0 : Fin 3) * 4 + 1 * g.val = g.val; rw [e0]; omega
  | ⟨1, _⟩ => show win1_3.index t (1 : Fin 3) * 128 + 1 * q.val = t.val * 128 + q.val; rw [e1]; omega
  | ⟨2, _⟩ => show win1_3.index t (2 : Fin 3) * 4096 + 1 * k.val = k.val; rw [e2]; omega

/-- The hidden-to-gate weights' block at point `t`: for each gate, units `t · 128 …`. -/
theorem blk1_4 (c : Dev nD) (t : Fin cfg1.N) (g : Fin 4) (q : Fin 128) (k : Fin 4096) :
    (iblk1 V c 4 t : Vec Ideal S4x128x4096 .f32) (ix3 g q k) = (V c main_v5 : S4x4096x4096.Idx → EReal) (ix3 g (⟨t.val * 128 + q.val, by have := q.isLt; have := t.isLt; have hN : cfg1.N = 32 := N_1; omega⟩ : Fin 4096) k) := by
  obtain ⟨e0, e1, e2⟩ := idx1_4 t
  unfold iblk1
  rw [View.read_apply]
  show (V c main_v5 : S4x4096x4096.Idx → EReal) _ = V c main_v5 _
  refine congrArg _ (funext fun a => Fin.ext ?_)
  match a with
  | ⟨0, _⟩ => show win1_4.index t (0 : Fin 3) * 4 + 1 * g.val = g.val; rw [e0]; omega
  | ⟨1, _⟩ => show win1_4.index t (1 : Fin 3) * 128 + 1 * q.val = t.val * 128 + q.val; rw [e1]; omega
  | ⟨2, _⟩ => show win1_4.index t (2 : Fin 3) * 4096 + 1 * k.val = k.val; rw [e2]; omega

/-- The input-to-gate bias's block at point `t`: for each gate, units `t · 128 …`. -/
theorem blk1_5 (c : Dev nD) (t : Fin cfg1.N) (g : Fin 4) (q : Fin 128) :
    (iblk1 V c 5 t : Vec Ideal S4x128 .f32) (ix2 g q) = (V c main_v6 : S4x4096.Idx → EReal) (ix2 g (⟨t.val * 128 + q.val, by have := q.isLt; have := t.isLt; have hN : cfg1.N = 32 := N_1; omega⟩ : Fin 4096)) := by
  obtain ⟨e0, e1⟩ := idx1_5 t
  unfold iblk1
  rw [View.read_apply]
  show (V c main_v6 : S4x4096.Idx → EReal) _ = V c main_v6 _
  refine congrArg _ (funext fun a => Fin.ext ?_)
  match a with
  | ⟨0, _⟩ => show win1_5.index t (0 : Fin 2) * 4 + 1 * g.val = g.val; rw [e0]; omega
  | ⟨1, _⟩ => show win1_5.index t (1 : Fin 2) * 128 + 1 * q.val = t.val * 128 + q.val; rw [e1]; omega

/-- The hidden-to-gate bias's block at point `t`: for each gate, units `t · 128 …`. -/
theorem blk1_6 (c : Dev nD) (t : Fin cfg1.N) (g : Fin 4) (q : Fin 128) :
    (iblk1 V c 6 t : Vec Ideal S4x128 .f32) (ix2 g q) = (V c main_v7 : S4x4096.Idx → EReal) (ix2 g (⟨t.val * 128 + q.val, by have := q.isLt; have := t.isLt; have hN : cfg1.N = 32 := N_1; omega⟩ : Fin 4096)) := by
  obtain ⟨e0, e1⟩ := idx1_6 t
  unfold iblk1
  rw [View.read_apply]
  show (V c main_v7 : S4x4096.Idx → EReal) _ = V c main_v7 _
  refine congrArg _ (funext fun a => Fin.ext ?_)
  match a with
  | ⟨0, _⟩ => show win1_6.index t (0 : Fin 2) * 4 + 1 * g.val = g.val; rw [e0]; omega
  | ⟨1, _⟩ => show win1_6.index t (1 : Fin 2) * 128 + 1 * q.val = t.val * 128 + q.val; rw [e1]; omega

/-! ## From blocks to the two arrays -/

/-- What point `t` writes back to the hidden-state array is block `t` of the new hidden state. -/
theorem flushed7_eq (c : Dev nD) (xi h cp : Fin 4096 → EReal) (Wih Whh : Fin 16384 → Fin 4096 → EReal) (bih bhh : Fin 16384 → EReal)
    (H1 : ∀ k : Fin 4096, (V c main_v1 : S1x4096.Idx → EReal) (ix2 (0 : Fin 1) k) = xi k)
    (H2 : ∀ k : Fin 4096, (V c main_v2 : S1x4096.Idx → EReal) (ix2 (0 : Fin 1) k) = h k)
    (H3 : ∀ k : Fin 4096, (V c main_v3 : S1x4096.Idx → EReal) (ix2 (0 : Fin 1) k) = cp k)
    (H4 : ∀ (g : Fin 4) (p k : Fin 4096), (V c main_v4 : S4x4096x4096.Idx → EReal) (ix3 g p k) = Wih (Cert.Lstm.row g p) k)
    (H5 : ∀ (g : Fin 4) (p k : Fin 4096), (V c main_v5 : S4x4096x4096.Idx → EReal) (ix3 g p k) = Whh (Cert.Lstm.row g p) k)
    (H6 : ∀ (g : Fin 4) (p : Fin 4096), (V c main_v6 : S4x4096.Idx → EReal) (ix2 g p) = bih (Cert.Lstm.row g p))
    (H7 : ∀ (g : Fin 4) (p : Fin 4096), (V c main_v7 : S4x4096.Idx → EReal) (ix2 g p) = bhh (Cert.Lstm.row g p)) (t : Fin cfg1.N) :
    (dat1 (F := Ideal) V c).flushed 7 t = ((cfg1.win 7).blk t).view.read (Elt Ideal)
      (fun i : S1x4096.Idx => Cert.Lstm.hidden (Cert.Lstm.pre xi h Wih Whh bih bhh) cp (i 1)) := by
  show (cfg1.win 7).cut (grid1.coords t) ((dat1 V c).after 7 t) = _
  rw [after1_7]
  have hN : cfg1.N = 32 := N_1
  have ht := t.isLt
  obtain ⟨e0, e1⟩ := idx1_7 t
  funext j
  obtain ⟨p, q, rfl⟩ : ∃ (p : Fin 1) (q : Fin 128), j = ix2 p q := ⟨j 0, j 1, eq_ix2 j⟩
  obtain rfl : p = 0 := Subsingleton.elim _ _
  show (outsAt1 V c t).1 (ix2 (0 : Fin 1) q)
    = Cert.Lstm.hidden (Cert.Lstm.pre xi h Wih Whh bih bhh) cp ((((cfg1.win 7).blk t).view.emb (ix2 (0 : Fin 1) q)) 1)
  refine (Cert.KernelIdeal.MidPoint.point_hidden c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) scM1_0 (Memref.isWhole_whole _)
    (iblk1 V c 0 t) (iblk1 V c 1 t) (iblk1 V c 2 t) (iblk1 V c 3 t) (iblk1 V c 4 t) (iblk1 V c 5 t) (iblk1 V c 6 t)
    xi h cp Wih Whh bih bhh t.val (by omega)
    (fun k => (blk1_0 V c t k).trans (H1 k))
    (fun k => (blk1_1 V c t k).trans (H2 k))
    (fun q => (blk1_2 V c t q).trans (H3 _))
    (fun g q k => (blk1_3 V c t g q k).trans (H4 g _ k))
    (fun g q k => (blk1_4 V c t g q k).trans (H5 g _ k))
    (fun g q => (blk1_5 V c t g q).trans (H6 g _))
    (fun g q => (blk1_6 V c t g q).trans (H7 g _)) q).trans ?_
  refine congrArg _ (Fin.ext ?_)
  show t.val * 128 + q.val = win1_7.index t (1 : Fin 2) * 128 + 1 * q.val
  rw [e1]; omega

/-- What point `t` writes back to the cell-state array is block `t` of the new cell state. -/
theorem flushed8_eq (c : Dev nD) (xi h cp : Fin 4096 → EReal) (Wih Whh : Fin 16384 → Fin 4096 → EReal) (bih bhh : Fin 16384 → EReal)
    (H1 : ∀ k : Fin 4096, (V c main_v1 : S1x4096.Idx → EReal) (ix2 (0 : Fin 1) k) = xi k)
    (H2 : ∀ k : Fin 4096, (V c main_v2 : S1x4096.Idx → EReal) (ix2 (0 : Fin 1) k) = h k)
    (H3 : ∀ k : Fin 4096, (V c main_v3 : S1x4096.Idx → EReal) (ix2 (0 : Fin 1) k) = cp k)
    (H4 : ∀ (g : Fin 4) (p k : Fin 4096), (V c main_v4 : S4x4096x4096.Idx → EReal) (ix3 g p k) = Wih (Cert.Lstm.row g p) k)
    (H5 : ∀ (g : Fin 4) (p k : Fin 4096), (V c main_v5 : S4x4096x4096.Idx → EReal) (ix3 g p k) = Whh (Cert.Lstm.row g p) k)
    (H6 : ∀ (g : Fin 4) (p : Fin 4096), (V c main_v6 : S4x4096.Idx → EReal) (ix2 g p) = bih (Cert.Lstm.row g p))
    (H7 : ∀ (g : Fin 4) (p : Fin 4096), (V c main_v7 : S4x4096.Idx → EReal) (ix2 g p) = bhh (Cert.Lstm.row g p)) (t : Fin cfg1.N) :
    (dat1 (F := Ideal) V c).flushed 8 t = ((cfg1.win 8).blk t).view.read (Elt Ideal)
      (fun i : S1x4096.Idx => Cert.Lstm.cell (Cert.Lstm.pre xi h Wih Whh bih bhh) cp (i 1)) := by
  show (cfg1.win 8).cut (grid1.coords t) ((dat1 V c).after 8 t) = _
  rw [after1_8]
  have hN : cfg1.N = 32 := N_1
  have ht := t.isLt
  obtain ⟨e0, e1⟩ := idx1_8 t
  funext j
  obtain ⟨p, q, rfl⟩ : ∃ (p : Fin 1) (q : Fin 128), j = ix2 p q := ⟨j 0, j 1, eq_ix2 j⟩
  obtain rfl : p = 0 := Subsingleton.elim _ _
  show (outsAt1 V c t).2 (ix2 (0 : Fin 1) q)
    = Cert.Lstm.cell (Cert.Lstm.pre xi h Wih Whh bih bhh) cp ((((cfg1.win 8).blk t).view.emb (ix2 (0 : Fin 1) q)) 1)
  refine (Cert.KernelIdeal.MidPoint.point_cell c (grid1.coords t) (ms1_0 t) (hs1_0 t) (ms1_1 t) (hs1_1 t) (ms1_2 t) (hs1_2 t) (ms1_3 t) (hs1_3 t) (ms1_4 t) (hs1_4 t)
    (ms1_5 t) (hs1_5 t) (ms1_6 t) (hs1_6 t) (ms1_7 t) (hs1_7 t) (ms1_8 t) (hs1_8 t) scM1_0 (Memref.isWhole_whole _)
    (iblk1 V c 0 t) (iblk1 V c 1 t) (iblk1 V c 2 t) (iblk1 V c 3 t) (iblk1 V c 4 t) (iblk1 V c 5 t) (iblk1 V c 6 t)
    xi h cp Wih Whh bih bhh t.val (by omega)
    (fun k => (blk1_0 V c t k).trans (H1 k))
    (fun k => (blk1_1 V c t k).trans (H2 k))
    (fun q => (blk1_2 V c t q).trans (H3 _))
    (fun g q k => (blk1_3 V c t g q k).trans (H4 g _ k))
    (fun g q k => (blk1_4 V c t g q k).trans (H5 g _ k))
    (fun g q => (blk1_5 V c t g q).trans (H6 g _))
    (fun g q => (blk1_6 V c t g q).trans (H7 g _)) q).trans ?_
  refine congrArg _ (Fin.ext ?_)
  show t.val * 128 + q.val = win1_8.index t (1 : Fin 2) * 128 + 1 * q.val
  rw [e1]; omega

/-- An index of the array is in point `t`'s block iff each coordinate is in the block's range on its axis. -/
theorem mem_blk7 (t : Fin cfg1.N) (i : S1x4096.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v8_0).slice (win1_7.rect t)).set ↔ _
  rw [View.set_slice_whole, Rect.mem_set_unit]
  exact Iff.rfl

/-- Column `j` of the array is in the block of point `j / 128`. -/
theorem cover7 (i : S1x4096.Idx) : ∃ t : Fin cfg1.N, (cfg1.win 7).flush t = true ∧ i ∈ ((cfg1.win 7).blk t).view.set := by
  have hN : cfg1.N = 32 := N_1
  have hi0 : (i 0).val < 1 := (i 0).isLt
  have hi1 : (i 1).val < 4096 := (i 1).isLt
  obtain ⟨t, ht⟩ : ∃ t : Fin cfg1.N, t.val = (i 1).val / 128 := ⟨⟨(i 1).val / 128, by omega⟩, rfl⟩
  obtain ⟨e0, e1⟩ := idx1_7 t
  refine ⟨t, flush1_7 t, ?_⟩
  rw [mem_blk7]
  intro a
  match a with
  | ⟨0, _⟩ => show win1_7.index t (0 : Fin 2) * 1 ≤ (i 0).val ∧ (i 0).val < win1_7.index t (0 : Fin 2) * 1 + 1; rw [e0]; omega
  | ⟨1, _⟩ => show win1_7.index t (1 : Fin 2) * 128 ≤ (i 1).val ∧ (i 1).val < win1_7.index t (1 : Fin 2) * 128 + 128; rw [e1, ht]; omega

/-- An index of the array is in point `t`'s block iff each coordinate is in the block's range on its axis. -/
theorem mem_blk8 (t : Fin cfg1.N) (i : S1x4096.Idx) :
    i ∈ ((cfg1.win 8).blk t).view.set ↔ ∀ a : Fin 2, win1_8.index t a * S1x128.size a ≤ (i a).val ∧ (i a).val < win1_8.index t a * S1x128.size a + S1x128.size a := by
  show i ∈ ((View.whole main_v8_1).slice (win1_8.rect t)).set ↔ _
  rw [View.set_slice_whole, Rect.mem_set_unit]
  exact Iff.rfl

/-- Column `j` of the array is in the block of point `j / 128`. -/
theorem cover8 (i : S1x4096.Idx) : ∃ t : Fin cfg1.N, (cfg1.win 8).flush t = true ∧ i ∈ ((cfg1.win 8).blk t).view.set := by
  have hN : cfg1.N = 32 := N_1
  have hi0 : (i 0).val < 1 := (i 0).isLt
  have hi1 : (i 1).val < 4096 := (i 1).isLt
  obtain ⟨t, ht⟩ : ∃ t : Fin cfg1.N, t.val = (i 1).val / 128 := ⟨⟨(i 1).val / 128, by omega⟩, rfl⟩
  obtain ⟨e0, e1⟩ := idx1_8 t
  refine ⟨t, flush1_8 t, ?_⟩
  rw [mem_blk8]
  intro a
  match a with
  | ⟨0, _⟩ => show win1_8.index t (0 : Fin 2) * 1 ≤ (i 0).val ∧ (i 0).val < win1_8.index t (0 : Fin 2) * 1 + 1; rw [e0]; omega
  | ⟨1, _⟩ => show win1_8.index t (1 : Fin 2) * 128 ≤ (i 1).val ∧ (i 1).val < win1_8.index t (1 : Fin 2) * 128 + 128; rw [e1, ht]; omega

/-- THE NEW HIDDEN STATE'S ARRAY after the region. -/
theorem region1_hidden (c : Dev nD) : ∀ (xi h cp : Fin 4096 → EReal) (Wih Whh : Fin 16384 → Fin 4096 → EReal) (bih bhh : Fin 16384 → EReal),
      (∀ k : Fin 4096, (V c main_v1 : S1x4096.Idx → EReal) (ix2 (0 : Fin 1) k) = xi k) →
      (∀ k : Fin 4096, (V c main_v2 : S1x4096.Idx → EReal) (ix2 (0 : Fin 1) k) = h k) →
      (∀ k : Fin 4096, (V c main_v3 : S1x4096.Idx → EReal) (ix2 (0 : Fin 1) k) = cp k) →
      (∀ (g : Fin 4) (p k : Fin 4096), (V c main_v4 : S4x4096x4096.Idx → EReal) (ix3 g p k) = Wih (Cert.Lstm.row g p) k) →
      (∀ (g : Fin 4) (p k : Fin 4096), (V c main_v5 : S4x4096x4096.Idx → EReal) (ix3 g p k) = Whh (Cert.Lstm.row g p) k) →
      (∀ (g : Fin 4) (p : Fin 4096), (V c main_v6 : S4x4096.Idx → EReal) (ix2 g p) = bih (Cert.Lstm.row g p)) →
      (∀ (g : Fin 4) (p : Fin 4096), (V c main_v7 : S4x4096.Idx → EReal) (ix2 g p) = bhh (Cert.Lstm.row g p)) →
      (dat1 (F := Ideal) V c).arrAt 7 cfg1.N = fun i : S1x4096.Idx => Cert.Lstm.hidden (Cert.Lstm.pre xi h Wih Whh bih bhh) cp (i 1) :=
  fun xi h cp Wih Whh bih bhh H1 H2 H3 H4 H5 H6 H7 =>
    (dat1 (F := Ideal) V c).arrAt_eq_of_cover 7 _ (fun t _ => flushed7_eq V c xi h cp Wih Whh bih bhh H1 H2 H3 H4 H5 H6 H7 t) cover7

/-- THE NEW CELL STATE'S ARRAY after the region. -/
theorem region1_cell (c : Dev nD) : ∀ (xi h cp : Fin 4096 → EReal) (Wih Whh : Fin 16384 → Fin 4096 → EReal) (bih bhh : Fin 16384 → EReal),
      (∀ k : Fin 4096, (V c main_v1 : S1x4096.Idx → EReal) (ix2 (0 : Fin 1) k) = xi k) →
      (∀ k : Fin 4096, (V c main_v2 : S1x4096.Idx → EReal) (ix2 (0 : Fin 1) k) = h k) →
      (∀ k : Fin 4096, (V c main_v3 : S1x4096.Idx → EReal) (ix2 (0 : Fin 1) k) = cp k) →
      (∀ (g : Fin 4) (p k : Fin 4096), (V c main_v4 : S4x4096x4096.Idx → EReal) (ix3 g p k) = Wih (Cert.Lstm.row g p) k) →
      (∀ (g : Fin 4) (p k : Fin 4096), (V c main_v5 : S4x4096x4096.Idx → EReal) (ix3 g p k) = Whh (Cert.Lstm.row g p) k) →
      (∀ (g : Fin 4) (p : Fin 4096), (V c main_v6 : S4x4096.Idx → EReal) (ix2 g p) = bih (Cert.Lstm.row g p)) →
      (∀ (g : Fin 4) (p : Fin 4096), (V c main_v7 : S4x4096.Idx → EReal) (ix2 g p) = bhh (Cert.Lstm.row g p)) →
      (dat1 (F := Ideal) V c).arrAt 8 cfg1.N = fun i : S1x4096.Idx => Cert.Lstm.cell (Cert.Lstm.pre xi h Wih Whh bih bhh) cp (i 1) :=
  fun xi h cp Wih Whh bih bhh H1 H2 H3 H4 H5 H6 H7 =>
    (dat1 (F := Ideal) V c).arrAt_eq_of_cover 8 _ (fun t _ => flushed8_eq V c xi h cp Wih Whh bih bhh H1 H2 H3 H4 H5 H6 H7 t) cover8

end Region1

end Cert.KernelIdeal.MidArray

end
-- ==== Proof.RefSide.lean ====
/-
  The reference program computes the long short-term memory step of the specification.

  Read one operation at a time, the reference forms xi = x · W_inᵀ + b_in, then the gate pre-activations
  z = ((xi · W_ihᵀ + b_ih) + h · W_hhᵀ) + b_hh (the four terms in this order; on the extended reals the order does
  not matter), cuts z into the four gates i, f, g, o at the column offsets 0, 4096, 8192, 12288, writes the sigmoid as
  the quotient 1 / (1 + e^(-t)), and forms c' = σ(f) · c + σ(i) · tanh(g), h' = σ(o) · tanh(c') and
  out = h' · W_outᵀ + b_out. Each stage is identified, index by index, with the specification's function of the same
  name; the three results are then the specification's three arrays.
-/
import proofs.«181757_j22763326668968_2_alg».proof.Proof.Gen.ReferenceIdeal.Read
import proofs.«181757_j22763326668968_2_alg».proof.Proof.LstmSpec

noncomputable section

namespace Cert.ReferenceIdeal.RefValue

open Cert.ReferenceIdeal Cert.ReferenceIdeal.Gen Idealize.ShloMosaic Idealize.ShloMosaic.ValueIdx
open scoped BigOperators

variable (x0 : (⟨S1x1024, .f32⟩ : BufTy).Contents (Elt Ideal)) (x1 x2 : (⟨S1x1x4096, .f32⟩ : BufTy).Contents (Elt Ideal))
  (x3 : (⟨S4096x1024, .f32⟩ : BufTy).Contents (Elt Ideal)) (x4 : (⟨S4096, .f32⟩ : BufTy).Contents (Elt Ideal))
  (x5 x6 : (⟨S16384x4096, .f32⟩ : BufTy).Contents (Elt Ideal)) (x7 x8 : (⟨S16384, .f32⟩ : BufTy).Contents (Elt Ideal))
  (x9 : (⟨S1024x4096, .f32⟩ : BufTy).Contents (Elt Ideal)) (x10 : (⟨S1024, .f32⟩ : BufTy).Contents (Elt Ideal))

/-! ## The projected input -/

/-- The left operand of the first product is read in row 0 at the summation index. -/
theorem lidx_v1 (j : Fin 4096) (k : Fin 1024) : Read.lidx_main_v1 (ix2 (0 : Fin 1) j) k = ix2 (0 : Fin 1) k :=
  funext fun a => match a with | ⟨0, _⟩ => rfl | ⟨1, _⟩ => rfl

/-- The transposed input weight at (k, j) is the weight at (j, k). -/
theorem ridx_v1 (j : Fin 4096) (k : Fin 1024) : Read.idx_main_v0 (Read.ridx_main_v1 (ix2 (0 : Fin 1) j) k) = ix2 j k :=
  funext fun a => match a with | ⟨0, _⟩ => rfl | ⟨1, _⟩ => rfl

/-- The input bias broadcast along the row is read at the column. -/
theorem idx_v2 (j : Fin 4096) : Read.idx_main_v2 (ix2 (0 : Fin 1) j) = ix1 j :=
  funext fun a => match a with | ⟨0, _⟩ => rfl

/-- xi = x · W_inᵀ + b_in, entry by entry. -/
theorem xi_eq (j : Fin 4096) :
    Read.val_main_v3 (F := Ideal) x0 x3 x4 (ix2 (0 : Fin 1) j) = Cert.Lstm.xiOf x0 x3 x4 j := by
  rw [Read.val_main_v3_apply, Read.val_main_v1_apply, Read.val_main_v2_apply]
  simp only [Read.val_main_v0_apply, lidx_v1, ridx_v1, idx_v2, Ideal.addf_def]
  rfl

/-! ## The gate pre-activations -/

/-- The left operand of a gate product is read in row 0 at the summation index. -/
theorem lidx_v7 (r : Fin 16384) (k : Fin 4096) : Read.lidx_main_v7 (ix2 (0 : Fin 1) r) k = ix2 (0 : Fin 1) k :=
  funext fun a => match a with | ⟨0, _⟩ => rfl | ⟨1, _⟩ => rfl

/-- The transposed input-to-hidden weight at (k, r) is the weight at (r, k). -/
theorem ridx_v7 (r : Fin 16384) (k : Fin 4096) : Read.idx_main_v6 (Read.ridx_main_v7 (ix2 (0 : Fin 1) r) k) = ix2 r k :=
  funext fun a => match a with | ⟨0, _⟩ => rfl | ⟨1, _⟩ => rfl

/-- The reshaped hidden state at column k is the hidden state at (0, 0, k). -/
theorem lidx_v11 (r : Fin 16384) (k : Fin 4096) :
    Read.idx_main_v4 (Read.lidx_main_v11 (ix2 (0 : Fin 1) r) k) = ix3 (0 : Fin 1) (0 : Fin 1) k :=
  funext fun a => match a with
    | ⟨0, _⟩ => rfl
    | ⟨1, _⟩ => rfl
    | ⟨2, _⟩ => Fin.ext (by show (0 * 4096 + k.val) % 4096 = k.val; have := k.isLt; omega)

/-- The transposed hidden-to-hidden weight at (k, r) is the weight at (r, k). -/
theorem ridx_v11 (r : Fin 16384) (k : Fin 4096) : Read.idx_main_v10 (Read.ridx_main_v11 (ix2 (0 : Fin 1) r) k) = ix2 r k :=
  funext fun a => match a with | ⟨0, _⟩ => rfl | ⟨1, _⟩ => rfl

/-- A gate bias broadcast along the row is read at the column. -/
theorem idx_v8 (r : Fin 16384) : Read.idx_main_v8 (ix2 (0 : Fin 1) r) = ix1 r :=
  funext fun a => match a with | ⟨0, _⟩ => rfl

theorem idx_v13 (r : Fin 16384) : Read.idx_main_v13 (ix2 (0 : Fin 1) r) = ix1 r :=
  funext fun a => match a with | ⟨0, _⟩ => rfl

/-- z = ((xi · W_ihᵀ + b_ih) + h · W_hhᵀ) + b_hh, entry by entry; the order of the four terms does not matter. -/
theorem z_eq (r : Fin 16384) :
    Read.val_main_v14 (F := Ideal) x0 x1 x3 x4 x5 x6 x7 x8 (ix2 (0 : Fin 1) r) = Cert.Lstm.zOf x0 x1 x3 x4 x5 x6 x7 x8 r := by
  rw [Read.val_main_v14_apply, Read.val_main_v12_apply, Read.val_main_v9_apply, Read.val_main_v7_apply,
    Read.val_main_v8_apply, Read.val_main_v11_apply, Read.val_main_v13_apply]
  simp only [lidx_v7, xi_eq, Read.val_main_v6_apply, ridx_v7, Read.val_main_v4_apply, lidx_v11, Read.val_main_v10_apply,
    ridx_v11, idx_v8, idx_v13, Ideal.addf_def]
  unfold Cert.Lstm.zOf
  rw [← Cert.Lstm.pre_ref_eq_pre]
  rfl

/-! ## The four gates, the new cell state and the new hidden state -/

/-- The slice at column offset 0 is gate 0 (input gate). -/
theorem idx_v15 (j : Fin 4096) : Read.idx_main_v15 (ix2 (0 : Fin 1) j) = ix2 (0 : Fin 1) (Cert.Lstm.row 0 j) :=
  funext fun a => match a with
    | ⟨0, _⟩ => rfl
    | ⟨1, _⟩ => Fin.ext (by show j.val = 0 * 4096 + j.val; omega)

/-- The slice at column offset 4096 is gate 1 (forget gate). -/
theorem idx_v16 (j : Fin 4096) : Read.idx_main_v16 (ix2 (0 : Fin 1) j) = ix2 (0 : Fin 1) (Cert.Lstm.row 1 j) :=
  funext fun a => match a with
    | ⟨0, _⟩ => rfl
    | ⟨1, _⟩ => Fin.ext (by show 4096 + j.val = 1 * 4096 + j.val; omega)

/-- The slice at column offset 8192 is gate 2 (candidate). -/
theorem idx_v17 (j : Fin 4096) : Read.idx_main_v17 (ix2 (0 : Fin 1) j) = ix2 (0 : Fin 1) (Cert.Lstm.row 2 j) :=
  funext fun a => match a with
    | ⟨0, _⟩ => rfl
    | ⟨1, _⟩ => Fin.ext (by show 8192 + j.val = 2 * 4096 + j.val; omega)

/-- The slice at column offset 12288 is gate 3 (output gate). -/
theorem idx_v18 (j : Fin 4096) : Read.idx_main_v18 (ix2 (0 : Fin 1) j) = ix2 (0 : Fin 1) (Cert.Lstm.row 3 j) :=
  funext fun a => match a with
    | ⟨0, _⟩ => rfl
    | ⟨1, _⟩ => Fin.ext (by show 12288 + j.val = 3 * 4096 + j.val; omega)

/-- The reshaped cell state at column j is the cell state at (0, 0, j). -/
theorem idx_v5 (j : Fin 4096) : Read.idx_main_v5 (ix2 (0 : Fin 1) j) = ix3 (0 : Fin 1) (0 : Fin 1) j :=
  funext fun a => match a with
    | ⟨0, _⟩ => rfl
    | ⟨1, _⟩ => rfl
    | ⟨2, _⟩ => Fin.ext (by show (0 * 4096 + j.val) % 4096 = j.val; have := j.isLt; omega)

/-- The forget gate's quotient 1 / (1 + e^(-z_f)) is the logistic function of z_f. -/
theorem sig_f_eq (j : Fin 4096) :
    Read.val_main_v24 (F := Ideal) x0 x1 x3 x4 x5 x6 x7 x8 (ix2 (0 : Fin 1) j)
      = Ideal.logistic (Cert.Lstm.zOf x0 x1 x3 x4 x5 x6 x7 x8 (Cert.Lstm.row 1 j)) := by
  rw [Read.val_main_v24_apply, Read.val_main_v23_apply, Read.val_main_cst_0_apply, Read.val_main_v22_apply,
    Read.val_main_v21_apply, Read.val_main_cst_apply, Read.val_main_v20_apply, Read.val_main_v19_apply,
    Read.val_main_v16_apply, idx_v16, z_eq]
  simp only [Ideal.hostDivf_def, Ideal.addf_def, Ideal.hostUnary_exp_def, Ideal.hostNegf_def, Ideal.negf_def, Ideal.ofBits_def]
  exact Cert.Lstm.quotient_eq_logistic _

/-- The input gate's quotient is the logistic function of z_i. -/
theorem sig_i_eq (j : Fin 4096) :
    Read.val_main_v31 (F := Ideal) x0 x1 x3 x4 x5 x6 x7 x8 (ix2 (0 : Fin 1) j)
      = Ideal.logistic (Cert.Lstm.zOf x0 x1 x3 x4 x5 x6 x7 x8 (Cert.Lstm.row 0 j)) := by
  rw [Read.val_main_v31_apply, Read.val_main_v30_apply, Read.val_main_cst_2_apply, Read.val_main_v29_apply,
    Read.val_main_v28_apply, Read.val_main_cst_1_apply, Read.val_main_v27_apply, Read.val_main_v26_apply,
    Read.val_main_v15_apply, idx_v15, z_eq]
  simp only [Ideal.hostDivf_def, Ideal.addf_def, Ideal.hostUnary_exp_def, Ideal.hostNegf_def, Ideal.negf_def, Ideal.ofBits_def]
  exact Cert.Lstm.quotient_eq_logistic _

/-- The output gate's quotient is the logistic function of z_o. -/
theorem sig_o_eq (j : Fin 4096) :
    Read.val_main_v40 (F := Ideal) x0 x1 x3 x4 x5 x6 x7 x8 (ix2 (0 : Fin 1) j)
      = Ideal.logistic (Cert.Lstm.zOf x0 x1 x3 x4 x5 x6 x7 x8 (Cert.Lstm.row 3 j)) := by
  rw [Read.val_main_v40_apply, Read.val_main_v39_apply, Read.val_main_cst_4_apply, Read.val_main_v38_apply,
    Read.val_main_v37_apply, Read.val_main_cst_3_apply, Read.val_main_v36_apply, Read.val_main_v35_apply,
    Read.val_main_v18_apply, idx_v18, z_eq]
  simp only [Ideal.hostDivf_def, Ideal.addf_def, Ideal.hostUnary_exp_def, Ideal.hostNegf_def, Ideal.negf_def, Ideal.ofBits_def]
  exact Cert.Lstm.quotient_eq_logistic _

/-- The candidate is the hyperbolic tangent of z_g. -/
theorem tanh_g_eq (j : Fin 4096) :
    Read.val_main_v32 (F := Ideal) x0 x1 x3 x4 x5 x6 x7 x8 (ix2 (0 : Fin 1) j)
      = Ideal.tanh (Cert.Lstm.zOf x0 x1 x3 x4 x5 x6 x7 x8 (Cert.Lstm.row 2 j)) := by
  rw [Read.val_main_v32_apply, Read.val_main_v17_apply, idx_v17, z_eq, Ideal.hostUnary_tanh_def]

/-- c' = σ(z_f) · c + σ(z_i) · tanh(z_g), entry by entry. -/
theorem cell_eq (j : Fin 4096) :
    Read.val_main_v34 (F := Ideal) x0 x1 x2 x3 x4 x5 x6 x7 x8 (ix2 (0 : Fin 1) j)
      = Cert.Lstm.cellOf x0 x1 x2 x3 x4 x5 x6 x7 x8 j := by
  rw [Read.val_main_v34_apply, Read.val_main_v25_apply, Read.val_main_v33_apply, sig_f_eq, sig_i_eq, tanh_g_eq,
    Read.val_main_v5_apply, idx_v5]
  simp only [Ideal.addf_def, Ideal.mulf_def]
  rfl

/-- h' = σ(z_o) · tanh(c'), entry by entry. -/
theorem hidden_eq (j : Fin 4096) :
    Read.val_main_v42 (F := Ideal) x0 x1 x2 x3 x4 x5 x6 x7 x8 (ix2 (0 : Fin 1) j)
      = Cert.Lstm.hiddenOf x0 x1 x2 x3 x4 x5 x6 x7 x8 j := by
  rw [Read.val_main_v42_apply, Read.val_main_v41_apply, sig_o_eq, cell_eq]
  simp only [Ideal.mulf_def, Ideal.hostUnary_tanh_def]
  rfl

/-! ## The projected output, and the three results as arrays -/

/-- The left operand of the output product is read in row 0 at the summation index. -/
theorem lidx_v44 (e : Fin 1024) (k : Fin 4096) : Read.lidx_main_v44 (ix2 (0 : Fin 1) e) k = ix2 (0 : Fin 1) k :=
  funext fun a => match a with | ⟨0, _⟩ => rfl | ⟨1, _⟩ => rfl

/-- The transposed output weight at (k, e) is the weight at (e, k). -/
theorem ridx_v44 (e : Fin 1024) (k : Fin 4096) : Read.idx_main_v43 (Read.ridx_main_v44 (ix2 (0 : Fin 1) e) k) = ix2 e k :=
  funext fun a => match a with | ⟨0, _⟩ => rfl | ⟨1, _⟩ => rfl

/-- The output bias broadcast along the row is read at the column. -/
theorem idx_v45 (e : Fin 1024) : Read.idx_main_v45 (ix2 (0 : Fin 1) e) = ix1 e :=
  funext fun a => match a with | ⟨0, _⟩ => rfl

/-- out = h' · W_outᵀ + b_out, entry by entry. -/
theorem out_eq (e : Fin 1024) :
    Read.val_main_v46 (F := Ideal) x0 x1 x2 x3 x4 x5 x6 x7 x8 x9 x10 (ix2 (0 : Fin 1) e)
      = Cert.Lstm.outOf x0 x1 x2 x3 x4 x5 x6 x7 x8 x9 x10 e := by
  rw [Read.val_main_v46_apply, Read.val_main_v44_apply, Read.val_main_v45_apply]
  simp only [lidx_v44, hidden_eq, Read.val_main_v43_apply, ridx_v44, idx_v45, Ideal.addf_def]
  rfl

/-- The broadcast of a row to [1, 1, 4096] is read at the last coordinate. -/
theorem idx_v47 (j : Fin 4096) : Read.idx_main_v47 (ix3 (0 : Fin 1) (0 : Fin 1) j) = ix2 (0 : Fin 1) j :=
  funext fun a => match a with | ⟨0, _⟩ => rfl | ⟨1, _⟩ => rfl

theorem idx_v48 (j : Fin 4096) : Read.idx_main_v48 (ix3 (0 : Fin 1) (0 : Fin 1) j) = ix2 (0 : Fin 1) j :=
  funext fun a => match a with | ⟨0, _⟩ => rfl | ⟨1, _⟩ => rfl

/-- The reference's first result is the specification's output array. -/
theorem ref_out :
    Read.val_main_v46 (F := Ideal) x0 x1 x2 x3 x4 x5 x6 x7 x8 x9 x10 = Cert.Lstm.outArr x0 x1 x2 x3 x4 x5 x6 x7 x8 x9 x10 := by
  funext i
  obtain ⟨p, e, rfl⟩ : ∃ (p : Fin 1) (e : Fin 1024), i = ix2 p e := ⟨i 0, i 1, eq_ix2 i⟩
  obtain rfl : p = 0 := Subsingleton.elim _ _
  exact out_eq x0 x1 x2 x3 x4 x5 x6 x7 x8 x9 x10 e

/-- The reference's second result is the specification's new hidden state. -/
theorem ref_hidden :
    Read.val_main_v47 (F := Ideal) x0 x1 x2 x3 x4 x5 x6 x7 x8 = Cert.Lstm.hiddenArr x0 x1 x2 x3 x4 x5 x6 x7 x8 := by
  funext i
  obtain ⟨p, q, j, rfl⟩ : ∃ (p q : Fin 1) (j : Fin 4096), i = ix3 p q j := ⟨i 0, i 1, i 2, eq_ix3 i⟩
  obtain rfl : p = 0 := Subsingleton.elim _ _
  obtain rfl : q = 0 := Subsingleton.elim _ _
  rw [Read.val_main_v47_apply, idx_v47]
  exact hidden_eq x0 x1 x2 x3 x4 x5 x6 x7 x8 j

/-- The reference's third result is the specification's new cell state. -/
theorem ref_cell :
    Read.val_main_v48 (F := Ideal) x0 x1 x2 x3 x4 x5 x6 x7 x8 = Cert.Lstm.cellArr x0 x1 x2 x3 x4 x5 x6 x7 x8 := by
  funext i
  obtain ⟨p, q, j, rfl⟩ : ∃ (p q : Fin 1) (j : Fin 4096), i = ix3 p q j := ⟨i 0, i 1, i 2, eq_ix3 i⟩
  obtain rfl : p = 0 := Subsingleton.elim _ _
  obtain rfl : q = 0 := Subsingleton.elim _ _
  rw [Read.val_main_v48_apply, idx_v48]
  exact cell_eq x0 x1 x2 x3 x4 x5 x6 x7 x8 j

end Cert.ReferenceIdeal.RefValue

end
-- ==== Proof.lean ====
/-
  One step of a long short-term memory cell between an input and an output projection: a kernel of three launches
  against a plain reference, equal as functions on the extended reals.

  Both programs compute, from x, the states h and c and the weights and biases,

      xi = W_in x + b_in,   z = W_ih xi + W_hh h + b_ih + b_hh  (four gates i, f, g, o of 4096 rows each),
      c' = σ(z_f) · c + σ(z_i) · tanh(z_g),   h' = σ(z_o) · tanh(c'),   out = W_out h' + b_out,

  and return out, h', c'. The kernel's first launch computes xi four blocks of 1024 rows at a time, its second the
  new states 128 hidden units at a time — per unit block the four gates' pre-activations, one gate per trip of a loop,
  each written to its row of a scratch and read back for the update —, its third out four blocks of 256 rows at a
  time; the host only reshapes (the stacked weights to [4, 4096, 4096], the biases to rows, the states to and from
  [1, 1, 4096]). The differences from the reference are of three kinds, none of which changes a value on the extended
  reals: the operands of the products are narrowed to bfloat16 first (the identity there); the four terms of a
  pre-activation are added products first, then biases, where the reference alternates (addition is commutative and
  associative at the infinities too: Cert.Lstm.pre_ref_eq_pre); and σ is one operation where the reference writes the
  quotient 1 / (1 + e^(-t)) (the same function: Cert.Lstm.quotient_eq_logistic). No finiteness of the inputs is used.

  The three results of each program are shown to be the three arrays Cert.Lstm.outArr, hiddenArr, cellArr of the launch
  memory: for the reference from its run read one operation at a time (RefSide), for the kernel from a run that names
  the results at the last segment boundary (KernelRun), walked back through the host stretches (HostSide) to the
  launches' final arrays (EdgeRegions, MidArray over MidPoint, MidPayload, MidPieces, GateLoopIdeal), composed in
  KernelValue. The kernel's two frames are the frame certificates FramePBits / FramePIdeal; the reference's frame is
  its run with the results dropped; nothing was rewritten by the idealization, so its claim is trivial.
-/
import proofs.«181757_j22763326668968_2_alg».proof.Defs
import proofs.«181757_j22763326668968_2_alg».proof.Proof.Gen.Kernel
import proofs.«181757_j22763326668968_2_alg».proof.Proof.Gen.KernelIdeal
import proofs.«181757_j22763326668968_2_alg».proof.Proof.Gen.ReferenceIdeal
import proofs.«181757_j22763326668968_2_alg».proof.Proof.Gen.ReferenceIdeal.Run
import proofs.«181757_j22763326668968_2_alg».proof.Proof.Gen.ReferenceIdeal.Read
import proofs.«181757_j22763326668968_2_alg».proof.Proof.Gen.Pre_finite_inputs
import proofs.«181757_j22763326668968_2_alg».proof.Proof.FramePBits
import proofs.«181757_j22763326668968_2_alg».proof.Proof.FramePIdeal
import proofs.«181757_j22763326668968_2_alg».proof.Proof.KernelRun
import proofs.«181757_j22763326668968_2_alg».proof.Proof.KernelValue
import proofs.«181757_j22763326668968_2_alg».proof.Proof.MidArray
import proofs.«181757_j22763326668968_2_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.GenP.frame m ρ

/-- The idealized kernel runs and keeps its arguments. -/
theorem frame_kernel_ideal : Cert.frame_KernelIdeal := fun m ρ _ => Cert.KernelIdeal.GenP.frame m ρ

/-- The idealized reference runs and keeps its arguments: its run, the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

set_option maxHeartbeats 1000000 in
/-- From memories that agree on the eleven arguments both idealized programs end with the three arrays of the
    specification as results, and their arguments unchanged. -/
theorem algebraic : Cert.algebraic_KernelIdeal_ReferenceIdeal := by
  intro m ρ m' ρ' _ hagree
  refine ⟨fun c => Cert.Lstm.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Lstm.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Lstm.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.ValueRun.run_results (F := Ideal) m ρ)
    obtain ⟨h10, h11, h12, hargs⟩ := h c
    exact ⟨h10.trans (Cert.KernelIdeal.KernelValue.kernel_out m ρ c (Cert.KernelIdeal.MidArray.region1_hidden (Cert.KernelIdeal.GenP.V3 m ρ) c)),
      h11.trans (Cert.KernelIdeal.KernelValue.kernel_hidden m ρ c (Cert.KernelIdeal.MidArray.region1_hidden (Cert.KernelIdeal.GenP.V3 m ρ) c)),
      h12.trans (Cert.KernelIdeal.KernelValue.kernel_cell m ρ c (Cert.KernelIdeal.MidArray.region1_cell (Cert.KernelIdeal.GenP.V3 m ρ) c)), hargs⟩
  · refine (θ_run Cert.ReferenceIdeal.defs _ _).mono (fun r h c => ?_) (Cert.ReferenceIdeal.Value.run (F := Ideal) m' ρ')
    obtain ⟨h46, h47, h48, hargs⟩ := h c
    obtain ⟨a0, a1, a2, a3, a4, a5, a6, a7, a8, a9, a10⟩ := hagree c
    refine ⟨?_, ?_, ?_, hargs⟩
    · rw [h46, Cert.ReferenceIdeal.Read.val_main_v46_eq, Cert.ReferenceIdeal.RefValue.ref_out, a0, a1, a2, a3, a4, a5, a6, a7, a8, a9, a10]
    · rw [h47, Cert.ReferenceIdeal.Read.val_main_v47_eq, Cert.ReferenceIdeal.RefValue.ref_hidden, a0, a1, a2, a3, a4, a5, a6, a7, a8]
    · rw [h48]
      refine (Cert.ReferenceIdeal.Read.val_main_v48_eq (F := Ideal) _ _ _ _ _ _ _ _ _).trans ?_
      rw [Cert.ReferenceIdeal.RefValue.ref_cell, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
